-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v164)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v164) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x3 : Shape := ⟨2, ![2097152, 3]⟩
abbrev S6291456 : Shape := ⟨1, ![6291456]⟩
abbrev S_ : Shape := ⟨0, ![]⟩

class Facts : Prop where
  bcast_S_S2097152x3 : S_.BroadcastsInDim S2097152x3 (![] : Fin 0 → Fin S2097152x3.rank)
  reducesTo_S2097152x3_S_d0_1 : S2097152x3.ReducesTo [0, 1] S_
  h_S_ : 0 < S_.numel
  bcast_S_S6291456 : S_.BroadcastsInDim S6291456 (![] : Fin 0 → Fin S6291456.rank)
  reducesTo_S6291456_S_d0 : S6291456.ReducesTo [0] S_

variable [Facts]

def fn {F : FTy → Type} [FloatOps F] (main_arg0 : FVec F S2097152x3 .f32) (main_arg1 : FVec F S6291456 .f32) : IVec S_ 1 :=
  let main_v0 : FVec F S2097152x3 .f32 := Host.absf main_arg0
  let main_cst : FVec F S_ .f32 := constant S_ .f32 0x7F800000#32
  let main_v1 : FVec F S2097152x3 .f32 := broadcastInDim S2097152x3 ![] bcast_S_S2097152x3 main_cst
  let main_v2 : IVec S2097152x3 1 := cmpf .olt main_v0 main_v1
  let main_c : IVec S_ 1 := constantI S_ 1 1#1
  let main_v3 : IVec S_ 1 := (fun x v => Host.reduce IntOp.andi x v reducesTo_S2097152x3_S_d0_1 h_S_) main_v2 main_c
  let main_v4 : FVec F S6291456 .f32 := Host.absf main_arg1
  let main_cst_0 : FVec F S_ .f32 := constant S_ .f32 0x7F800000#32
  let main_v5 : FVec F S6291456 .f32 := broadcastInDim S6291456 ![] bcast_S_S6291456 main_cst_0
  let main_v6 : IVec S6291456 1 := cmpf .olt main_v4 main_v5
  let main_c_1 : IVec S_ 1 := constantI S_ 1 1#1
  let main_v7 : IVec S_ 1 := (fun x v => Host.reduce IntOp.andi x v reducesTo_S6291456_S_d0 h_S_) main_v6 main_c_1
  let main_v8 : IVec S_ 1 := andi main_v3 main_v7
  main_v8
-- ==== Kernel.lean ====
abbrev S2097152x3 : Shape := ⟨2, ![2097152, 3]⟩
abbrev S6291456 : Shape := ⟨1, ![6291456]⟩
abbrev S4 : Shape := ⟨1, ![4]⟩
abbrev S3 : Shape := ⟨1, ![3]⟩
abbrev S2097152x1x3 : Shape := ⟨3, ![2097152, 1, 3]⟩
abbrev S1x4x1 : Shape := ⟨3, ![1, 4, 1]⟩
abbrev S_ : Shape := ⟨0, ![]⟩
abbrev S2097152x4x3 : Shape := ⟨3, ![2097152, 4, 3]⟩
abbrev S3x1 : Shape := ⟨2, ![3, 1]⟩
abbrev S3x1048576x2 : Shape := ⟨3, ![3, 1048576, 2]⟩
abbrev S1x1x3 : Shape := ⟨3, ![1, 1, 3]⟩
abbrev S2097152x4x3x1 : Shape := ⟨4, ![2097152, 4, 3, 1]⟩
abbrev S2097152x4x3x2 : Shape := ⟨4, ![2097152, 4, 3, 2]⟩
abbrev S2097152x4x4x2 : Shape := ⟨4, ![2097152, 4, 4, 2]⟩
abbrev S128x4x3x2 : Shape := ⟨4, ![128, 4, 3, 2]⟩
abbrev S128x4x3 : Shape := ⟨3, ![128, 4, 3]⟩
abbrev S128x4x4x2 : Shape := ⟨4, ![128, 4, 4, 2]⟩
abbrev S128x4x3x1 : Shape := ⟨4, ![128, 4, 3, 1]⟩
abbrev S128x4x1x2 : Shape := ⟨4, ![128, 4, 1, 2]⟩
abbrev S128x4x2 : Shape := ⟨3, ![128, 4, 2]⟩
abbrev S2097152x32 : Shape := ⟨2, ![2097152, 32]⟩

abbrev nBuf : Space → Nat
  | .hbm => 216
  | .vmem => 18
  | .smem => 0
  | _ => 0

abbrev hbmTy0_0 (i : Nat) : BufTy := match i % 128 with
  | 0 => ⟨S2097152x3, .f32⟩
  | 1 => ⟨S6291456, .f32⟩
  | 2 => ⟨S4, .f32⟩
  | 3 => ⟨S4, .i32⟩
  | 4 => ⟨S3, .i32⟩
  | 5 => ⟨S3, .i32⟩
  | 6 => ⟨S2097152x1x3, .f32⟩
  | 7 => ⟨S1x4x1, .f32⟩
  | 8 => ⟨S_, .f32⟩
  | 9 => ⟨S1x4x1, .f32⟩
  | 10 => ⟨S1x4x1, .f32⟩
  | 11 => ⟨S2097152x4x3, .f32⟩
  | 12 => ⟨S2097152x4x3, .f32⟩
  | 13 => ⟨S2097152x4x3, .f32⟩
  | 14 => ⟨S_, .f32⟩
  | 15 => ⟨S2097152x4x3, .f32⟩
  | 16 => ⟨S2097152x4x3, .f32⟩
  | 17 => ⟨S2097152x4x3, .f32⟩
  | 18 => ⟨S2097152x4x3, .i32⟩
  | 19 => ⟨S2097152x4x3, .f32⟩
  | 20 => ⟨S2097152x4x3, .f32⟩
  | 21 => ⟨S_, .i32⟩
  | 22 => ⟨S3, .i32⟩
  | 23 => ⟨S3, .i1⟩
  | 24 => ⟨S_, .i32⟩
  | 25 => ⟨S3, .i32⟩
  | 26 => ⟨S3, .i32⟩
  | 27 => ⟨S3, .i32⟩
  | 28 => ⟨S3x1, .i32⟩
  | 29 => ⟨S2097152x4x3, .f32⟩
  | 30 => ⟨S_, .i32⟩
  | 31 => ⟨S3, .i32⟩
  | 32 => ⟨S3, .i1⟩
  | 33 => ⟨S_, .i32⟩
  | 34 => ⟨S3, .i32⟩
  | 35 => ⟨S3, .i32⟩
  | 36 => ⟨S3, .i32⟩
  | 37 => ⟨S3x1, .i32⟩
  | 38 => ⟨S2097152x4x3, .f32⟩
  | 39 => ⟨S_, .i32⟩
  | 40 => ⟨S3, .i32⟩
  | 41 => ⟨S3, .i1⟩
  | 42 => ⟨S_, .i32⟩
  | 43 => ⟨S3, .i32⟩
  | 44 => ⟨S3, .i32⟩
  | 45 => ⟨S3, .i32⟩
  | 46 => ⟨S3x1, .i32⟩
  | 47 => ⟨S2097152x4x3, .i32⟩
  | 48 => ⟨S_, .i32⟩
  | 49 => ⟨S3, .i32⟩
  | 50 => ⟨S3, .i1⟩
  | 51 => ⟨S_, .i32⟩
  | 52 => ⟨S3, .i32⟩
  | 53 => ⟨S3, .i32⟩
  | 54 => ⟨S3, .i32⟩
  | 55 => ⟨S3x1, .i32⟩
  | 56 => ⟨S2097152x4x3, .i32⟩
  | 57 => ⟨S3x1048576x2, .f32⟩
  | 58 => ⟨S3, .i32⟩
  | 59 => ⟨S1x1x3, .i32⟩
  | 60 => ⟨S1x4x1, .i32⟩
  | 61 => ⟨S_, .f32⟩
  | 62 => ⟨S2097152x4x3, .f32⟩
  | 63 => ⟨S2097152x4x3, .f32⟩
  | 64 => ⟨S_, .i32⟩
  | 65 => ⟨S2097152x4x3, .i32⟩
  | 66 => ⟨S2097152x4x3, .i32⟩
  | 67 => ⟨S2097152x4x3, .i32⟩
  | 68 => ⟨S2097152x4x3, .i32⟩
  | 69 => ⟨S_, .i32⟩
  | 70 => ⟨S2097152x4x3, .i32⟩
  | 71 => ⟨S2097152x4x3, .i32⟩
  | 72 => ⟨S_, .f32⟩
  | 73 => ⟨S2097152x4x3, .f32⟩
  | 74 => ⟨S2097152x4x3, .f32⟩
  | 75 => ⟨S_, .i32⟩
  | 76 => ⟨S2097152x4x3, .i32⟩
  | 77 => ⟨S2097152x4x3, .i32⟩
  | 78 => ⟨S2097152x4x3, .i32⟩
  | 79 => ⟨S2097152x4x3, .i32⟩
  | 80 => ⟨S_, .i32⟩
  | 81 => ⟨S2097152x4x3, .i32⟩
  | 82 => ⟨S2097152x4x3, .i32⟩
  | 83 => ⟨S_, .i32⟩
  | 84 => ⟨S2097152x4x3, .i32⟩
  | 85 => ⟨S2097152x4x3, .i32⟩
  | 86 => ⟨S2097152x4x3, .i32⟩
  | 87 => ⟨S_, .i32⟩
  | 88 => ⟨S1x1x3, .i32⟩
  | 89 => ⟨S1x1x3, .i1⟩
  | 90 => ⟨S_, .i32⟩
  | 91 => ⟨S1x1x3, .i32⟩
  | 92 => ⟨S1x1x3, .i32⟩
  | 93 => ⟨S1x1x3, .i32⟩
  | 94 => ⟨S_, .i32⟩
  | 95 => ⟨S2097152x4x3, .i32⟩
  | 96 => ⟨S2097152x4x3, .i1⟩
  | 97 => ⟨S_, .i32⟩
  | 98 => ⟨S2097152x4x3, .i32⟩
  | 99 => ⟨S2097152x4x3, .i32⟩
  | 100 => ⟨S2097152x4x3, .i32⟩
  | 101 => ⟨S2097152x4x3, .i32⟩
  | 102 => ⟨S2097152x4x3x1, .i32⟩
  | 103 => ⟨S2097152x4x3x1, .i32⟩
  | 104 => ⟨S2097152x4x3x2, .i32⟩
  | 105 => ⟨S2097152x4x3x2, .f32⟩
  | 106 => ⟨S2097152x4x3, .f32⟩
  | 107 => ⟨S_, .i32⟩
  | 108 => ⟨S2097152x4x3, .i32⟩
  | 109 => ⟨S2097152x4x3, .i32⟩
  | 110 => ⟨S2097152x4x3, .i32⟩
  | 111 => ⟨S2097152x4x3, .i32⟩
  | 112 => ⟨S_, .i32⟩
  | 113 => ⟨S2097152x4x3, .i32⟩
  | 114 => ⟨S2097152x4x3, .i32⟩
  | 115 => ⟨S_, .i32⟩
  | 116 => ⟨S2097152x4x3, .i32⟩
  | 117 => ⟨S2097152x4x3, .i32⟩
  | 118 => ⟨S2097152x4x3, .i32⟩
  | 119 => ⟨S_, .i32⟩
  | 120 => ⟨S1x1x3, .i32⟩
  | 121 => ⟨S1x1x3, .i1⟩
  | 122 => ⟨S_, .i32⟩
  | 123 => ⟨S1x1x3, .i32⟩
  | 124 => ⟨S1x1x3, .i32⟩
  | 125 => ⟨S1x1x3, .i32⟩
  | 126 => ⟨S_, .i32⟩
  | 127 => ⟨S2097152x4x3, .i32⟩
  | _ => ⟨S2097152x3, .f32⟩

abbrev hbmTy0_1 (i : Nat) : BufTy := match i % 128 with
  | 0 => ⟨S2097152x4x3, .i1⟩
  | 1 => ⟨S_, .i32⟩
  | 2 => ⟨S2097152x4x3, .i32⟩
  | 3 => ⟨S2097152x4x3, .i32⟩
  | 4 => ⟨S2097152x4x3, .i32⟩
  | 5 => ⟨S2097152x4x3, .i32⟩
  | 6 => ⟨S2097152x4x3x1, .i32⟩
  | 7 => ⟨S2097152x4x3x1, .i32⟩
  | 8 => ⟨S2097152x4x3x2, .i32⟩
  | 9 => ⟨S2097152x4x3x2, .f32⟩
  | 10 => ⟨S2097152x4x3, .f32⟩
  | 11 => ⟨S_, .i32⟩
  | 12 => ⟨S2097152x4x3, .i32⟩
  | 13 => ⟨S2097152x4x3, .i32⟩
  | 14 => ⟨S2097152x4x3, .i32⟩
  | 15 => ⟨S2097152x4x3, .i32⟩
  | 16 => ⟨S_, .i32⟩
  | 17 => ⟨S2097152x4x3, .i32⟩
  | 18 => ⟨S2097152x4x3, .i32⟩
  | 19 => ⟨S_, .f32⟩
  | 20 => ⟨S2097152x4x3, .f32⟩
  | 21 => ⟨S2097152x4x3, .f32⟩
  | 22 => ⟨S_, .i32⟩
  | 23 => ⟨S2097152x4x3, .i32⟩
  | 24 => ⟨S2097152x4x3, .i32⟩
  | 25 => ⟨S2097152x4x3, .i32⟩
  | 26 => ⟨S2097152x4x3, .i32⟩
  | 27 => ⟨S_, .i32⟩
  | 28 => ⟨S2097152x4x3, .i32⟩
  | 29 => ⟨S2097152x4x3, .i32⟩
  | 30 => ⟨S_, .i32⟩
  | 31 => ⟨S2097152x4x3, .i32⟩
  | 32 => ⟨S2097152x4x3, .i32⟩
  | 33 => ⟨S2097152x4x3, .i32⟩
  | 34 => ⟨S_, .i32⟩
  | 35 => ⟨S1x1x3, .i32⟩
  | 36 => ⟨S1x1x3, .i1⟩
  | 37 => ⟨S_, .i32⟩
  | 38 => ⟨S1x1x3, .i32⟩
  | 39 => ⟨S1x1x3, .i32⟩
  | 40 => ⟨S1x1x3, .i32⟩
  | 41 => ⟨S_, .i32⟩
  | 42 => ⟨S2097152x4x3, .i32⟩
  | 43 => ⟨S2097152x4x3, .i1⟩
  | 44 => ⟨S_, .i32⟩
  | 45 => ⟨S2097152x4x3, .i32⟩
  | 46 => ⟨S2097152x4x3, .i32⟩
  | 47 => ⟨S2097152x4x3, .i32⟩
  | 48 => ⟨S2097152x4x3, .i32⟩
  | 49 => ⟨S2097152x4x3x1, .i32⟩
  | 50 => ⟨S2097152x4x3x1, .i32⟩
  | 51 => ⟨S2097152x4x3x2, .i32⟩
  | 52 => ⟨S2097152x4x3x2, .f32⟩
  | 53 => ⟨S2097152x4x3, .f32⟩
  | 54 => ⟨S_, .i32⟩
  | 55 => ⟨S2097152x4x3, .i32⟩
  | 56 => ⟨S2097152x4x3, .i32⟩
  | 57 => ⟨S2097152x4x3, .i32⟩
  | 58 => ⟨S2097152x4x3, .i32⟩
  | 59 => ⟨S_, .i32⟩
  | 60 => ⟨S2097152x4x3, .i32⟩
  | 61 => ⟨S2097152x4x3, .i32⟩
  | 62 => ⟨S_, .i32⟩
  | 63 => ⟨S2097152x4x3, .i32⟩
  | 64 => ⟨S2097152x4x3, .i32⟩
  | 65 => ⟨S2097152x4x3, .i32⟩
  | 66 => ⟨S_, .i32⟩
  | 67 => ⟨S1x1x3, .i32⟩
  | 68 => ⟨S1x1x3, .i1⟩
  | 69 => ⟨S_, .i32⟩
  | 70 => ⟨S1x1x3, .i32⟩
  | 71 => ⟨S1x1x3, .i32⟩
  | 72 => ⟨S1x1x3, .i32⟩
  | 73 => ⟨S_, .i32⟩
  | 74 => ⟨S2097152x4x3, .i32⟩
  | 75 => ⟨S2097152x4x3, .i1⟩
  | 76 => ⟨S_, .i32⟩
  | 77 => ⟨S2097152x4x3, .i32⟩
  | 78 => ⟨S2097152x4x3, .i32⟩
  | 79 => ⟨S2097152x4x3, .i32⟩
  | 80 => ⟨S2097152x4x3, .i32⟩
  | 81 => ⟨S2097152x4x3x1, .i32⟩
  | 82 => ⟨S2097152x4x3x1, .i32⟩
  | 83 => ⟨S2097152x4x3x2, .i32⟩
  | 84 => ⟨S2097152x4x3x2, .f32⟩
  | 85 => ⟨S2097152x4x3, .f32⟩
  | 86 => ⟨S2097152x4x4x2, .f32⟩
  | 87 => ⟨S2097152x32, .f32⟩
  | _ => ⟨S2097152x3, .f32⟩

abbrev hbmTy (i : Nat) : BufTy := match i / 128 with
  | 0 => hbmTy0_0 i
  | 1 => hbmTy0_1 i
  | _ => ⟨S2097152x3, .f32⟩

abbrev bufTy : (tb : Table) → Fin (tcTables nBuf tb) → BufTy
  | .hbm, ⟨i, _⟩ => hbmTy i
  | .local _ .vmem, ⟨0, _⟩ => ⟨S128x4x3x2, .f32⟩
  | .local _ .vmem, ⟨1, _⟩ => ⟨S128x4x3x2, .f32⟩
  | .local _ .vmem, ⟨2, _⟩ => ⟨S128x4x3x2, .f32⟩
  | .local _ .vmem, ⟨3, _⟩ => ⟨S128x4x3x2, .f32⟩
  | .local _ .vmem, ⟨4, _⟩ => ⟨S128x4x3x2, .f32⟩
  | .local _ .vmem, ⟨5, _⟩ => ⟨S128x4x3x2, .f32⟩
  | .local _ .vmem, ⟨6, _⟩ => ⟨S128x4x3x2, .f32⟩
  | .local _ .vmem, ⟨7, _⟩ => ⟨S128x4x3x2, .f32⟩
  | .local _ .vmem, ⟨8, _⟩ => ⟨S128x4x3, .f32⟩
  | .local _ .vmem, ⟨9, _⟩ => ⟨S128x4x3, .f32⟩
  | .local _ .vmem, ⟨10, _⟩ => ⟨S128x4x3, .f32⟩
  | .local _ .vmem, ⟨11, _⟩ => ⟨S128x4x3, .f32⟩
  | .local _ .vmem, ⟨12, _⟩ => ⟨S128x4x3, .f32⟩
  | .local _ .vmem, ⟨13, _⟩ => ⟨S128x4x3, .f32⟩
  | .local _ .vmem, ⟨14, _⟩ => ⟨S128x4x3, .f32⟩
  | .local _ .vmem, ⟨15, _⟩ => ⟨S128x4x3, .f32⟩
  | .local _ .vmem, ⟨16, _⟩ => ⟨S128x4x4x2, .f32⟩
  | .local _ .vmem, ⟨17, _⟩ => ⟨S128x4x4x2, .f32⟩
  | _, _ => ⟨S2097152x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_v0 : Ref sig .tc := ⟨.hbm, 6, rfl⟩
abbrev main_v1 : Ref sig .tc := ⟨.hbm, 7, rfl⟩
abbrev main_cst_2 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_4 : Ref sig .tc := ⟨.hbm, 21, rfl⟩
abbrev main_v13 : Ref sig .tc := ⟨.hbm, 22, rfl⟩
abbrev main_v14 : Ref sig .tc := ⟨.hbm, 23, rfl⟩
abbrev main_c_5 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_6 : Ref sig .tc := ⟨.hbm, 30, rfl⟩
abbrev main_v20 : Ref sig .tc := ⟨.hbm, 31, rfl⟩
abbrev main_v21 : Ref sig .tc := ⟨.hbm, 32, rfl⟩
abbrev main_c_7 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_8 : Ref sig .tc := ⟨.hbm, 39, rfl⟩
abbrev main_v27 : Ref sig .tc := ⟨.hbm, 40, rfl⟩
abbrev main_v28 : Ref sig .tc := ⟨.hbm, 41, rfl⟩
abbrev main_c_9 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_10 : Ref sig .tc := ⟨.hbm, 48, rfl⟩
abbrev main_v34 : Ref sig .tc := ⟨.hbm, 49, rfl⟩
abbrev main_v35 : Ref sig .tc := ⟨.hbm, 50, rfl⟩
abbrev main_c_11 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_12 : Ref sig .tc := ⟨.hbm, 61, rfl⟩
abbrev main_v45 : Ref sig .tc := ⟨.hbm, 62, rfl⟩
abbrev main_v46 : Ref sig .tc := ⟨.hbm, 63, rfl⟩
abbrev main_c_13 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c_14 : Ref sig .tc := ⟨.hbm, 69, rfl⟩
abbrev main_v51 : Ref sig .tc := ⟨.hbm, 70, rfl⟩
abbrev main_v52 : Ref sig .tc := ⟨.hbm, 71, rfl⟩
abbrev main_cst_15 : Ref sig .tc := ⟨.hbm, 72, rfl⟩
abbrev main_v53 : Ref sig .tc := ⟨.hbm, 73, rfl⟩
abbrev main_v54 : Ref sig .tc := ⟨.hbm, 74, rfl⟩
abbrev main_c_16 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_c_17 : Ref sig .tc := ⟨.hbm, 80, rfl⟩
abbrev main_v59 : Ref sig .tc := ⟨.hbm, 81, rfl⟩
abbrev main_v60 : Ref sig .tc := ⟨.hbm, 82, rfl⟩
abbrev main_c_18 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_19 : Ref sig .tc := ⟨.hbm, 87, rfl⟩
abbrev main_v64 : Ref sig .tc := ⟨.hbm, 88, rfl⟩
abbrev main_v65 : Ref sig .tc := ⟨.hbm, 89, rfl⟩
abbrev main_c_20 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_21 : Ref sig .tc := ⟨.hbm, 94, rfl⟩
abbrev main_v69 : Ref sig .tc := ⟨.hbm, 95, rfl⟩
abbrev main_v70 : Ref sig .tc := ⟨.hbm, 96, rfl⟩
abbrev main_c_22 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_c_23 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_c_24 : Ref sig .tc := ⟨.hbm, 112, rfl⟩
abbrev main_v84 : Ref sig .tc := ⟨.hbm, 113, rfl⟩
abbrev main_v85 : Ref sig .tc := ⟨.hbm, 114, rfl⟩
abbrev main_c_25 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_c_26 : Ref sig .tc := ⟨.hbm, 119, rfl⟩
abbrev main_v89 : Ref sig .tc := ⟨.hbm, 120, rfl⟩
abbrev main_v90 : Ref sig .tc := ⟨.hbm, 121, rfl⟩
abbrev main_c_27 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_c_28 : Ref sig .tc := ⟨.hbm, 126, rfl⟩
abbrev main_v94 : Ref sig .tc := ⟨.hbm, 127, rfl⟩
abbrev main_v95 : Ref sig .tc := ⟨.hbm, 128, rfl⟩
abbrev main_c_29 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_c_30 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_c_31 : Ref sig .tc := ⟨.hbm, 144, rfl⟩
abbrev main_v109 : Ref sig .tc := ⟨.hbm, 145, rfl⟩
abbrev main_v110 : Ref sig .tc := ⟨.hbm, 146, rfl⟩
abbrev main_cst_32 : Ref sig .tc := ⟨.hbm, 147, rfl⟩
abbrev main_v111 : Ref sig .tc := ⟨.hbm, 148, rfl⟩
abbrev main_v112 : Ref sig .tc := ⟨.hbm, 149, rfl⟩
abbrev main_c_33 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_c_34 : Ref sig .tc := ⟨.hbm, 155, rfl⟩
abbrev main_v117 : Ref sig .tc := ⟨.hbm, 156, rfl⟩
abbrev main_v118 : Ref sig .tc := ⟨.hbm, 157, rfl⟩
abbrev main_c_35 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_c_36 : Ref sig .tc := ⟨.hbm, 162, rfl⟩
abbrev main_v122 : Ref sig .tc := ⟨.hbm, 163, rfl⟩
abbrev main_v123 : Ref sig .tc := ⟨.hbm, 164, rfl⟩
abbrev main_c_37 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_c_38 : Ref sig .tc := ⟨.hbm, 169, rfl⟩
abbrev main_v127 : Ref sig .tc := ⟨.hbm, 170, rfl⟩
abbrev main_v128 : Ref sig .tc := ⟨.hbm, 171, rfl⟩
abbrev main_c_39 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_c_40 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_c_41 : Ref sig .tc := ⟨.hbm, 187, rfl⟩
abbrev main_v142 : Ref sig .tc := ⟨.hbm, 188, rfl⟩
abbrev main_v143 : Ref sig .tc := ⟨.hbm, 189, rfl⟩
abbrev main_c_42 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_c_43 : Ref sig .tc := ⟨.hbm, 194, rfl⟩
abbrev main_v147 : Ref sig .tc := ⟨.hbm, 195, rfl⟩
abbrev main_v148 : Ref sig .tc := ⟨.hbm, 196, rfl⟩
abbrev main_c_44 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_c_45 : Ref sig .tc := ⟨.hbm, 201, rfl⟩
abbrev main_v152 : Ref sig .tc := ⟨.hbm, 202, rfl⟩
abbrev main_v153 : Ref sig .tc := ⟨.hbm, 203, rfl⟩
abbrev main_c_46 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16384], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x4x3x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4x3x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4x3x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4x3x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x4x4x2 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S2097152x3_S2097152x1x3_0_2 : S2097152x3.BroadcastsInDim S2097152x1x3 (![0, 2] : Fin 2 → Fin S2097152x1x3.rank)
  bcast_S4_S1x4x1_1 : S4.BroadcastsInDim S1x4x1 (![1] : Fin 1 → Fin S1x4x1.rank)
  bcast_S_S1x4x1 : S_.BroadcastsInDim S1x4x1 (![] : Fin 0 → Fin S1x4x1.rank)
  bcast_S2097152x1x3_S2097152x4x3_0_1_2 : S2097152x1x3.BroadcastsInDim S2097152x4x3 (![0, 1, 2] : Fin 3 → Fin S2097152x4x3.rank)
  bcast_S1x4x1_S2097152x4x3_0_1_2 : S1x4x1.BroadcastsInDim S2097152x4x3 (![0, 1, 2] : Fin 3 → Fin S2097152x4x3.rank)
  bcast_S_S2097152x4x3 : S_.BroadcastsInDim S2097152x4x3 (![] : Fin 0 → Fin S2097152x4x3.rank)
  bcast_S_S3 : S_.BroadcastsInDim S3 (![] : Fin 0 → Fin S3.rank)
  bcast_S3_S3x1_0 : S3.BroadcastsInDim S3x1 (![0] : Fin 1 → Fin S3x1.rank)
  shapeCasts_S6291456_S3x1048576x2 : S6291456.ShapeCasts S3x1048576x2
  bcast_S3_S1x1x3_2 : S3.BroadcastsInDim S1x1x3 (![2] : Fin 1 → Fin S1x1x3.rank)
  bcast_S_S1x1x3 : S_.BroadcastsInDim S1x1x3 (![] : Fin 0 → Fin S1x1x3.rank)
  bcast_S1x1x3_S2097152x4x3_0_1_2 : S1x1x3.BroadcastsInDim S2097152x4x3 (![0, 1, 2] : Fin 3 → Fin S2097152x4x3.rank)
  bcast_S2097152x4x3_S2097152x4x3x1_0_1_2 : S2097152x4x3.BroadcastsInDim S2097152x4x3x1 (![0, 1, 2] : Fin 3 → Fin S2097152x4x3x1.rank)
  concatenates_S2097152x4x3x1_S2097152x4x3x1_S2097152x4x3x2_d3 : Shape.Concatenates [S2097152x4x3x1, S2097152x4x3x1] S2097152x4x3x2 3
  inb_S128x4x3x2_S128x4x3x2_0_0_0_0 : ∀ a, (![0, 0, 0, 0] : Fin 4 → Nat) a + S128x4x3x2.size a ≤ S128x4x3x2.size a
  h_S128x4x3x2 : 0 < S128x4x3x2.numel
  shapeCasts_S128x4x3x2_S128x4x3x2 : S128x4x3x2.ShapeCasts S128x4x3x2
  inb_S128x4x3_S128x4x3_0_0_0 : ∀ a, (![0, 0, 0] : Fin 3 → Nat) a + S128x4x3.size a ≤ S128x4x3.size a
  h_S128x4x3 : 0 < S128x4x3.numel
  shapeCasts_S128x4x3_S128x4x3 : S128x4x3.ShapeCasts S128x4x3
  shapeCasts_S128x4x3_S128x4x3x1 : S128x4x3.ShapeCasts S128x4x3x1
  broadcasts_S128x4x3x1_S128x4x3x2 : S128x4x3x1.Broadcasts S128x4x3x2
  slices_S128x4x3x2_o0_0_0_0_S128x4x1x2 : S128x4x3x2.Slices ![0, 0, 0, 0] S128x4x1x2
  shapeCasts_S128x4x1x2_S128x4x2 : S128x4x1x2.ShapeCasts S128x4x2
  slices_S128x4x3x2_o0_0_1_0_S128x4x1x2 : S128x4x3x2.Slices ![0, 0, 1, 0] S128x4x1x2
  slices_S128x4x3x2_o0_0_2_0_S128x4x1x2 : S128x4x3x2.Slices ![0, 0, 2, 0] S128x4x1x2
  shapeCasts_S128x4x2_S128x4x1x2 : S128x4x2.ShapeCasts S128x4x1x2
  concatenates_S128x4x1x2_S128x4x1x2_S128x4x1x2_S128x4x1x2_S128x4x4x2_d2 : Shape.Concatenates [S128x4x1x2, S128x4x1x2, S128x4x1x2, S128x4x1x2] S128x4x4x2 2
  inb_S128x4x4x2_S128x4x4x2_0_0_0_0 : ∀ a, (![0, 0, 0, 0] : Fin 4 → Nat) a + S128x4x4x2.size a ≤ S128x4x4x2.size a
  h_S128x4x4x2 : 0 < S128x4x4x2.numel
  shapeCasts_S2097152x4x4x2_S2097152x32 : S2097152x4x4x2.ShapeCasts S2097152x32
  gather_S2097152x4x3_S3x1_S2097152x4x3_01_2_n_n_2_1_209715241_wf : GatherDims.WF S2097152x4x3 S3x1 S2097152x4x3 [0, 1] [2] [] [2] [] 1 ![2097152, 4, 1]
  gather_S3x1048576x2_S2097152x4x3x2_S2097152x4x3x2_3_01_n_n_01_3_112_wf : GatherDims.WF S3x1048576x2 S2097152x4x3x2 S2097152x4x3x2 [3] [0, 1] [] [0, 1] [] 3 ![1, 1, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4x3x2.size a ≤ S2097152x4x3x2.size a
  hwx0_0 : ∀ i : grid0.Coords, EltTy.bits .f32 = 32 ∨ (Rect.block (s := S2097152x4x3x2) S128x4x3x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4x3x2.size a ≤ S2097152x4x3x2.size a
  hwx0_1 : ∀ i : grid0.Coords, EltTy.bits .f32 = 32 ∨ (Rect.block (s := S2097152x4x3x2) S128x4x3x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4x3x2.size a ≤ S2097152x4x3x2.size a
  hwx0_2 : ∀ i : grid0.Coords, EltTy.bits .f32 = 32 ∨ (Rect.block (s := S2097152x4x3x2) S128x4x3x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4x3x2.size a ≤ S2097152x4x3x2.size a
  hwx0_3 : ∀ i : grid0.Coords, EltTy.bits .f32 = 32 ∨ (Rect.block (s := S2097152x4x3x2) S128x4x3x2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4x3.size a ≤ S2097152x4x3.size a
  hwx0_4 : ∀ i : grid0.Coords, EltTy.bits .f32 = 32 ∨ (Rect.block (s := S2097152x4x3) S128x4x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x4x3.size a ≤ S2097152x4x3.size a
  hwx0_5 : ∀ i : grid0.Coords, EltTy.bits .f32 = 32 ∨ (Rect.block (s := S2097152x4x3) S128x4x3.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x4x3.size a ≤ S2097152x4x3.size a
  hwx0_6 : ∀ i : grid0.Coords, EltTy.bits .f32 = 32 ∨ (Rect.block (s := S2097152x4x3) S128x4x3.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x4x3.size a ≤ S2097152x4x3.size a
  hwx0_7 : ∀ i : grid0.Coords, EltTy.bits .f32 = 32 ∨ (Rect.block (s := S2097152x4x3) S128x4x3.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x4x4x2.size a ≤ S2097152x4x4x2.size a
  hwx0_8 : ∀ i : grid0.Coords, EltTy.bits .f32 = 32 ∨ (Rect.block (s := S2097152x4x4x2) S128x4x4x2.size (cc0_transform_8 i) (hinb0_8 i)).WholeWords (EltTy.packing .f32)

variable [Facts₀]

def gather_S2097152x4x3_S3x1_S2097152x4x3_01_2_n_n_2_1_209715241 : GatherDims S2097152x4x3 S3x1 S2097152x4x3 where
  offsetDims := [0, 1]
  collapsedSliceDims := [2]
  operandBatchingDims := []
  startIndicesBatchingDims := []
  startIndexMap := [2]
  indexVectorDim := 1
  sliceSizes := ![2097152, 4, 1]
  wf := gather_S2097152x4x3_S3x1_S2097152x4x3_01_2_n_n_2_1_209715241_wf
def gather_S3x1048576x2_S2097152x4x3x2_S2097152x4x3x2_3_01_n_n_01_3_112 : GatherDims S3x1048576x2 S2097152x4x3x2 S2097152x4x3x2 where
  offsetDims := [3]
  collapsedSliceDims := [0, 1]
  operandBatchingDims := []
  startIndicesBatchingDims := []
  startIndexMap := [0, 1]
  indexVectorDim := 3
  sliceSizes := ![1, 1, 2]
  wf := gather_S3x1048576x2_S2097152x4x3x2_S2097152x4x3x2_3_01_n_n_01_3_112_wf

abbrev win0_0 : Pipeline.Window sig grid0 :=
  Pipeline.Window.ofSpec (Memref.whole main_v78) S128x4x3x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v103) S128x4x3x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v136) S128x4x3x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v161) S128x4x3x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v79) S128x4x3.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v104) S128x4x3.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v137) S128x4x3.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v162) S128x4x3.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v163) S128x4x4x2.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S2097152x3 : Shape := ⟨2, ![2097152, 3]⟩
abbrev S6291456 : Shape := ⟨1, ![6291456]⟩
abbrev S4 : Shape := ⟨1, ![4]⟩
abbrev S3 : Shape := ⟨1, ![3]⟩
abbrev S2097152x1x3 : Shape := ⟨3, ![2097152, 1, 3]⟩
abbrev S1x4x1 : Shape := ⟨3, ![1, 4, 1]⟩
abbrev S_ : Shape := ⟨0, ![]⟩
abbrev S2097152x4x3 : Shape := ⟨3, ![2097152, 4, 3]⟩
abbrev S3x1 : Shape := ⟨2, ![3, 1]⟩
abbrev S3x1048576x2 : Shape := ⟨3, ![3, 1048576, 2]⟩
abbrev S1x1x3 : Shape := ⟨3, ![1, 1, 3]⟩
abbrev S2097152x4x3x2 : Shape := ⟨4, ![2097152, 4, 3, 2]⟩
abbrev S2097152x4x3x1 : Shape := ⟨4, ![2097152, 4, 3, 1]⟩
abbrev S2097152x4x1x2 : Shape := ⟨4, ![2097152, 4, 1, 2]⟩
abbrev S2097152x4x2 : Shape := ⟨3, ![2097152, 4, 2]⟩
abbrev S2097152x4x4x2 : Shape := ⟨4, ![2097152, 4, 4, 2]⟩
abbrev S2097152x32 : Shape := ⟨2, ![2097152, 32]⟩

abbrev nBuf : Space → Nat
  | .hbm => 243
  | .vmem => 0
  | .smem => 0
  | _ => 0

abbrev hbmTy0_0 (i : Nat) : BufTy := match i % 128 with
  | 0 => ⟨S2097152x3, .f32⟩
  | 1 => ⟨S6291456, .f32⟩
  | 2 => ⟨S4, .f32⟩
  | 3 => ⟨S4, .i32⟩
  | 4 => ⟨S3, .i32⟩
  | 5 => ⟨S3, .i32⟩
  | 6 => ⟨S2097152x1x3, .f32⟩
  | 7 => ⟨S1x4x1, .f32⟩
  | 8 => ⟨S_, .f32⟩
  | 9 => ⟨S1x4x1, .f32⟩
  | 10 => ⟨S1x4x1, .f32⟩
  | 11 => ⟨S2097152x4x3, .f32⟩
  | 12 => ⟨S2097152x4x3, .f32⟩
  | 13 => ⟨S2097152x4x3, .f32⟩
  | 14 => ⟨S_, .f32⟩
  | 15 => ⟨S2097152x4x3, .f32⟩
  | 16 => ⟨S2097152x4x3, .f32⟩
  | 17 => ⟨S2097152x4x3, .f32⟩
  | 18 => ⟨S2097152x4x3, .i32⟩
  | 19 => ⟨S2097152x4x3, .f32⟩
  | 20 => ⟨S2097152x4x3, .f32⟩
  | 21 => ⟨S_, .i32⟩
  | 22 => ⟨S3, .i32⟩
  | 23 => ⟨S3, .i1⟩
  | 24 => ⟨S_, .i32⟩
  | 25 => ⟨S3, .i32⟩
  | 26 => ⟨S3, .i32⟩
  | 27 => ⟨S3, .i32⟩
  | 28 => ⟨S3x1, .i32⟩
  | 29 => ⟨S2097152x4x3, .f32⟩
  | 30 => ⟨S_, .i32⟩
  | 31 => ⟨S3, .i32⟩
  | 32 => ⟨S3, .i1⟩
  | 33 => ⟨S_, .i32⟩
  | 34 => ⟨S3, .i32⟩
  | 35 => ⟨S3, .i32⟩
  | 36 => ⟨S3, .i32⟩
  | 37 => ⟨S3x1, .i32⟩
  | 38 => ⟨S2097152x4x3, .f32⟩
  | 39 => ⟨S_, .i32⟩
  | 40 => ⟨S3, .i32⟩
  | 41 => ⟨S3, .i1⟩
  | 42 => ⟨S_, .i32⟩
  | 43 => ⟨S3, .i32⟩
  | 44 => ⟨S3, .i32⟩
  | 45 => ⟨S3, .i32⟩
  | 46 => ⟨S3x1, .i32⟩
  | 47 => ⟨S2097152x4x3, .i32⟩
  | 48 => ⟨S_, .i32⟩
  | 49 => ⟨S3, .i32⟩
  | 50 => ⟨S3, .i1⟩
  | 51 => ⟨S_, .i32⟩
  | 52 => ⟨S3, .i32⟩
  | 53 => ⟨S3, .i32⟩
  | 54 => ⟨S3, .i32⟩
  | 55 => ⟨S3x1, .i32⟩
  | 56 => ⟨S2097152x4x3, .i32⟩
  | 57 => ⟨S3x1048576x2, .f32⟩
  | 58 => ⟨S3, .i32⟩
  | 59 => ⟨S1x1x3, .i32⟩
  | 60 => ⟨S1x4x1, .i32⟩
  | 61 => ⟨S_, .f32⟩
  | 62 => ⟨S2097152x4x3x2, .f32⟩
  | 63 => ⟨S_, .f32⟩
  | 64 => ⟨S2097152x4x3, .f32⟩
  | 65 => ⟨S2097152x4x3, .f32⟩
  | 66 => ⟨S_, .i32⟩
  | 67 => ⟨S2097152x4x3, .i32⟩
  | 68 => ⟨S2097152x4x3, .i32⟩
  | 69 => ⟨S2097152x4x3, .i32⟩
  | 70 => ⟨S2097152x4x3, .i32⟩
  | 71 => ⟨S_, .i32⟩
  | 72 => ⟨S2097152x4x3, .i32⟩
  | 73 => ⟨S2097152x4x3, .i32⟩
  | 74 => ⟨S_, .f32⟩
  | 75 => ⟨S2097152x4x3, .f32⟩
  | 76 => ⟨S2097152x4x3, .f32⟩
  | 77 => ⟨S_, .i32⟩
  | 78 => ⟨S2097152x4x3, .i32⟩
  | 79 => ⟨S2097152x4x3, .i32⟩
  | 80 => ⟨S2097152x4x3, .i32⟩
  | 81 => ⟨S2097152x4x3, .i32⟩
  | 82 => ⟨S_, .i32⟩
  | 83 => ⟨S2097152x4x3, .i32⟩
  | 84 => ⟨S2097152x4x3, .i32⟩
  | 85 => ⟨S_, .i32⟩
  | 86 => ⟨S2097152x4x3, .i32⟩
  | 87 => ⟨S2097152x4x3, .i32⟩
  | 88 => ⟨S2097152x4x3, .i32⟩
  | 89 => ⟨S_, .i32⟩
  | 90 => ⟨S1x1x3, .i32⟩
  | 91 => ⟨S1x1x3, .i1⟩
  | 92 => ⟨S_, .i32⟩
  | 93 => ⟨S1x1x3, .i32⟩
  | 94 => ⟨S1x1x3, .i32⟩
  | 95 => ⟨S1x1x3, .i32⟩
  | 96 => ⟨S_, .i32⟩
  | 97 => ⟨S2097152x4x3, .i32⟩
  | 98 => ⟨S2097152x4x3, .i1⟩
  | 99 => ⟨S_, .i32⟩
  | 100 => ⟨S2097152x4x3, .i32⟩
  | 101 => ⟨S2097152x4x3, .i32⟩
  | 102 => ⟨S2097152x4x3, .i32⟩
  | 103 => ⟨S2097152x4x3, .i32⟩
  | 104 => ⟨S2097152x4x3x1, .i32⟩
  | 105 => ⟨S2097152x4x3x1, .i32⟩
  | 106 => ⟨S2097152x4x3x2, .i32⟩
  | 107 => ⟨S2097152x4x3x2, .f32⟩
  | 108 => ⟨S2097152x4x3, .f32⟩
  | 109 => ⟨S2097152x4x3x1, .f32⟩
  | 110 => ⟨S2097152x4x3x2, .f32⟩
  | 111 => ⟨S2097152x4x3x2, .f32⟩
  | 112 => ⟨S2097152x4x3x2, .f32⟩
  | 113 => ⟨S_, .i32⟩
  | 114 => ⟨S2097152x4x3, .i32⟩
  | 115 => ⟨S2097152x4x3, .i32⟩
  | 116 => ⟨S2097152x4x3, .i32⟩
  | 117 => ⟨S2097152x4x3, .i32⟩
  | 118 => ⟨S_, .i32⟩
  | 119 => ⟨S2097152x4x3, .i32⟩
  | 120 => ⟨S2097152x4x3, .i32⟩
  | 121 => ⟨S_, .i32⟩
  | 122 => ⟨S2097152x4x3, .i32⟩
  | 123 => ⟨S2097152x4x3, .i32⟩
  | 124 => ⟨S2097152x4x3, .i32⟩
  | 125 => ⟨S_, .i32⟩
  | 126 => ⟨S1x1x3, .i32⟩
  | 127 => ⟨S1x1x3, .i1⟩
  | _ => ⟨S2097152x3, .f32⟩

abbrev hbmTy0_1 (i : Nat) : BufTy := match i % 128 with
  | 0 => ⟨S_, .i32⟩
  | 1 => ⟨S1x1x3, .i32⟩
  | 2 => ⟨S1x1x3, .i32⟩
  | 3 => ⟨S1x1x3, .i32⟩
  | 4 => ⟨S_, .i32⟩
  | 5 => ⟨S2097152x4x3, .i32⟩
  | 6 => ⟨S2097152x4x3, .i1⟩
  | 7 => ⟨S_, .i32⟩
  | 8 => ⟨S2097152x4x3, .i32⟩
  | 9 => ⟨S2097152x4x3, .i32⟩
  | 10 => ⟨S2097152x4x3, .i32⟩
  | 11 => ⟨S2097152x4x3, .i32⟩
  | 12 => ⟨S2097152x4x3x1, .i32⟩
  | 13 => ⟨S2097152x4x3x1, .i32⟩
  | 14 => ⟨S2097152x4x3x2, .i32⟩
  | 15 => ⟨S2097152x4x3x2, .f32⟩
  | 16 => ⟨S2097152x4x3, .f32⟩
  | 17 => ⟨S2097152x4x3x1, .f32⟩
  | 18 => ⟨S2097152x4x3x2, .f32⟩
  | 19 => ⟨S2097152x4x3x2, .f32⟩
  | 20 => ⟨S2097152x4x3x2, .f32⟩
  | 21 => ⟨S_, .i32⟩
  | 22 => ⟨S2097152x4x3, .i32⟩
  | 23 => ⟨S2097152x4x3, .i32⟩
  | 24 => ⟨S2097152x4x3, .i32⟩
  | 25 => ⟨S2097152x4x3, .i32⟩
  | 26 => ⟨S_, .i32⟩
  | 27 => ⟨S2097152x4x3, .i32⟩
  | 28 => ⟨S2097152x4x3, .i32⟩
  | 29 => ⟨S_, .f32⟩
  | 30 => ⟨S2097152x4x3, .f32⟩
  | 31 => ⟨S2097152x4x3, .f32⟩
  | 32 => ⟨S_, .i32⟩
  | 33 => ⟨S2097152x4x3, .i32⟩
  | 34 => ⟨S2097152x4x3, .i32⟩
  | 35 => ⟨S2097152x4x3, .i32⟩
  | 36 => ⟨S2097152x4x3, .i32⟩
  | 37 => ⟨S_, .i32⟩
  | 38 => ⟨S2097152x4x3, .i32⟩
  | 39 => ⟨S2097152x4x3, .i32⟩
  | 40 => ⟨S_, .i32⟩
  | 41 => ⟨S2097152x4x3, .i32⟩
  | 42 => ⟨S2097152x4x3, .i32⟩
  | 43 => ⟨S2097152x4x3, .i32⟩
  | 44 => ⟨S_, .i32⟩
  | 45 => ⟨S1x1x3, .i32⟩
  | 46 => ⟨S1x1x3, .i1⟩
  | 47 => ⟨S_, .i32⟩
  | 48 => ⟨S1x1x3, .i32⟩
  | 49 => ⟨S1x1x3, .i32⟩
  | 50 => ⟨S1x1x3, .i32⟩
  | 51 => ⟨S_, .i32⟩
  | 52 => ⟨S2097152x4x3, .i32⟩
  | 53 => ⟨S2097152x4x3, .i1⟩
  | 54 => ⟨S_, .i32⟩
  | 55 => ⟨S2097152x4x3, .i32⟩
  | 56 => ⟨S2097152x4x3, .i32⟩
  | 57 => ⟨S2097152x4x3, .i32⟩
  | 58 => ⟨S2097152x4x3, .i32⟩
  | 59 => ⟨S2097152x4x3x1, .i32⟩
  | 60 => ⟨S2097152x4x3x1, .i32⟩
  | 61 => ⟨S2097152x4x3x2, .i32⟩
  | 62 => ⟨S2097152x4x3x2, .f32⟩
  | 63 => ⟨S2097152x4x3, .f32⟩
  | 64 => ⟨S2097152x4x3x1, .f32⟩
  | 65 => ⟨S2097152x4x3x2, .f32⟩
  | 66 => ⟨S2097152x4x3x2, .f32⟩
  | 67 => ⟨S2097152x4x3x2, .f32⟩
  | 68 => ⟨S_, .i32⟩
  | 69 => ⟨S2097152x4x3, .i32⟩
  | 70 => ⟨S2097152x4x3, .i32⟩
  | 71 => ⟨S2097152x4x3, .i32⟩
  | 72 => ⟨S2097152x4x3, .i32⟩
  | 73 => ⟨S_, .i32⟩
  | 74 => ⟨S2097152x4x3, .i32⟩
  | 75 => ⟨S2097152x4x3, .i32⟩
  | 76 => ⟨S_, .i32⟩
  | 77 => ⟨S2097152x4x3, .i32⟩
  | 78 => ⟨S2097152x4x3, .i32⟩
  | 79 => ⟨S2097152x4x3, .i32⟩
  | 80 => ⟨S_, .i32⟩
  | 81 => ⟨S1x1x3, .i32⟩
  | 82 => ⟨S1x1x3, .i1⟩
  | 83 => ⟨S_, .i32⟩
  | 84 => ⟨S1x1x3, .i32⟩
  | 85 => ⟨S1x1x3, .i32⟩
  | 86 => ⟨S1x1x3, .i32⟩
  | 87 => ⟨S_, .i32⟩
  | 88 => ⟨S2097152x4x3, .i32⟩
  | 89 => ⟨S2097152x4x3, .i1⟩
  | 90 => ⟨S_, .i32⟩
  | 91 => ⟨S2097152x4x3, .i32⟩
  | 92 => ⟨S2097152x4x3, .i32⟩
  | 93 => ⟨S2097152x4x3, .i32⟩
  | 94 => ⟨S2097152x4x3, .i32⟩
  | 95 => ⟨S2097152x4x3x1, .i32⟩
  | 96 => ⟨S2097152x4x3x1, .i32⟩
  | 97 => ⟨S2097152x4x3x2, .i32⟩
  | 98 => ⟨S2097152x4x3x2, .f32⟩
  | 99 => ⟨S2097152x4x3, .f32⟩
  | 100 => ⟨S2097152x4x3x1, .f32⟩
  | 101 => ⟨S2097152x4x3x2, .f32⟩
  | 102 => ⟨S2097152x4x3x2, .f32⟩
  | 103 => ⟨S2097152x4x3x2, .f32⟩
  | 104 => ⟨S2097152x4x1x2, .f32⟩
  | 105 => ⟨S2097152x4x2, .f32⟩
  | 106 => ⟨S2097152x4x1x2, .f32⟩
  | 107 => ⟨S2097152x4x2, .f32⟩
  | 108 => ⟨S2097152x4x2, .f32⟩
  | 109 => ⟨S2097152x4x1x2, .f32⟩
  | 110 => ⟨S2097152x4x2, .f32⟩
  | 111 => ⟨S2097152x4x2, .f32⟩
  | 112 => ⟨S2097152x4x1x2, .f32⟩
  | 113 => ⟨S2097152x4x4x2, .f32⟩
  | 114 => ⟨S2097152x32, .f32⟩
  | _ => ⟨S2097152x3, .f32⟩

abbrev hbmTy (i : Nat) : BufTy := match i / 128 with
  | 0 => hbmTy0_0 i
  | 1 => hbmTy0_1 i
  | _ => ⟨S2097152x3, .f32⟩

abbrev bufTy : (tb : Table) → Fin (tcTables nBuf tb) → BufTy
  | .hbm, ⟨i, _⟩ => hbmTy i
  | _, _ => ⟨S2097152x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_v0 : Ref sig .tc := ⟨.hbm, 6, rfl⟩
abbrev main_v1 : Ref sig .tc := ⟨.hbm, 7, rfl⟩
abbrev main_cst_2 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_4 : Ref sig .tc := ⟨.hbm, 21, rfl⟩
abbrev main_v13 : Ref sig .tc := ⟨.hbm, 22, rfl⟩
abbrev main_v14 : Ref sig .tc := ⟨.hbm, 23, rfl⟩
abbrev main_c_5 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_6 : Ref sig .tc := ⟨.hbm, 30, rfl⟩
abbrev main_v20 : Ref sig .tc := ⟨.hbm, 31, rfl⟩
abbrev main_v21 : Ref sig .tc := ⟨.hbm, 32, rfl⟩
abbrev main_c_7 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_8 : Ref sig .tc := ⟨.hbm, 39, rfl⟩
abbrev main_v27 : Ref sig .tc := ⟨.hbm, 40, rfl⟩
abbrev main_v28 : Ref sig .tc := ⟨.hbm, 41, rfl⟩
abbrev main_c_9 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_10 : Ref sig .tc := ⟨.hbm, 48, rfl⟩
abbrev main_v34 : Ref sig .tc := ⟨.hbm, 49, rfl⟩
abbrev main_v35 : Ref sig .tc := ⟨.hbm, 50, rfl⟩
abbrev main_c_11 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_12 : Ref sig .tc := ⟨.hbm, 61, rfl⟩
abbrev main_v45 : Ref sig .tc := ⟨.hbm, 62, rfl⟩
abbrev main_cst_13 : Ref sig .tc := ⟨.hbm, 63, rfl⟩
abbrev main_v46 : Ref sig .tc := ⟨.hbm, 64, rfl⟩
abbrev main_v47 : Ref sig .tc := ⟨.hbm, 65, rfl⟩
abbrev main_c_14 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_15 : Ref sig .tc := ⟨.hbm, 71, rfl⟩
abbrev main_v52 : Ref sig .tc := ⟨.hbm, 72, rfl⟩
abbrev main_v53 : Ref sig .tc := ⟨.hbm, 73, rfl⟩
abbrev main_cst_16 : Ref sig .tc := ⟨.hbm, 74, rfl⟩
abbrev main_v54 : Ref sig .tc := ⟨.hbm, 75, rfl⟩
abbrev main_v55 : Ref sig .tc := ⟨.hbm, 76, rfl⟩
abbrev main_c_17 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_18 : Ref sig .tc := ⟨.hbm, 82, rfl⟩
abbrev main_v60 : Ref sig .tc := ⟨.hbm, 83, rfl⟩
abbrev main_v61 : Ref sig .tc := ⟨.hbm, 84, rfl⟩
abbrev main_c_19 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_20 : Ref sig .tc := ⟨.hbm, 89, rfl⟩
abbrev main_v65 : Ref sig .tc := ⟨.hbm, 90, rfl⟩
abbrev main_v66 : Ref sig .tc := ⟨.hbm, 91, rfl⟩
abbrev main_c_21 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_22 : Ref sig .tc := ⟨.hbm, 96, rfl⟩
abbrev main_v70 : Ref sig .tc := ⟨.hbm, 97, rfl⟩
abbrev main_v71 : Ref sig .tc := ⟨.hbm, 98, rfl⟩
abbrev main_c_23 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_c_24 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_c_25 : Ref sig .tc := ⟨.hbm, 118, rfl⟩
abbrev main_v89 : Ref sig .tc := ⟨.hbm, 119, rfl⟩
abbrev main_v90 : Ref sig .tc := ⟨.hbm, 120, rfl⟩
abbrev main_c_26 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_c_27 : Ref sig .tc := ⟨.hbm, 125, rfl⟩
abbrev main_v94 : Ref sig .tc := ⟨.hbm, 126, rfl⟩
abbrev main_v95 : Ref sig .tc := ⟨.hbm, 127, rfl⟩
abbrev main_c_28 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_c_29 : Ref sig .tc := ⟨.hbm, 132, rfl⟩
abbrev main_v99 : Ref sig .tc := ⟨.hbm, 133, rfl⟩
abbrev main_v100 : Ref sig .tc := ⟨.hbm, 134, rfl⟩
abbrev main_c_30 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_c_31 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_c_32 : Ref sig .tc := ⟨.hbm, 154, rfl⟩
abbrev main_v118 : Ref sig .tc := ⟨.hbm, 155, rfl⟩
abbrev main_v119 : Ref sig .tc := ⟨.hbm, 156, rfl⟩
abbrev main_cst_33 : Ref sig .tc := ⟨.hbm, 157, rfl⟩
abbrev main_v120 : Ref sig .tc := ⟨.hbm, 158, rfl⟩
abbrev main_v121 : Ref sig .tc := ⟨.hbm, 159, rfl⟩
abbrev main_c_34 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_c_35 : Ref sig .tc := ⟨.hbm, 165, rfl⟩
abbrev main_v126 : Ref sig .tc := ⟨.hbm, 166, rfl⟩
abbrev main_v127 : Ref sig .tc := ⟨.hbm, 167, rfl⟩
abbrev main_c_36 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_c_37 : Ref sig .tc := ⟨.hbm, 172, rfl⟩
abbrev main_v131 : Ref sig .tc := ⟨.hbm, 173, rfl⟩
abbrev main_v132 : Ref sig .tc := ⟨.hbm, 174, rfl⟩
abbrev main_c_38 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_c_39 : Ref sig .tc := ⟨.hbm, 179, rfl⟩
abbrev main_v136 : Ref sig .tc := ⟨.hbm, 180, rfl⟩
abbrev main_v137 : Ref sig .tc := ⟨.hbm, 181, rfl⟩
abbrev main_c_40 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_c_41 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_c_42 : Ref sig .tc := ⟨.hbm, 201, rfl⟩
abbrev main_v155 : Ref sig .tc := ⟨.hbm, 202, rfl⟩
abbrev main_v156 : Ref sig .tc := ⟨.hbm, 203, rfl⟩
abbrev main_c_43 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_c_44 : Ref sig .tc := ⟨.hbm, 208, rfl⟩
abbrev main_v160 : Ref sig .tc := ⟨.hbm, 209, rfl⟩
abbrev main_v161 : Ref sig .tc := ⟨.hbm, 210, rfl⟩
abbrev main_c_45 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_c_46 : Ref sig .tc := ⟨.hbm, 215, rfl⟩
abbrev main_v165 : Ref sig .tc := ⟨.hbm, 216, rfl⟩
abbrev main_v166 : Ref sig .tc := ⟨.hbm, 217, rfl⟩
abbrev main_c_47 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩

abbrev nD : Nat := 1
abbrev τ : Topo := Topo.v7x

variable {F : FTy → Type} [FloatOps F]

class Facts₀ : Prop where
  bcast_S2097152x3_S2097152x1x3_0_2 : S2097152x3.BroadcastsInDim S2097152x1x3 (![0, 2] : Fin 2 → Fin S2097152x1x3.rank)
  bcast_S4_S1x4x1_1 : S4.BroadcastsInDim S1x4x1 (![1] : Fin 1 → Fin S1x4x1.rank)
  bcast_S_S1x4x1 : S_.BroadcastsInDim S1x4x1 (![] : Fin 0 → Fin S1x4x1.rank)
  bcast_S2097152x1x3_S2097152x4x3_0_1_2 : S2097152x1x3.BroadcastsInDim S2097152x4x3 (![0, 1, 2] : Fin 3 → Fin S2097152x4x3.rank)
  bcast_S1x4x1_S2097152x4x3_0_1_2 : S1x4x1.BroadcastsInDim S2097152x4x3 (![0, 1, 2] : Fin 3 → Fin S2097152x4x3.rank)
  bcast_S_S2097152x4x3 : S_.BroadcastsInDim S2097152x4x3 (![] : Fin 0 → Fin S2097152x4x3.rank)
  bcast_S_S3 : S_.BroadcastsInDim S3 (![] : Fin 0 → Fin S3.rank)
  bcast_S3_S3x1_0 : S3.BroadcastsInDim S3x1 (![0] : Fin 1 → Fin S3x1.rank)
  shapeCasts_S6291456_S3x1048576x2 : S6291456.ShapeCasts S3x1048576x2
  bcast_S3_S1x1x3_2 : S3.BroadcastsInDim S1x1x3 (![2] : Fin 1 → Fin S1x1x3.rank)
  bcast_S_S2097152x4x3x2 : S_.BroadcastsInDim S2097152x4x3x2 (![] : Fin 0 → Fin S2097152x4x3x2.rank)
  bcast_S_S1x1x3 : S_.BroadcastsInDim S1x1x3 (![] : Fin 0 → Fin S1x1x3.rank)
  bcast_S1x1x3_S2097152x4x3_0_1_2 : S1x1x3.BroadcastsInDim S2097152x4x3 (![0, 1, 2] : Fin 3 → Fin S2097152x4x3.rank)
  bcast_S2097152x4x3_S2097152x4x3x1_0_1_2 : S2097152x4x3.BroadcastsInDim S2097152x4x3x1 (![0, 1, 2] : Fin 3 → Fin S2097152x4x3x1.rank)
  concatenates_S2097152x4x3x1_S2097152x4x3x1_S2097152x4x3x2_d3 : Shape.Concatenates [S2097152x4x3x1, S2097152x4x3x1] S2097152x4x3x2 3
  bcast_S2097152x4x3x1_S2097152x4x3x2_0_1_2_3 : S2097152x4x3x1.BroadcastsInDim S2097152x4x3x2 (![0, 1, 2, 3] : Fin 4 → Fin S2097152x4x3x2.rank)
  slices_S2097152x4x3x2_S2097152x4x1x2_0_0_0_0 : S2097152x4x3x2.Slices ![0, 0, 0, 0] S2097152x4x1x2
  shapeCasts_S2097152x4x1x2_S2097152x4x2 : S2097152x4x1x2.ShapeCasts S2097152x4x2
  slices_S2097152x4x3x2_S2097152x4x1x2_0_0_1_0 : S2097152x4x3x2.Slices ![0, 0, 1, 0] S2097152x4x1x2
  slices_S2097152x4x3x2_S2097152x4x1x2_0_0_2_0 : S2097152x4x3x2.Slices ![0, 0, 2, 0] S2097152x4x1x2
  bcast_S2097152x4x2_S2097152x4x1x2_0_1_3 : S2097152x4x2.BroadcastsInDim S2097152x4x1x2 (![0, 1, 3] : Fin 3 → Fin S2097152x4x1x2.rank)
  concatenates_S2097152x4x3x2_S2097152x4x1x2_S2097152x4x4x2_d2 : Shape.Concatenates [S2097152x4x3x2, S2097152x4x1x2] S2097152x4x4x2 2
  shapeCasts_S2097152x4x4x2_S2097152x32 : S2097152x4x4x2.ShapeCasts S2097152x32
  gather_S2097152x4x3_S3x1_S2097152x4x3_01_2_n_n_2_1_209715241_wf : GatherDims.WF S2097152x4x3 S3x1 S2097152x4x3 [0, 1] [2] [] [2] [] 1 ![2097152, 4, 1]
  gather_S3x1048576x2_S2097152x4x3x2_S2097152x4x3x2_3_01_n_n_01_3_112_wf : GatherDims.WF S3x1048576x2 S2097152x4x3x2 S2097152x4x3x2 [3] [0, 1] [] [0, 1] [] 3 ![1, 1, 2]

variable [Facts₀]

def gather_S2097152x4x3_S3x1_S2097152x4x3_01_2_n_n_2_1_209715241 : GatherDims S2097152x4x3 S3x1 S2097152x4x3 where
  offsetDims := [0, 1]
  collapsedSliceDims := [2]
  operandBatchingDims := []
  startIndicesBatchingDims := []
  startIndexMap := [2]
  indexVectorDim := 1
  sliceSizes := ![2097152, 4, 1]
  wf := gather_S2097152x4x3_S3x1_S2097152x4x3_01_2_n_n_2_1_209715241_wf
def gather_S3x1048576x2_S2097152x4x3x2_S2097152x4x3x2_3_01_n_n_01_3_112 : GatherDims S3x1048576x2 S2097152x4x3x2 S2097152x4x3x2 where
  offsetDims := [3]
  collapsedSliceDims := [0, 1]
  operandBatchingDims := []
  startIndicesBatchingDims := []
  startIndexMap := [0, 1]
  indexVectorDim := 3
  sliceSizes := ![1, 1, 2]
  wf := gather_S3x1048576x2_S2097152x4x3x2_S2097152x4x3x2_3_01_n_n_01_3_112_wf

class Facts : Prop extends Facts₀ where

variable [Facts]
-- ==== Proof.Encode.lean ====
/-
  The encoding, entry by entry, over the extended reals, for any number n of points.

  Given four feature arrays f₀ … f₃ : [n, 4, 3, 2] and four weight arrays w₀ … w₃ : [n, 4, 3], the blend at
  (point b, level l, plane p, feature j) is  f₀·w₀ + f₁·w₁ + f₂·w₂ + f₃·w₃  there, each weight read at (b, l, p).
  The encoding's entry (b, l, s, j) is the blend of plane s for s = 0, 1, 2, and for s = 3 the product of the three
  planes' blends, (blend₀ · blend₁) · blend₂.

  An entry of point b reads the eight arrays at point b only. The reference adds the corners up from zero with the
  weight as the left factor; since 0 + z = z and z · z' = z' · z hold for all extended reals, infinite ones included, its
  sum is the same blend.
-/
import Idealize.ShloMosaic.PureOps.Ideal
import Idealize.ShloMosaic.Lib.ValueIdx

noncomputable section

namespace Cert.TriPlane

open Idealize.ShloMosaic Idealize.ShloMosaic.ValueIdx

variable {n : Nat}

/-- The blend of the four corners at (b, l, p, j). -/
def blend (f0 f1 f2 f3 : (⟨4, ![n, 4, 3, 2]⟩ : Shape).Idx → EReal) (w0 w1 w2 w3 : (⟨3, ![n, 4, 3]⟩ : Shape).Idx → EReal)
    (b : Fin n) (l : Fin 4) (p : Fin 3) (j : Fin 2) : EReal :=
  f0 (ix4 b l p j) * w0 (ix3 b l p) + f1 (ix4 b l p j) * w1 (ix3 b l p) + f2 (ix4 b l p j) * w2 (ix3 b l p)
    + f3 (ix4 b l p j) * w3 (ix3 b l p)

/-- The encoding's entry (b, l, s, j): a plane's blend, or for s = 3 the product of the three. -/
def encAt (f0 f1 f2 f3 : (⟨4, ![n, 4, 3, 2]⟩ : Shape).Idx → EReal) (w0 w1 w2 w3 : (⟨3, ![n, 4, 3]⟩ : Shape).Idx → EReal)
    (b : Fin n) (l : Fin 4) (s : Fin 4) (j : Fin 2) : EReal :=
  match s with
  | ⟨0, _⟩ => blend f0 f1 f2 f3 w0 w1 w2 w3 b l 0 j
  | ⟨1, _⟩ => blend f0 f1 f2 f3 w0 w1 w2 w3 b l 1 j
  | ⟨2, _⟩ => blend f0 f1 f2 f3 w0 w1 w2 w3 b l 2 j
  | ⟨3, _⟩ => blend f0 f1 f2 f3 w0 w1 w2 w3 b l 0 j * blend f0 f1 f2 f3 w0 w1 w2 w3 b l 1 j
      * blend f0 f1 f2 f3 w0 w1 w2 w3 b l 2 j

/-- The encoding as an array [n, 4, 4, 2]. -/
def enc (f0 f1 f2 f3 : (⟨4, ![n, 4, 3, 2]⟩ : Shape).Idx → EReal) (w0 w1 w2 w3 : (⟨3, ![n, 4, 3]⟩ : Shape).Idx → EReal) :
    (⟨4, ![n, 4, 4, 2]⟩ : Shape).Idx → EReal :=
  fun i => encAt f0 f1 f2 f3 w0 w1 w2 w3 (i 0) (i 1) (i 2) (i 3)

theorem enc_ix4 (f0 f1 f2 f3 : (⟨4, ![n, 4, 3, 2]⟩ : Shape).Idx → EReal) (w0 w1 w2 w3 : (⟨3, ![n, 4, 3]⟩ : Shape).Idx → EReal)
    (b : Fin n) (l : Fin 4) (s : Fin 4) (j : Fin 2) :
    enc f0 f1 f2 f3 w0 w1 w2 w3 (ix4 b l s j) = encAt f0 f1 f2 f3 w0 w1 w2 w3 b l s j := rfl

/-- A blend at point b of one family of arrays is the blend at point b' of another that holds the same numbers there. -/
theorem blend_congr {n' : Nat}
    (f0 f1 f2 f3 : (⟨4, ![n, 4, 3, 2]⟩ : Shape).Idx → EReal) (w0 w1 w2 w3 : (⟨3, ![n, 4, 3]⟩ : Shape).Idx → EReal)
    (g0 g1 g2 g3 : (⟨4, ![n', 4, 3, 2]⟩ : Shape).Idx → EReal) (v0 v1 v2 v3 : (⟨3, ![n', 4, 3]⟩ : Shape).Idx → EReal)
    (b : Fin n) (b' : Fin n') (l : Fin 4)
    (hf0 : ∀ p j, f0 (ix4 b l p j) = g0 (ix4 b' l p j)) (hf1 : ∀ p j, f1 (ix4 b l p j) = g1 (ix4 b' l p j))
    (hf2 : ∀ p j, f2 (ix4 b l p j) = g2 (ix4 b' l p j)) (hf3 : ∀ p j, f3 (ix4 b l p j) = g3 (ix4 b' l p j))
    (hw0 : ∀ p, w0 (ix3 b l p) = v0 (ix3 b' l p)) (hw1 : ∀ p, w1 (ix3 b l p) = v1 (ix3 b' l p))
    (hw2 : ∀ p, w2 (ix3 b l p) = v2 (ix3 b' l p)) (hw3 : ∀ p, w3 (ix3 b l p) = v3 (ix3 b' l p))
    (p : Fin 3) (j : Fin 2) :
    blend f0 f1 f2 f3 w0 w1 w2 w3 b l p j = blend g0 g1 g2 g3 v0 v1 v2 v3 b' l p j := by
  unfold blend
  rw [hf0, hf1, hf2, hf3, hw0, hw1, hw2, hw3]

/-- So is an entry of the encoding. -/
theorem encAt_congr {n' : Nat}
    (f0 f1 f2 f3 : (⟨4, ![n, 4, 3, 2]⟩ : Shape).Idx → EReal) (w0 w1 w2 w3 : (⟨3, ![n, 4, 3]⟩ : Shape).Idx → EReal)
    (g0 g1 g2 g3 : (⟨4, ![n', 4, 3, 2]⟩ : Shape).Idx → EReal) (v0 v1 v2 v3 : (⟨3, ![n', 4, 3]⟩ : Shape).Idx → EReal)
    (b : Fin n) (b' : Fin n') (l : Fin 4)
    (hf0 : ∀ p j, f0 (ix4 b l p j) = g0 (ix4 b' l p j)) (hf1 : ∀ p j, f1 (ix4 b l p j) = g1 (ix4 b' l p j))
    (hf2 : ∀ p j, f2 (ix4 b l p j) = g2 (ix4 b' l p j)) (hf3 : ∀ p j, f3 (ix4 b l p j) = g3 (ix4 b' l p j))
    (hw0 : ∀ p, w0 (ix3 b l p) = v0 (ix3 b' l p)) (hw1 : ∀ p, w1 (ix3 b l p) = v1 (ix3 b' l p))
    (hw2 : ∀ p, w2 (ix3 b l p) = v2 (ix3 b' l p)) (hw3 : ∀ p, w3 (ix3 b l p) = v3 (ix3 b' l p))
    (s : Fin 4) (j : Fin 2) :
    encAt f0 f1 f2 f3 w0 w1 w2 w3 b l s j = encAt g0 g1 g2 g3 v0 v1 v2 v3 b' l s j := by
  have hb := blend_congr f0 f1 f2 f3 w0 w1 w2 w3 g0 g1 g2 g3 v0 v1 v2 v3 b b' l hf0 hf1 hf2 hf3 hw0 hw1 hw2 hw3
  match s with
  | ⟨0, _⟩ => exact hb 0 j
  | ⟨1, _⟩ => exact hb 1 j
  | ⟨2, _⟩ => exact hb 2 j
  | ⟨3, _⟩ => show _ * _ * _ = _ * _ * _; rw [hb 0 j, hb 1 j, hb 2 j]

/-- The corners added up from zero, the weight as the left factor, are the same blend. -/
theorem blend_from_zero (f0 f1 f2 f3 : (⟨4, ![n, 4, 3, 2]⟩ : Shape).Idx → EReal) (w0 w1 w2 w3 : (⟨3, ![n, 4, 3]⟩ : Shape).Idx → EReal)
    (b : Fin n) (l : Fin 4) (p : Fin 3) (j : Fin 2) :
    0 + w0 (ix3 b l p) * f0 (ix4 b l p j) + w1 (ix3 b l p) * f1 (ix4 b l p j) + w2 (ix3 b l p) * f2 (ix4 b l p j)
        + w3 (ix3 b l p) * f3 (ix4 b l p j)
      = blend f0 f1 f2 f3 w0 w1 w2 w3 b l p j := by
  unfold blend
  rw [zero_add, mul_comm (w0 _), mul_comm (w1 _), mul_comm (w2 _), mul_comm (w3 _)]

end Cert.TriPlane

end
-- ==== Proof.LibTrailing.lean ====
/-
  Layout operations around the last axis and around a unit third axis of a rank-4 array [n₀, n₁, n₂, n₃], read at
  explicit coordinates, for any extents:

  * a rank-3 array [n₀, n₁, n₂] repeated along a new last axis — as a cast to [n₀, n₁, n₂, 1] followed by a broadcast,
    and as two broadcasts in dimensions — reads the array at the three leading coordinates;
  * plane k of the third axis, cut as a slice [n₀, n₁, 1, n₃] and cast to [n₀, n₁, n₃], reads the array at third
    coordinate k;
  * a rank-3 array [n₀, n₁, n₃] given a unit third axis — by a cast, or by a broadcast in dimensions 0, 1, 3 — reads
    the array at the remaining coordinates;
  * four arrays [n₀, n₁, 1, n₃] concatenated along the third axis read the s-th of them, and an array [n₀, n₁, 3, n₃]
    followed by one [n₀, n₁, 1, n₃] reads the first at third coordinates 0, 1, 2 and the second at 3.
-/
import Idealize.ShloMosaic.Lib.ValueIdx
import Idealize.ShloMosaic.Lib.ValueLayout
import Idealize.ShloMosaic.Lib.Pipeline.Value

namespace Cert.LibTrailing

open Idealize.ShloMosaic Idealize.ShloMosaic.ValueIdx

variable {α : Type} {n0 n1 n2 n3 : Nat}

/-- [n₀, n₁, n₂] cast to [n₀, n₁, n₂, 1] and broadcast along the last axis, at (a, b, c, d), is the array at (a, b, c). -/
theorem cast_broadcastTo_apply (w : (⟨3, ![n0, n1, n2]⟩ : Shape).Idx → α)
    (h1 : (⟨3, ![n0, n1, n2]⟩ : Shape).ShapeCasts ⟨4, ![n0, n1, n2, 1]⟩)
    (h2 : (⟨4, ![n0, n1, n2, 1]⟩ : Shape).Broadcasts ⟨4, ![n0, n1, n2, n3]⟩)
    (a : Fin n0) (b : Fin n1) (c : Fin n2) (d : Fin n3) :
    broadcastTo ⟨4, ![n0, n1, n2, n3]⟩ (shapeCast ⟨4, ![n0, n1, n2, 1]⟩ w h1) h2 (ix4 a b c d) = w (ix3 a b c) := by
  rw [broadcastTo_apply _ h2 (ix4 a b c d) (ix4 a b c (0 : Fin 1)) (fun ax => by
    match ax with
    | ⟨0, _⟩ => show a.val = if n0 = 1 then 0 else a.val; split <;> omega
    | ⟨1, _⟩ => show b.val = if n1 = 1 then 0 else b.val; split <;> omega
    | ⟨2, _⟩ => show c.val = if n2 = 1 then 0 else c.val; split <;> omega
    | ⟨3, _⟩ => rfl)]
  exact shapeCast_apply w h1 (ix4 a b c (0 : Fin 1)) (ix3 a b c) (by
    rw [Shape.rowMajor_val_three, Shape.rowMajor_val_four]
    show (a.val * n1 + b.val) * n2 + c.val = ((a.val * n1 + b.val) * n2 + c.val) * 1 + 0; omega)

/-- The same repetition spelt as two broadcasts in dimensions: [n₀, n₁, n₂] to [n₀, n₁, n₂, 1] to [n₀, n₁, n₂, n₃]. -/
theorem inDim_inDim_apply (w : (⟨3, ![n0, n1, n2]⟩ : Shape).Idx → α)
    (h1 : (⟨3, ![n0, n1, n2]⟩ : Shape).BroadcastsInDim ⟨4, ![n0, n1, n2, 1]⟩ (![0, 1, 2] : Fin 3 → Fin 4))
    (h2 : (⟨4, ![n0, n1, n2, 1]⟩ : Shape).BroadcastsInDim ⟨4, ![n0, n1, n2, n3]⟩ (![0, 1, 2, 3] : Fin 4 → Fin 4))
    (a : Fin n0) (b : Fin n1) (c : Fin n2) (d : Fin n3) :
    broadcastInDim ⟨4, ![n0, n1, n2, n3]⟩ ![0, 1, 2, 3] h2 (broadcastInDim ⟨4, ![n0, n1, n2, 1]⟩ ![0, 1, 2] h1 w) (ix4 a b c d)
      = w (ix3 a b c) := by
  rw [broadcastInDim_apply ![0, 1, 2, 3] h2 _ (ix4 a b c d) (ix4 a b c (0 : Fin 1)) (fun ax => by
    match ax with
    | ⟨0, _⟩ => show a.val = if n0 = 1 then 0 else a.val; split <;> omega
    | ⟨1, _⟩ => show b.val = if n1 = 1 then 0 else b.val; split <;> omega
    | ⟨2, _⟩ => show c.val = if n2 = 1 then 0 else c.val; split <;> omega
    | ⟨3, _⟩ => rfl)]
  exact broadcastInDim_apply ![0, 1, 2] h1 w (ix4 a b c (0 : Fin 1)) (ix3 a b c) (fun ax => by
    match ax with
    | ⟨0, _⟩ => show a.val = if n0 = 1 then 0 else a.val; split <;> omega
    | ⟨1, _⟩ => show b.val = if n1 = 1 then 0 else b.val; split <;> omega
    | ⟨2, _⟩ => show c.val = if n2 = 1 then 0 else c.val; split <;> omega)

/-- Plane k of the third axis, cut as [n₀, n₁, 1, n₃] and cast to [n₀, n₁, n₃], at (a, b, d), is the array at (a, b, k, d). -/
theorem slice_cast_apply (x : (⟨4, ![n0, n1, n2, n3]⟩ : Shape).Idx → α) (k : Nat)
    (hs : (⟨4, ![n0, n1, n2, n3]⟩ : Shape).Slices ![0, 0, k, 0] ⟨4, ![n0, n1, 1, n3]⟩)
    (hc : (⟨4, ![n0, n1, 1, n3]⟩ : Shape).ShapeCasts ⟨3, ![n0, n1, n3]⟩)
    (a : Fin n0) (b : Fin n1) (c : Fin n2) (hk : c.val = k) (d : Fin n3) :
    shapeCast ⟨3, ![n0, n1, n3]⟩ (extractStridedSlice ⟨4, ![n0, n1, 1, n3]⟩ ![0, 0, k, 0] x hs) hc (ix3 a b d)
      = x (ix4 a b c d) := by
  rw [shapeCast_apply _ hc (ix3 a b d) (ix4 a b (0 : Fin 1) d) (by
    rw [Shape.rowMajor_val_four, Shape.rowMajor_val_three]
    show ((a.val * n1 + b.val) * 1 + 0) * n3 + d.val = (a.val * n1 + b.val) * n3 + d.val
    simp only [Nat.mul_one, Nat.add_zero])]
  exact slice4_axis2_apply k x hs a b (0 : Fin 1) d c (by show c.val = k + 0; omega)

/-- [n₀, n₁, n₃] cast to [n₀, n₁, 1, n₃], at (a, b, z, d), is the array at (a, b, d). -/
theorem cast_unit2_apply (v : (⟨3, ![n0, n1, n3]⟩ : Shape).Idx → α)
    (h : (⟨3, ![n0, n1, n3]⟩ : Shape).ShapeCasts ⟨4, ![n0, n1, 1, n3]⟩)
    (a : Fin n0) (b : Fin n1) (z : Fin 1) (d : Fin n3) :
    shapeCast ⟨4, ![n0, n1, 1, n3]⟩ v h (ix4 a b z d) = v (ix3 a b d) :=
  shapeCast_apply v h (ix4 a b z d) (ix3 a b d) (by
    rw [Shape.rowMajor_val_three, Shape.rowMajor_val_four]
    show (a.val * n1 + b.val) * n3 + d.val = ((a.val * n1 + b.val) * 1 + z.val) * n3 + d.val
    have hz : z.val = 0 := by omega
    rw [hz]; simp only [Nat.mul_one, Nat.add_zero])

/-- [n₀, n₁, n₃] broadcast in dimensions 0, 1, 3 to [n₀, n₁, 1, n₃], at (a, b, z, d), is the array at (a, b, d). -/
theorem inDim_unit2_apply (v : (⟨3, ![n0, n1, n3]⟩ : Shape).Idx → α)
    (h : (⟨3, ![n0, n1, n3]⟩ : Shape).BroadcastsInDim ⟨4, ![n0, n1, 1, n3]⟩ (![0, 1, 3] : Fin 3 → Fin 4))
    (a : Fin n0) (b : Fin n1) (z : Fin 1) (d : Fin n3) :
    broadcastInDim ⟨4, ![n0, n1, 1, n3]⟩ ![0, 1, 3] h v (ix4 a b z d) = v (ix3 a b d) :=
  broadcastInDim_apply ![0, 1, 3] h v (ix4 a b z d) (ix3 a b d) (fun ax => by
    match ax with
    | ⟨0, _⟩ => show a.val = if n0 = 1 then 0 else a.val; split <;> omega
    | ⟨1, _⟩ => show b.val = if n1 = 1 then 0 else b.val; split <;> omega
    | ⟨2, _⟩ => show d.val = if n3 = 1 then 0 else d.val; split <;> omega)

/-- Four arrays [n₀, n₁, 1, n₃] one behind another along the third axis, at (a, b, s, d), are the s-th of them at
    (a, b, 0, d). -/
theorem concat4_apply (p : Fin 4 → ((⟨4, ![n0, n1, 1, n3]⟩ : Shape).Idx → α))
    (h : Shape.Concatenates [(⟨4, ![n0, n1, 1, n3]⟩ : Shape), ⟨4, ![n0, n1, 1, n3]⟩, ⟨4, ![n0, n1, 1, n3]⟩, ⟨4, ![n0, n1, 1, n3]⟩]
      ⟨4, ![n0, n1, 4, n3]⟩ 2)
    (a : Fin n0) (b : Fin n1) (s : Fin 4) (d : Fin n3) :
    concatenate ⟨4, ![n0, n1, 4, n3]⟩ 2 [⟨⟨4, ![n0, n1, 1, n3]⟩, p 0⟩, ⟨⟨4, ![n0, n1, 1, n3]⟩, p 1⟩,
        ⟨⟨4, ![n0, n1, 1, n3]⟩, p 2⟩, ⟨⟨4, ![n0, n1, 1, n3]⟩, p 3⟩] h (ix4 a b s d)
      = p s (ix4 a b (0 : Fin 1) d) :=
  concatenate_ofFn_unit_apply (s₁ := ⟨4, ![n0, n1, 1, n3]⟩) (t := ⟨4, ![n0, n1, 4, n3]⟩) 2 p h rfl rfl (ix4 a b s d) s rfl
    (ix4 a b (0 : Fin 1) d) (fun ax hax => by
      match ax with
      | ⟨0, _⟩ => rfl
      | ⟨1, _⟩ => rfl
      | ⟨2, _⟩ => exact absurd rfl hax
      | ⟨3, _⟩ => rfl)

/-- An array [n₀, n₁, 3, n₃] followed along the third axis by one [n₀, n₁, 1, n₃]: at third coordinate below 3 it is
    the first. -/
theorem concat31_left (x : (⟨4, ![n0, n1, 3, n3]⟩ : Shape).Idx → α) (y : (⟨4, ![n0, n1, 1, n3]⟩ : Shape).Idx → α)
    (h : Shape.Concatenates [(⟨4, ![n0, n1, 3, n3]⟩ : Shape), ⟨4, ![n0, n1, 1, n3]⟩] ⟨4, ![n0, n1, 4, n3]⟩ 2)
    (a : Fin n0) (b : Fin n1) (s : Fin 4) (c : Fin 3) (hc : c.val = s.val) (d : Fin n3) :
    concatenate ⟨4, ![n0, n1, 4, n3]⟩ 2 [⟨⟨4, ![n0, n1, 3, n3]⟩, x⟩, ⟨⟨4, ![n0, n1, 1, n3]⟩, y⟩] h (ix4 a b s d)
      = x (ix4 a b c d) :=
  concatenate_pair_apply_left 2 x y h (ix4 a b s d) rfl (ix4 a b c d) (fun ax => by
    match ax with
    | ⟨0, _⟩ => rfl
    | ⟨1, _⟩ => rfl
    | ⟨2, _⟩ => exact hc
    | ⟨3, _⟩ => rfl)

/-- … and at third coordinate 3 it is the second. -/
theorem concat31_right (x : (⟨4, ![n0, n1, 3, n3]⟩ : Shape).Idx → α) (y : (⟨4, ![n0, n1, 1, n3]⟩ : Shape).Idx → α)
    (h : Shape.Concatenates [(⟨4, ![n0, n1, 3, n3]⟩ : Shape), ⟨4, ![n0, n1, 1, n3]⟩] ⟨4, ![n0, n1, 4, n3]⟩ 2)
    (a : Fin n0) (b : Fin n1) (s : Fin 4) (hs : s.val = 3) (d : Fin n3) :
    concatenate ⟨4, ![n0, n1, 4, n3]⟩ 2 [⟨⟨4, ![n0, n1, 3, n3]⟩, x⟩, ⟨⟨4, ![n0, n1, 1, n3]⟩, y⟩] h (ix4 a b s d)
      = y (ix4 a b (0 : Fin 1) d) :=
  concatenate_pair_apply_right 2 x y h (ix4 a b s d) rfl rfl (ix4 a b (0 : Fin 1) d) (fun ax hax => by
    match ax with
    | ⟨0, _⟩ => rfl
    | ⟨1, _⟩ => rfl
    | ⟨2, _⟩ => exact absurd rfl hax
    | ⟨3, _⟩ => rfl) (by show 0 + 3 = s.val; omega)

end Cert.LibTrailing
-- ==== Proof.KPayload.lean ====
/-
  The kernel's body at one grid point, read entry by entry over the extended reals. The body loads four feature blocks
  [128, 4, 3, 2] and four weight blocks [128, 4, 3]; it multiplies each feature block by its weight block repeated over the
  two features and adds the four products: that is the blend of the blocks. It then cuts the blend's three planes, multiplies
  them, and stores the three planes and the product one behind another along the third axis: that is the encoding's
  entry of the blocks.
-/
import proofs.«139929_j36910948941984_2_alg».proof.Proof.Gen.KernelIdeal.Skeleton
import proofs.«139929_j36910948941984_2_alg».proof.Proof.Encode
import proofs.«139929_j36910948941984_2_alg».proof.Proof.LibTrailing

noncomputable section

namespace Cert.KernelIdeal.Payload

open Cert.KernelIdeal Cert.KernelIdeal.Gen Idealize.ShloMosaic Idealize.ShloMosaic.ValueIdx
open Cert.TriPlane Cert.LibTrailing

/-- The weighted sum of the four loaded feature blocks is their blend. -/
theorem blend_apply (x0 x1 x2 x3 : Vec Ideal S128x4x3x2 .f32) (y0 y1 y2 y3 : Vec Ideal S128x4x3 .f32)
    (b : Fin 128) (l : Fin 4) (p : Fin 3) (j : Fin 2) :
    k0_pay2 (F := Ideal) x0 x1 x2 x3 y0 y1 y2 y3 (ix4 b l p j) = blend x0 x1 x2 x3 y0 y1 y2 y3 b l p j := by
  unfold k0_pay2 blend
  simp only [shapeCast_self]
  refine congrArg₂ (· + ·) (congrArg₂ (· + ·) (congrArg₂ (· + ·) ?_ ?_) ?_) ?_ <;>
    exact congrArg₂ (· * ·) rfl (cast_broadcastTo_apply _ _ _ b l p j)

/-- Plane 0 of a block [128, 4, 3, 2], as [128, 4, 2]. -/
def plane0 (v : Vec Ideal S128x4x3x2 .f32) : FVec Ideal S128x4x2 .f32 :=
  shapeCast S128x4x2 (extractStridedSlice S128x4x1x2 ![0, 0, 0, 0] v Facts₀.slices_S128x4x3x2_o0_0_0_0_S128x4x1x2)
    Facts₀.shapeCasts_S128x4x1x2_S128x4x2
/-- Plane 1. -/
def plane1 (v : Vec Ideal S128x4x3x2 .f32) : FVec Ideal S128x4x2 .f32 :=
  shapeCast S128x4x2 (extractStridedSlice S128x4x1x2 ![0, 0, 1, 0] v Facts₀.slices_S128x4x3x2_o0_0_1_0_S128x4x1x2)
    Facts₀.shapeCasts_S128x4x1x2_S128x4x2
/-- Plane 2. -/
def plane2 (v : Vec Ideal S128x4x3x2 .f32) : FVec Ideal S128x4x2 .f32 :=
  shapeCast S128x4x2 (extractStridedSlice S128x4x1x2 ![0, 0, 2, 0] v Facts₀.slices_S128x4x3x2_o0_0_2_0_S128x4x1x2)
    Facts₀.shapeCasts_S128x4x1x2_S128x4x2
/-- A [128, 4, 2] array given back its unit third axis. -/
def piece (u : FVec Ideal S128x4x2 .f32) : FVec Ideal S128x4x1x2 .f32 :=
  shapeCast S128x4x1x2 u Facts₀.shapeCasts_S128x4x2_S128x4x1x2

/-- The stored block is the three planes of the blend and their product, one behind another along the third axis. -/
theorem stored_eq (v : Vec Ideal S128x4x3x2 .f32) :
    k0_pay1 (F := Ideal) v
      = concatenate S128x4x4x2 2 [⟨S128x4x1x2, piece (plane0 v)⟩, ⟨S128x4x1x2, piece (plane1 v)⟩, ⟨S128x4x1x2, piece (plane2 v)⟩,
          ⟨S128x4x1x2, piece (mulf (mulf (plane0 v) (plane1 v)) (plane2 v))⟩]
          Facts₀.concatenates_S128x4x1x2_S128x4x1x2_S128x4x1x2_S128x4x1x2_S128x4x4x2_d2 := rfl

/-- The stored block, from the blend v: planes 0, 1, 2 of v, then their product. -/
theorem assemble_apply (v : Vec Ideal S128x4x3x2 .f32) (b : Fin 128) (l : Fin 4) (s : Fin 4) (j : Fin 2) :
    k0_pay1 (F := Ideal) v (ix4 b l s j)
      = match s with
        | ⟨0, _⟩ => v (ix4 b l 0 j)
        | ⟨1, _⟩ => v (ix4 b l 1 j)
        | ⟨2, _⟩ => v (ix4 b l 2 j)
        | ⟨3, _⟩ => v (ix4 b l 0 j) * v (ix4 b l 1 j) * v (ix4 b l 2 j) := by
  rw [stored_eq]
  refine (concat4_apply ![piece (plane0 v), piece (plane1 v), piece (plane2 v),
      piece (mulf (mulf (plane0 v) (plane1 v)) (plane2 v))] _ b l s j).trans ?_
  have h0 : plane0 v (ix3 b l j) = v (ix4 b l 0 j) := slice_cast_apply v 0 _ _ b l 0 rfl j
  have h1 : plane1 v (ix3 b l j) = v (ix4 b l 1 j) := slice_cast_apply v 1 _ _ b l 1 rfl j
  have h2 : plane2 v (ix3 b l j) = v (ix4 b l 2 j) := slice_cast_apply v 2 _ _ b l 2 rfl j
  match s with
  | ⟨0, _⟩ => exact (cast_unit2_apply (plane0 v) _ b l 0 j).trans h0
  | ⟨1, _⟩ => exact (cast_unit2_apply (plane1 v) _ b l 0 j).trans h1
  | ⟨2, _⟩ => exact (cast_unit2_apply (plane2 v) _ b l 0 j).trans h2
  | ⟨3, _⟩ =>
    refine (cast_unit2_apply (mulf (mulf (plane0 v) (plane1 v)) (plane2 v)) _ b l 0 j).trans ?_
    exact congrArg₂ (· * ·) (congrArg₂ (· * ·) h0 h1) h2

/-- What the body stores, from the eight loaded blocks, is the encoding's entry of the blocks. -/
theorem stored_apply (x0 x1 x2 x3 : Vec Ideal S128x4x3x2 .f32) (y0 y1 y2 y3 : Vec Ideal S128x4x3 .f32)
    (b : Fin 128) (l : Fin 4) (s : Fin 4) (j : Fin 2) :
    k0_pay1 (F := Ideal) (k0_pay2 (F := Ideal) x0 x1 x2 x3 y0 y1 y2 y3) (ix4 b l s j)
      = encAt x0 x1 x2 x3 y0 y1 y2 y3 b l s j := by
  refine (assemble_apply _ b l s j).trans ?_
  match s with
  | ⟨0, _⟩ => exact blend_apply x0 x1 x2 x3 y0 y1 y2 y3 b l 0 j
  | ⟨1, _⟩ => exact blend_apply x0 x1 x2 x3 y0 y1 y2 y3 b l 1 j
  | ⟨2, _⟩ => exact blend_apply x0 x1 x2 x3 y0 y1 y2 y3 b l 2 j
  | ⟨3, _⟩ =>
    exact congrArg₂ (· * ·) (congrArg₂ (· * ·) (blend_apply x0 x1 x2 x3 y0 y1 y2 y3 b l 0 j)
      (blend_apply x0 x1 x2 x3 y0 y1 y2 y3 b l 1 j)) (blend_apply x0 x1 x2 x3 y0 y1 y2 y3 b l 2 j)

end Cert.KernelIdeal.Payload

end
-- ==== Proof.KArray.lean ====
/-
  From blocks to the array. The grid has 16384 points on one axis; at point t every window's block is block (t, 0, 0, 0) of
  its array, 128 points long and whole on the other axes: rows 128·t … 128·t + 127. An entry of the encoding reads its own
  point's rows only, so what point t writes back — the encoding's entries of the eight loaded blocks — is block t of the
  encoding of the eight whole arrays. Row r lies in the block of point r / 128, so the blocks cover the result array, which
  therefore ends holding that encoding.
-/
import proofs.«139929_j36910948941984_2_alg».proof.Proof.Gen.KernelIdeal.Frame
import proofs.«139929_j36910948941984_2_alg».proof.Proof.KPayload
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx Cert.TriPlane
open Idealize.ShloMosaic.Pipeline (Dat)

variable (m : (ℓ : Loc nD τ sig) → Buf (Elt Ideal) ℓ)

theorem hz4 : (![0, 0, 0, 0] : Fin 4 → Nat) = fun _ => 0 := funext fun a => by fin_cases a <;> rfl
theorem hz3 : (![0, 0, 0] : Fin 3 → Nat) = fun _ => 0 := funext fun a => by fin_cases a <;> rfl

theorem point_lt (t : Fin cfg0.N) : t.val < 16384 := by
  have h := t.isLt
  have hN : cfg0.N = 16384 := N_0
  omega

/-- On the one-axis grid a point's coordinate is its number. -/
theorem coord_val (t : Fin cfg0.N) : ((grid0.coords t) 0).val = t.val := by
  show t.val / grid0.stride 0 % grid0.bound 0 = t.val
  have hs : grid0.stride 0 = 1 := by decide
  have hb : grid0.bound 0 = 16384 := rfl
  rw [hs, hb, Nat.div_one]
  exact Nat.mod_eq_of_lt (point_lt t)

/-- The result window's block index at point t is (t, 0, 0, 0); the other windows' index maps are the same text. -/
theorem index8 (t : Fin cfg0.N) :
    win0_8.index t 0 = t.val ∧ win0_8.index t 1 = 0 ∧ win0_8.index t 2 = 0 ∧ win0_8.index t 3 = 0 := by
  refine ⟨?_, rfl, rfl, rfl⟩
  show (BitVec.ofNat 32 ((grid0.coords t) 0).val).toNat = t.val
  rw [coord_val, BitVec.toNat_ofNat]
  exact Nat.mod_eq_of_lt (by have := point_lt t; omega)

/-- Feature window 0's block at point t is rows 128·t … 128·t + 127 of its array. -/
theorem read0 (c : Dev nD) (t : Fin cfg0.N) (b : Fin 128) (l : Fin 4) (p : Fin 3) (j : Fin 2) (b' : Fin 2097152)
    (hb : b'.val = 128 * t.val + b.val) :
    (iblk m c 0 t : Vec Ideal S128x4x3x2 .f32) (ix4 b l p j) = (V m c main_v78 : S2097152x4x3x2.Idx → EReal) (ix4 b' l p j) := by
  show V m c main_v78 (((cfg0.win 0).blk t).view.emb (ix4 b l p j)) = V m c main_v78 (ix4 b' l p j)
  refine congrArg (V m c main_v78) ?_
  funext a; apply Fin.ext
  match a with
  | ⟨0, _⟩ => show win0_0.index t 0 * 128 + 1 * b.val = b'.val; rw [show win0_0.index t 0 = t.val from (index8 t).1, hb]; omega
  | ⟨1, _⟩ => show win0_0.index t 1 * 4 + 1 * l.val = l.val; rw [show win0_0.index t 1 = 0 from rfl]; omega
  | ⟨2, _⟩ => show win0_0.index t 2 * 3 + 1 * p.val = p.val; rw [show win0_0.index t 2 = 0 from rfl]; omega
  | ⟨3, _⟩ => show win0_0.index t 3 * 2 + 1 * j.val = j.val; rw [show win0_0.index t 3 = 0 from rfl]; omega

/-- Feature window 1's block at point t is rows 128·t … 128·t + 127 of its array. -/
theorem read1 (c : Dev nD) (t : Fin cfg0.N) (b : Fin 128) (l : Fin 4) (p : Fin 3) (j : Fin 2) (b' : Fin 2097152)
    (hb : b'.val = 128 * t.val + b.val) :
    (iblk m c 1 t : Vec Ideal S128x4x3x2 .f32) (ix4 b l p j) = (V m c main_v103 : S2097152x4x3x2.Idx → EReal) (ix4 b' l p j) := by
  show V m c main_v103 (((cfg0.win 1).blk t).view.emb (ix4 b l p j)) = V m c main_v103 (ix4 b' l p j)
  refine congrArg (V m c main_v103) ?_
  funext a; apply Fin.ext
  match a with
  | ⟨0, _⟩ => show win0_1.index t 0 * 128 + 1 * b.val = b'.val; rw [show win0_1.index t 0 = t.val from (index8 t).1, hb]; omega
  | ⟨1, _⟩ => show win0_1.index t 1 * 4 + 1 * l.val = l.val; rw [show win0_1.index t 1 = 0 from rfl]; omega
  | ⟨2, _⟩ => show win0_1.index t 2 * 3 + 1 * p.val = p.val; rw [show win0_1.index t 2 = 0 from rfl]; omega
  | ⟨3, _⟩ => show win0_1.index t 3 * 2 + 1 * j.val = j.val; rw [show win0_1.index t 3 = 0 from rfl]; omega

/-- Feature window 2's block at point t is rows 128·t … 128·t + 127 of its array. -/
theorem read2 (c : Dev nD) (t : Fin cfg0.N) (b : Fin 128) (l : Fin 4) (p : Fin 3) (j : Fin 2) (b' : Fin 2097152)
    (hb : b'.val = 128 * t.val + b.val) :
    (iblk m c 2 t : Vec Ideal S128x4x3x2 .f32) (ix4 b l p j) = (V m c main_v136 : S2097152x4x3x2.Idx → EReal) (ix4 b' l p j) := by
  show V m c main_v136 (((cfg0.win 2).blk t).view.emb (ix4 b l p j)) = V m c main_v136 (ix4 b' l p j)
  refine congrArg (V m c main_v136) ?_
  funext a; apply Fin.ext
  match a with
  | ⟨0, _⟩ => show win0_2.index t 0 * 128 + 1 * b.val = b'.val; rw [show win0_2.index t 0 = t.val from (index8 t).1, hb]; omega
  | ⟨1, _⟩ => show win0_2.index t 1 * 4 + 1 * l.val = l.val; rw [show win0_2.index t 1 = 0 from rfl]; omega
  | ⟨2, _⟩ => show win0_2.index t 2 * 3 + 1 * p.val = p.val; rw [show win0_2.index t 2 = 0 from rfl]; omega
  | ⟨3, _⟩ => show win0_2.index t 3 * 2 + 1 * j.val = j.val; rw [show win0_2.index t 3 = 0 from rfl]; omega

/-- Feature window 3's block at point t is rows 128·t … 128·t + 127 of its array. -/
theorem read3 (c : Dev nD) (t : Fin cfg0.N) (b : Fin 128) (l : Fin 4) (p : Fin 3) (j : Fin 2) (b' : Fin 2097152)
    (hb : b'.val = 128 * t.val + b.val) :
    (iblk m c 3 t : Vec Ideal S128x4x3x2 .f32) (ix4 b l p j) = (V m c main_v161 : S2097152x4x3x2.Idx → EReal) (ix4 b' l p j) := by
  show V m c main_v161 (((cfg0.win 3).blk t).view.emb (ix4 b l p j)) = V m c main_v161 (ix4 b' l p j)
  refine congrArg (V m c main_v161) ?_
  funext a; apply Fin.ext
  match a with
  | ⟨0, _⟩ => show win0_3.index t 0 * 128 + 1 * b.val = b'.val; rw [show win0_3.index t 0 = t.val from (index8 t).1, hb]; omega
  | ⟨1, _⟩ => show win0_3.index t 1 * 4 + 1 * l.val = l.val; rw [show win0_3.index t 1 = 0 from rfl]; omega
  | ⟨2, _⟩ => show win0_3.index t 2 * 3 + 1 * p.val = p.val; rw [show win0_3.index t 2 = 0 from rfl]; omega
  | ⟨3, _⟩ => show win0_3.index t 3 * 2 + 1 * j.val = j.val; rw [show win0_3.index t 3 = 0 from rfl]; omega

/-- Weight window 4's block at point t is rows 128·t … 128·t + 127 of its array. -/
theorem read4 (c : Dev nD) (t : Fin cfg0.N) (b : Fin 128) (l : Fin 4) (p : Fin 3) (b' : Fin 2097152)
    (hb : b'.val = 128 * t.val + b.val) :
    (iblk m c 4 t : Vec Ideal S128x4x3 .f32) (ix3 b l p) = (V m c main_v79 : S2097152x4x3.Idx → EReal) (ix3 b' l p) := by
  show V m c main_v79 (((cfg0.win 4).blk t).view.emb (ix3 b l p)) = V m c main_v79 (ix3 b' l p)
  refine congrArg (V m c main_v79) ?_
  funext a; apply Fin.ext
  match a with
  | ⟨0, _⟩ => show win0_4.index t 0 * 128 + 1 * b.val = b'.val; rw [show win0_4.index t 0 = t.val from (index8 t).1, hb]; omega
  | ⟨1, _⟩ => show win0_4.index t 1 * 4 + 1 * l.val = l.val; rw [show win0_4.index t 1 = 0 from rfl]; omega
  | ⟨2, _⟩ => show win0_4.index t 2 * 3 + 1 * p.val = p.val; rw [show win0_4.index t 2 = 0 from rfl]; omega

/-- Weight window 5's block at point t is rows 128·t … 128·t + 127 of its array. -/
theorem read5 (c : Dev nD) (t : Fin cfg0.N) (b : Fin 128) (l : Fin 4) (p : Fin 3) (b' : Fin 2097152)
    (hb : b'.val = 128 * t.val + b.val) :
    (iblk m c 5 t : Vec Ideal S128x4x3 .f32) (ix3 b l p) = (V m c main_v104 : S2097152x4x3.Idx → EReal) (ix3 b' l p) := by
  show V m c main_v104 (((cfg0.win 5).blk t).view.emb (ix3 b l p)) = V m c main_v104 (ix3 b' l p)
  refine congrArg (V m c main_v104) ?_
  funext a; apply Fin.ext
  match a with
  | ⟨0, _⟩ => show win0_5.index t 0 * 128 + 1 * b.val = b'.val; rw [show win0_5.index t 0 = t.val from (index8 t).1, hb]; omega
  | ⟨1, _⟩ => show win0_5.index t 1 * 4 + 1 * l.val = l.val; rw [show win0_5.index t 1 = 0 from rfl]; omega
  | ⟨2, _⟩ => show win0_5.index t 2 * 3 + 1 * p.val = p.val; rw [show win0_5.index t 2 = 0 from rfl]; omega

/-- Weight window 6's block at point t is rows 128·t … 128·t + 127 of its array. -/
theorem read6 (c : Dev nD) (t : Fin cfg0.N) (b : Fin 128) (l : Fin 4) (p : Fin 3) (b' : Fin 2097152)
    (hb : b'.val = 128 * t.val + b.val) :
    (iblk m c 6 t : Vec Ideal S128x4x3 .f32) (ix3 b l p) = (V m c main_v137 : S2097152x4x3.Idx → EReal) (ix3 b' l p) := by
  show V m c main_v137 (((cfg0.win 6).blk t).view.emb (ix3 b l p)) = V m c main_v137 (ix3 b' l p)
  refine congrArg (V m c main_v137) ?_
  funext a; apply Fin.ext
  match a with
  | ⟨0, _⟩ => show win0_6.index t 0 * 128 + 1 * b.val = b'.val; rw [show win0_6.index t 0 = t.val from (index8 t).1, hb]; omega
  | ⟨1, _⟩ => show win0_6.index t 1 * 4 + 1 * l.val = l.val; rw [show win0_6.index t 1 = 0 from rfl]; omega
  | ⟨2, _⟩ => show win0_6.index t 2 * 3 + 1 * p.val = p.val; rw [show win0_6.index t 2 = 0 from rfl]; omega

/-- Weight window 7's block at point t is rows 128·t … 128·t + 127 of its array. -/
theorem read7 (c : Dev nD) (t : Fin cfg0.N) (b : Fin 128) (l : Fin 4) (p : Fin 3) (b' : Fin 2097152)
    (hb : b'.val = 128 * t.val + b.val) :
    (iblk m c 7 t : Vec Ideal S128x4x3 .f32) (ix3 b l p) = (V m c main_v162 : S2097152x4x3.Idx → EReal) (ix3 b' l p) := by
  show V m c main_v162 (((cfg0.win 7).blk t).view.emb (ix3 b l p)) = V m c main_v162 (ix3 b' l p)
  refine congrArg (V m c main_v162) ?_
  funext a; apply Fin.ext
  match a with
  | ⟨0, _⟩ => show win0_7.index t 0 * 128 + 1 * b.val = b'.val; rw [show win0_7.index t 0 = t.val from (index8 t).1, hb]; omega
  | ⟨1, _⟩ => show win0_7.index t 1 * 4 + 1 * l.val = l.val; rw [show win0_7.index t 1 = 0 from rfl]; omega
  | ⟨2, _⟩ => show win0_7.index t 2 * 3 + 1 * p.val = p.val; rw [show win0_7.index t 2 = 0 from rfl]; omega

/-- The encoding of the eight arrays as the region finds them: [2097152, 4, 4, 2]. -/
def encoded (c : Dev nD) : S2097152x4x4x2.Idx → EReal :=
  enc (V m c main_v78) (V m c main_v103) (V m c main_v136) (V m c main_v161)
    (V m c main_v79) (V m c main_v104) (V m c main_v137) (V m c main_v162)

/-- What point t writes back is block t of the encoding. -/
theorem flushed_eq (c : Dev nD) (t : Fin cfg0.N) :
    (dats m 0 c).flushed 8 t = ((cfg0.win 8).blk t).view.read (Elt Ideal) (encoded m c) := by
  show (cfg0.win 8).cut (grid0.coords t) ((dats m 0 c).after 8 t) = _
  rw [after0_8]
  unfold out0_8
  rw [View.canon_unit_zero hz4]
  simp only [View.ld_unit_zero (S := S128x4x3x2) hz4, View.ld_unit_zero (S := S128x4x3) hz3]
  funext y
  obtain ⟨b, l, s, j, rfl⟩ : ∃ (b : Fin 128) (l : Fin 4) (s : Fin 4) (j : Fin 2), y = ix4 b l s j :=
    ⟨y 0, y 1, y 2, y 3, eq_ix4 y⟩
  have hbt : 128 * t.val + b.val < 2097152 := by have := point_lt t; omega
  have hemb : ((cfg0.win 8).blk t).view.emb (ix4 b l s j) = (ix4 (⟨128 * t.val + b.val, hbt⟩ : Fin 2097152) l s j : S2097152x4x4x2.Idx) := by
    funext a; apply Fin.ext
    match a with
    | ⟨0, _⟩ => show win0_8.index t 0 * 128 + 1 * b.val = 128 * t.val + b.val; rw [(index8 t).1]; omega
    | ⟨1, _⟩ => show win0_8.index t 1 * 4 + 1 * l.val = l.val; rw [(index8 t).2.1]; omega
    | ⟨2, _⟩ => show win0_8.index t 2 * 4 + 1 * s.val = s.val; rw [(index8 t).2.2.1]; omega
    | ⟨3, _⟩ => show win0_8.index t 3 * 2 + 1 * j.val = j.val; rw [(index8 t).2.2.2]; omega
  show k0_pay1 (F := Ideal) (k0_pay2 (F := Ideal) (iblk m c 0 t) (iblk m c 1 t) (iblk m c 2 t) (iblk m c 3 t)
      (iblk m c 4 t) (iblk m c 5 t) (iblk m c 6 t) (iblk m c 7 t)) (ix4 b l s j)
    = encoded m c (((cfg0.win 8).blk t).view.emb (ix4 b l s j))
  rw [hemb]
  refine (Payload.stored_apply (iblk m c 0 t) (iblk m c 1 t) (iblk m c 2 t) (iblk m c 3 t)
      (iblk m c 4 t) (iblk m c 5 t) (iblk m c 6 t) (iblk m c 7 t) b l s j).trans ?_
  unfold encoded
  rw [enc_ix4]
  exact encAt_congr _ _ _ _ _ _ _ _ _ _ _ _ _ _ _ _ b ⟨128 * t.val + b.val, hbt⟩ l
    (fun p j => read0 m c t b l p j _ rfl) (fun p j => read1 m c t b l p j _ rfl)
    (fun p j => read2 m c t b l p j _ rfl) (fun p j => read3 m c t b l p j _ rfl)
    (fun p => read4 m c t b l p _ rfl) (fun p => read5 m c t b l p _ rfl)
    (fun p => read6 m c t b l p _ rfl) (fun p => read7 m c t b l p _ rfl) s j

/-- An index of the result array is in point t's block iff each coordinate is in the block's range on its axis. -/
theorem mem_blk (t : Fin cfg0.N) (i : S2097152x4x4x2.Idx) :
    i ∈ ((cfg0.win 8).blk t).view.set ↔ ∀ a : Fin 4, win0_8.index t a * S128x4x4x2.size a ≤ (i a).val
      ∧ (i a).val < win0_8.index t a * S128x4x4x2.size a + S128x4x4x2.size a := by
  show i ∈ ((View.whole main_v163).slice (win0_8.rect t)).set ↔ _
  rw [View.set_slice_whole, Rect.mem_set_unit]
  exact Iff.rfl

/-- Row r lies in the block of point r / 128: the blocks cover the result array. -/
theorem cover (i : S2097152x4x4x2.Idx) : ∃ t : Fin cfg0.N, (cfg0.win 8).flush t = true ∧ i ∈ ((cfg0.win 8).blk t).view.set := by
  have h0 : (i 0).val < 2097152 := (i 0).isLt
  have h1 : (i 1).val < 4 := (i 1).isLt
  have h2 : (i 2).val < 4 := (i 2).isLt
  have h3 : (i 3).val < 2 := (i 3).isLt
  have hN : cfg0.N = 16384 := N_0
  let t : Fin cfg0.N := ⟨(i 0).val / 128, by rw [hN]; omega⟩
  refine ⟨t, flush0_8 t, ?_⟩
  rw [mem_blk]
  obtain ⟨e0, e1, e2, e3⟩ := index8 t
  have ht : t.val = (i 0).val / 128 := rfl
  intro a
  match a with
  | ⟨0, _⟩ => show win0_8.index t 0 * 128 ≤ (i 0).val ∧ (i 0).val < win0_8.index t 0 * 128 + 128; rw [e0, ht]; omega
  | ⟨1, _⟩ => show win0_8.index t 1 * 4 ≤ (i 1).val ∧ (i 1).val < win0_8.index t 1 * 4 + 4; rw [e1]; omega
  | ⟨2, _⟩ => show win0_8.index t 2 * 4 ≤ (i 2).val ∧ (i 2).val < win0_8.index t 2 * 4 + 4; rw [e2]; omega
  | ⟨3, _⟩ => show win0_8.index t 3 * 2 ≤ (i 3).val ∧ (i 3).val < win0_8.index t 3 * 2 + 2; rw [e3]; omega

/-- The result array after the region is the encoding of the eight arrays the region found. -/
theorem final (c : Dev nD) : (dats m 0 c).arrAt 8 cfg0.N = encoded m c :=
  (dats m 0 c).arrAt_eq_of_cover 8 (encoded m c) (fun t _ => flushed_eq m c t) (cover)

end Cert.KernelIdeal.Blocks

end
-- ==== Proof.LibConcatPair.lean ====
/-
  A concatenate of two parts as a function of the two parts.

  The concatenate operation takes its parts as a list of arrays, each paired with its shape, and a side condition
  stated over that list's shapes. A statement about one part therefore cannot be rewritten in place: the side
  condition's type mentions the list. Read as a function of the two parts, with the side condition stated over the two
  shapes alone, the parts are ordinary arguments: a term that evaluates the buffers a program's operations write, one
  rewriting pass at a time, goes on through a concatenate's operands instead of stopping at it.
-/
import Idealize.ShloMosaic.PureOps

namespace Cert.LibConcatPair

open Idealize.ShloMosaic

/-- The concatenate of two parts along axis `a` of the result shape `t`, as a function of the parts. -/
def concat2 {α : Type} (t : Shape) (a : Fin t.rank) (s₁ s₂ : Shape) (h : Shape.Concatenates [s₁, s₂] t a)
    (x₁ : s₁.Idx → α) (x₂ : s₂.Idx → α) : t.Idx → α := concatenate t a [⟨s₁, x₁⟩, ⟨s₂, x₂⟩] h

/-- A concatenate of a literal list of two parts is that function of them. -/
theorem concatenate_pair {α : Type} (t : Shape) (a : Fin t.rank) (s₁ s₂ : Shape) (x₁ : s₁.Idx → α) (x₂ : s₂.Idx → α)
    (h : Shape.Concatenates [s₁, s₂] t a) : concatenate t a [⟨s₁, x₁⟩, ⟨s₂, x₂⟩] h = concat2 t a s₁ s₂ h x₁ x₂ := rfl

end Cert.LibConcatPair
-- ==== Proof.Prelude.lean ====
/-
  The tri-plane encoding, stage by stage, as functions of the two argument arrays: the positions x : [B, 3] and the
  table e : [3 · 1024² · 2]. Both programs compute these stages with the same host operations and the same literals;
  they are named here once, over the reference's vocabulary of shapes, so that the comparison of the two programs never
  opens them.

  At each of four levels (scales 128, 256, 512, 1024) a position is scaled to x · (scale − 1) + ½; its floor is the cell and
  the remainder the fraction. Each of the three planes (xy, yz, zx) takes two of the coordinates: the coordinates are
  permuted by (0, 1, 2) and by (1, 2, 0). A corner (dx, dy) of the cell is the table row
  min((cell₀ + dx) · factor, 1023) + 1024 · min((cell₁ + dy) · factor, 1023) of its plane (factors 8, 4, 2, 1), and its
  weight the product of the fraction or one minus the fraction along each coordinate.
-/
import proofs.«139929_j36910948941984_2_alg».proof.Proof.Gen.ReferenceIdeal
import proofs.«139929_j36910948941984_2_alg».proof.Proof.LibConcatPair

noncomputable section

namespace Cert.TriPlane

open Cert.ReferenceIdeal Idealize.ShloMosaic
open Cert.ReferenceIdeal.Facts₀ Cert.ReferenceIdeal.Facts
open Cert.LibConcatPair

variable {F : FTy → Type} [FloatOps F]

/-! ## Cells and fractions -/

/-- The scaled position x · (scale − 1) + ½ at every level: [B, 4, 3]. -/
def scaled (x : FVec F S2097152x3 .f32) : FVec F S2097152x4x3 .f32 :=
  addf
    (mulf
      (broadcastInDim S2097152x4x3 ![0, 1, 2] bcast_S2097152x1x3_S2097152x4x3_0_1_2
        (broadcastInDim S2097152x1x3 ![0, 2] bcast_S2097152x3_S2097152x1x3_0_2 x))
      (broadcastInDim S2097152x4x3 ![0, 1, 2] bcast_S1x4x1_S2097152x4x3_0_1_2
        (subf (broadcastInDim S1x4x1 ![1] bcast_S4_S1x4x1_1 (fun i => FloatOps.ofBits .f32 (lit0 (S4.rowMajor i))))
          (broadcastInDim S1x4x1 ![] bcast_S_S1x4x1 (constant S_ .f32 0x3F800000#32)))))
    (broadcastInDim S2097152x4x3 ![] bcast_S_S2097152x4x3 (constant S_ .f32 0x3F000000#32))

/-- The cell: the floor of the scaled position, as a 32-bit integer. -/
def cell (x : FVec F S2097152x3 .f32) : IVec S2097152x4x3 32 := fptosi 32 (Host.floor (scaled x))

/-- The fraction: the scaled position less its cell. -/
def frac (x : FVec F S2097152x3 .f32) : FVec F S2097152x4x3 .f32 := subf (scaled x) (sitofp .f32 (cell x))

/-- A coordinate permutation as gather starts: the three numbers, each moved into 0 … 2 the way an index is, as a column. -/
def perm (p : IVec S3 32) : IVec S3x1 32 :=
  broadcastInDim S3x1 ![0] bcast_S3_S3x1_0
    (select (cmpi .slt p (broadcastInDim S3 ![] bcast_S_S3 (constantI S_ 32 0#32)))
      (addi p (broadcastInDim S3 ![] bcast_S_S3 (constantI S_ 32 3#32))) p)

/-- The coordinates (0, 1, 2): each plane's first. -/
def firstOf : IVec S3x1 32 := perm (fun i => lit2 (S3.rowMajor i))
/-- The coordinates (1, 2, 0): each plane's second. -/
def secondOf : IVec S3x1 32 := perm (fun i => lit3 (S3.rowMajor i))

def fracA (x : FVec F S2097152x3 .f32) : FVec F S2097152x4x3 .f32 :=
  Host.gather gather_S2097152x4x3_S3x1_S2097152x4x3_01_2_n_n_2_1_209715241 (frac x) firstOf
def fracB (x : FVec F S2097152x3 .f32) : FVec F S2097152x4x3 .f32 :=
  Host.gather gather_S2097152x4x3_S3x1_S2097152x4x3_01_2_n_n_2_1_209715241 (frac x) secondOf
def cellA (x : FVec F S2097152x3 .f32) : IVec S2097152x4x3 32 :=
  Host.gather gather_S2097152x4x3_S3x1_S2097152x4x3_01_2_n_n_2_1_209715241 (cell x) firstOf
def cellB (x : FVec F S2097152x3 .f32) : IVec S2097152x4x3 32 :=
  Host.gather gather_S2097152x4x3_S3x1_S2097152x4x3_01_2_n_n_2_1_209715241 (cell x) secondOf

/-! ## Table rows -/

/-- The table as three planes of 1024² rows of two features. -/
def table (e : FVec F S6291456 .f32) : FVec F S3x1048576x2 .f32 :=
  shapeCast S3x1048576x2 e shapeCasts_S6291456_S3x1048576x2

/-- The plane numbers 0, 1, 2 along the last axis. -/
def planes : IVec S1x1x3 32 := broadcastInDim S1x1x3 ![2] bcast_S3_S1x1x3_2 (iotaInDim S3 32 0)
/-- The factors 8, 4, 2, 1 along the level axis. -/
def factors : IVec S1x4x1 32 := broadcastInDim S1x4x1 ![1] bcast_S4_S1x4x1_1 (fun i => lit1 (S4.rowMajor i))

/-- One 32-bit number at every (point, level, plane). -/
def splatI (w : BitVec 32) : IVec S2097152x4x3 32 := broadcastInDim S2097152x4x3 ![] bcast_S_S2097152x4x3 (constantI S_ 32 w)
/-- The number one at every (point, level, plane). -/
def ones : FVec F S2097152x4x3 .f32 := broadcastInDim S2097152x4x3 ![] bcast_S_S2097152x4x3 (constant S_ .f32 0x3F800000#32)

/-- min((g + d) · factor, 1023): a cell coordinate moved by d, on the finest grid, kept inside it. -/
def clamp (g : IVec S2097152x4x3 32) (d : BitVec 32) : IVec S2097152x4x3 32 :=
  minsi (muli (addi g (splatI d)) (broadcastInDim S2097152x4x3 ![0, 1, 2] bcast_S1x4x1_S2097152x4x3_0_1_2 factors)) (splatI 1023#32)

/-- The row i₀ + 1024 · i₁ of a plane. -/
def flat (i0 i1 : IVec S2097152x4x3 32) : IVec S2097152x4x3 32 := addi i0 (muli i1 (splatI 1024#32))

/-- A row number moved into 0 … 1024² − 1 the way an index is: a negative one has 1024² added. -/
def wrap (r : IVec S2097152x4x3 32) : IVec S2097152x4x3 32 :=
  select (cmpi .slt r (splatI 0#32)) (addi r (splatI 1048576#32)) r

/-- The plane numbers moved into 0 … 2 the same way. -/
def planeSel : IVec S1x1x3 32 :=
  select (cmpi .slt planes (broadcastInDim S1x1x3 ![] bcast_S_S1x1x3 (constantI S_ 32 0#32)))
    (addi planes (broadcastInDim S1x1x3 ![] bcast_S_S1x1x3 (constantI S_ 32 3#32))) planes

/-- The gather starts (plane, row) at every (point, level, plane). -/
def starts (r : IVec S2097152x4x3 32) : IVec S2097152x4x3x2 32 :=
  concat2 S2097152x4x3x2 3 S2097152x4x3x1 S2097152x4x3x1 concatenates_S2097152x4x3x1_S2097152x4x3x1_S2097152x4x3x2_d3
    (broadcastInDim S2097152x4x3x1 ![0, 1, 2] bcast_S2097152x4x3_S2097152x4x3x1_0_1_2
      (broadcastInDim S2097152x4x3 ![0, 1, 2] bcast_S1x1x3_S2097152x4x3_0_1_2 planeSel))
    (broadcastInDim S2097152x4x3x1 ![0, 1, 2] bcast_S2097152x4x3_S2097152x4x3x1_0_1_2 (wrap r))

/-- The two features of row r of each plane: [B, 4, 3, 2]. -/
def rows (e : FVec F S6291456 .f32) (r : IVec S2097152x4x3 32) : FVec F S2097152x4x3x2 .f32 :=
  Host.gather gather_S3x1048576x2_S2097152x4x3x2_S2097152x4x3x2_3_01_n_n_01_3_112 (table e) (starts r)

/-! ## The four corners: their features and their weights -/

def feat00 (x : FVec F S2097152x3 .f32) (e : FVec F S6291456 .f32) : FVec F S2097152x4x3x2 .f32 :=
  rows e (flat (clamp (cellA x) 0#32) (clamp (cellB x) 0#32))
def feat01 (x : FVec F S2097152x3 .f32) (e : FVec F S6291456 .f32) : FVec F S2097152x4x3x2 .f32 :=
  rows e (flat (clamp (cellA x) 0#32) (clamp (cellB x) 1#32))
def feat10 (x : FVec F S2097152x3 .f32) (e : FVec F S6291456 .f32) : FVec F S2097152x4x3x2 .f32 :=
  rows e (flat (clamp (cellA x) 1#32) (clamp (cellB x) 0#32))
def feat11 (x : FVec F S2097152x3 .f32) (e : FVec F S6291456 .f32) : FVec F S2097152x4x3x2 .f32 :=
  rows e (flat (clamp (cellA x) 1#32) (clamp (cellB x) 1#32))

def w00 (x : FVec F S2097152x3 .f32) : FVec F S2097152x4x3 .f32 := mulf (subf ones (fracA x)) (subf ones (fracB x))
def w01 (x : FVec F S2097152x3 .f32) : FVec F S2097152x4x3 .f32 := mulf (subf ones (fracA x)) (fracB x)
def w10 (x : FVec F S2097152x3 .f32) : FVec F S2097152x4x3 .f32 := mulf (fracA x) (subf ones (fracB x))
def w11 (x : FVec F S2097152x3 .f32) : FVec F S2097152x4x3 .f32 := mulf (fracA x) (fracB x)

/-! ## The reference's blend and assembly, over any four feature arrays and four weight arrays -/

/-- A weight repeated over the two features. -/
def overFeatures (w : FVec F S2097152x4x3 .f32) : FVec F S2097152x4x3x2 .f32 :=
  broadcastInDim S2097152x4x3x2 ![0, 1, 2, 3] bcast_S2097152x4x3x1_S2097152x4x3x2_0_1_2_3
    (broadcastInDim S2097152x4x3x1 ![0, 1, 2] bcast_S2097152x4x3_S2097152x4x3x1_0_1_2 w)

/-- The reference's blend: from zero, each corner's weight times its features added in turn. -/
def blendR (f0 f1 f2 f3 : FVec F S2097152x4x3x2 .f32) (w0 w1 w2 w3 : FVec F S2097152x4x3 .f32) : FVec F S2097152x4x3x2 .f32 :=
  addf (addf (addf (addf (broadcastInDim S2097152x4x3x2 ![] bcast_S_S2097152x4x3x2 (constant S_ .f32 0x00000000#32))
    (mulf (overFeatures w0) f0)) (mulf (overFeatures w1) f1)) (mulf (overFeatures w2) f2)) (mulf (overFeatures w3) f3)

/-- Plane k of a blend: [B, 4, 2]. -/
def plane0 (a : FVec F S2097152x4x3x2 .f32) : FVec F S2097152x4x2 .f32 :=
  shapeCast S2097152x4x2 (extractStridedSlice S2097152x4x1x2 ![0, 0, 0, 0] a slices_S2097152x4x3x2_S2097152x4x1x2_0_0_0_0) shapeCasts_S2097152x4x1x2_S2097152x4x2
def plane1 (a : FVec F S2097152x4x3x2 .f32) : FVec F S2097152x4x2 .f32 :=
  shapeCast S2097152x4x2 (extractStridedSlice S2097152x4x1x2 ![0, 0, 1, 0] a slices_S2097152x4x3x2_S2097152x4x1x2_0_0_1_0) shapeCasts_S2097152x4x1x2_S2097152x4x2
def plane2 (a : FVec F S2097152x4x3x2 .f32) : FVec F S2097152x4x2 .f32 :=
  shapeCast S2097152x4x2 (extractStridedSlice S2097152x4x1x2 ![0, 0, 2, 0] a slices_S2097152x4x3x2_S2097152x4x1x2_0_0_2_0) shapeCasts_S2097152x4x1x2_S2097152x4x2

/-- The reference's assembly: the three planes and, behind them, their product. -/
def assembleR (a : FVec F S2097152x4x3x2 .f32) : FVec F S2097152x4x4x2 .f32 :=
  concat2 S2097152x4x4x2 2 S2097152x4x3x2 S2097152x4x1x2 concatenates_S2097152x4x3x2_S2097152x4x1x2_S2097152x4x4x2_d2 a
    (broadcastInDim S2097152x4x1x2 ![0, 1, 3] bcast_S2097152x4x2_S2097152x4x1x2_0_1_3
      (mulf (mulf (plane0 a) (plane1 a)) (plane2 a)))

/-- The 32 numbers of each point side by side: the result's layout. -/
def sideBySide (a : FVec F S2097152x4x4x2 .f32) : FVec F S2097152x32 .f32 :=
  shapeCast S2097152x32 a shapeCasts_S2097152x4x4x2_S2097152x32

end Cert.TriPlane

end
-- ==== Proof.KCorner00.lean ====
/-
  What the region finds in two of its operand arrays: the features and the weights of the corner with both coordinates at the cell.
  The host operations before the region, evaluated at each of the two buffers one operation at a time, leave the composed
  term of the operations' functions over the two argument arrays, which is the prelude's named stage unfolded.
-/
import proofs.«139929_j36910948941984_2_alg».proof.Proof.Gen.KernelIdeal.Frame
import proofs.«139929_j36910948941984_2_alg».proof.Proof.Prelude

noncomputable section

namespace Cert.KernelIdeal.Operands

open Cert.KernelIdeal Cert.KernelIdeal.Gen Idealize.ShloMosaic Idealize.ShloMosaic.TcCoe Idealize.SL.Sem
open Idealize.ShloMosaic.StableHlo Cert.LibConcatPair

variable {F : FTy → Type} [FloatOps F]
variable (m : (ℓ : Loc nD τ sig) → Buf (Elt F) ℓ)

set_option maxRecDepth 65536 in
set_option maxHeartbeats 100000000 in
/-- The corner's gathered features, as the region finds them. -/
theorem entry_f00 (c : Dev nD) :
    V m c main_v78 = Cert.TriPlane.feat00 (m ((c : Thread nD τ).loc main_arg0)) (m ((c : Thread nD τ).loc main_arg1)) := by
  show StableHlo.after hostOps0 (fun b => m (c, b)) (Proc.devRef .tc main_v78) = _
  simp (disch := decide) only [hostOps0, after_cons, after_nil,
    nullary_result', unary_result', binary_result', ternary_result', reshape_result',
    nullary_result_ne', unary_result_ne', binary_result_ne', ternary_result_ne', reshape_result_ne',
    concatenate_pair]
  rfl

set_option maxRecDepth 65536 in
set_option maxHeartbeats 100000000 in
/-- The corner's weights, as the region finds them. -/
theorem entry_w00 (c : Dev nD) :
    V m c main_v79 = Cert.TriPlane.w00 (m ((c : Thread nD τ).loc main_arg0)) := by
  show StableHlo.after hostOps0 (fun b => m (c, b)) (Proc.devRef .tc main_v79) = _
  simp (disch := decide) only [hostOps0, after_cons, after_nil,
    nullary_result', unary_result', binary_result', ternary_result', reshape_result',
    nullary_result_ne', unary_result_ne', binary_result_ne', ternary_result_ne', reshape_result_ne',
    concatenate_pair]
  rfl

end Cert.KernelIdeal.Operands

end
-- ==== Proof.KCorner01.lean ====
/-
  What the region finds in two of its operand arrays: the features and the weights of the corner with the first coordinate at the cell, the second one step on.
  The host operations before the region, evaluated at each of the two buffers one operation at a time, leave the composed
  term of the operations' functions over the two argument arrays, which is the prelude's named stage unfolded.
-/
import proofs.«139929_j36910948941984_2_alg».proof.Proof.Gen.KernelIdeal.Frame
import proofs.«139929_j36910948941984_2_alg».proof.Proof.Prelude

noncomputable section

namespace Cert.KernelIdeal.Operands

open Cert.KernelIdeal Cert.KernelIdeal.Gen Idealize.ShloMosaic Idealize.ShloMosaic.TcCoe Idealize.SL.Sem
open Idealize.ShloMosaic.StableHlo Cert.LibConcatPair

variable {F : FTy → Type} [FloatOps F]
variable (m : (ℓ : Loc nD τ sig) → Buf (Elt F) ℓ)

set_option maxRecDepth 65536 in
set_option maxHeartbeats 100000000 in
/-- The corner's gathered features, as the region finds them. -/
theorem entry_f01 (c : Dev nD) :
    V m c main_v103 = Cert.TriPlane.feat01 (m ((c : Thread nD τ).loc main_arg0)) (m ((c : Thread nD τ).loc main_arg1)) := by
  show StableHlo.after hostOps0 (fun b => m (c, b)) (Proc.devRef .tc main_v103) = _
  simp (disch := decide) only [hostOps0, after_cons, after_nil,
    nullary_result', unary_result', binary_result', ternary_result', reshape_result',
    nullary_result_ne', unary_result_ne', binary_result_ne', ternary_result_ne', reshape_result_ne',
    concatenate_pair]
  rfl

set_option maxRecDepth 65536 in
set_option maxHeartbeats 100000000 in
/-- The corner's weights, as the region finds them. -/
theorem entry_w01 (c : Dev nD) :
    V m c main_v104 = Cert.TriPlane.w01 (m ((c : Thread nD τ).loc main_arg0)) := by
  show StableHlo.after hostOps0 (fun b => m (c, b)) (Proc.devRef .tc main_v104) = _
  simp (disch := decide) only [hostOps0, after_cons, after_nil,
    nullary_result', unary_result', binary_result', ternary_result', reshape_result',
    nullary_result_ne', unary_result_ne', binary_result_ne', ternary_result_ne', reshape_result_ne',
    concatenate_pair]
  rfl

end Cert.KernelIdeal.Operands

end
-- ==== Proof.KCorner10.lean ====
/-
  What the region finds in two of its operand arrays: the features and the weights of the corner with the first coordinate one step on, the second at the cell.
  The host operations before the region, evaluated at each of the two buffers one operation at a time, leave the composed
  term of the operations' functions over the two argument arrays, which is the prelude's named stage unfolded.
-/
import proofs.«139929_j36910948941984_2_alg».proof.Proof.Gen.KernelIdeal.Frame
import proofs.«139929_j36910948941984_2_alg».proof.Proof.Prelude

noncomputable section

namespace Cert.KernelIdeal.Operands

open Cert.KernelIdeal Cert.KernelIdeal.Gen Idealize.ShloMosaic Idealize.ShloMosaic.TcCoe Idealize.SL.Sem
open Idealize.ShloMosaic.StableHlo Cert.LibConcatPair

variable {F : FTy → Type} [FloatOps F]
variable (m : (ℓ : Loc nD τ sig) → Buf (Elt F) ℓ)

set_option maxRecDepth 65536 in
set_option maxHeartbeats 100000000 in
/-- The corner's gathered features, as the region finds them. -/
theorem entry_f10 (c : Dev nD) :
    V m c main_v136 = Cert.TriPlane.feat10 (m ((c : Thread nD τ).loc main_arg0)) (m ((c : Thread nD τ).loc main_arg1)) := by
  show StableHlo.after hostOps0 (fun b => m (c, b)) (Proc.devRef .tc main_v136) = _
  simp (disch := decide) only [hostOps0, after_cons, after_nil,
    nullary_result', unary_result', binary_result', ternary_result', reshape_result',
    nullary_result_ne', unary_result_ne', binary_result_ne', ternary_result_ne', reshape_result_ne',
    concatenate_pair]
  rfl

set_option maxRecDepth 65536 in
set_option maxHeartbeats 100000000 in
/-- The corner's weights, as the region finds them. -/
theorem entry_w10 (c : Dev nD) :
    V m c main_v137 = Cert.TriPlane.w10 (m ((c : Thread nD τ).loc main_arg0)) := by
  show StableHlo.after hostOps0 (fun b => m (c, b)) (Proc.devRef .tc main_v137) = _
  simp (disch := decide) only [hostOps0, after_cons, after_nil,
    nullary_result', unary_result', binary_result', ternary_result', reshape_result',
    nullary_result_ne', unary_result_ne', binary_result_ne', ternary_result_ne', reshape_result_ne',
    concatenate_pair]
  rfl

end Cert.KernelIdeal.Operands

end
-- ==== Proof.KCorner11.lean ====
/-
  What the region finds in two of its operand arrays: the features and the weights of the corner with both coordinates one step on.
  The host operations before the region, evaluated at each of the two buffers one operation at a time, leave the composed
  term of the operations' functions over the two argument arrays, which is the prelude's named stage unfolded.
-/
import proofs.«139929_j36910948941984_2_alg».proof.Proof.Gen.KernelIdeal.Frame
import proofs.«139929_j36910948941984_2_alg».proof.Proof.Prelude

noncomputable section

namespace Cert.KernelIdeal.Operands

open Cert.KernelIdeal Cert.KernelIdeal.Gen Idealize.ShloMosaic Idealize.ShloMosaic.TcCoe Idealize.SL.Sem
open Idealize.ShloMosaic.StableHlo Cert.LibConcatPair

variable {F : FTy → Type} [FloatOps F]
variable (m : (ℓ : Loc nD τ sig) → Buf (Elt F) ℓ)

set_option maxRecDepth 65536 in
set_option maxHeartbeats 100000000 in
/-- The corner's gathered features, as the region finds them. -/
theorem entry_f11 (c : Dev nD) :
    V m c main_v161 = Cert.TriPlane.feat11 (m ((c : Thread nD τ).loc main_arg0)) (m ((c : Thread nD τ).loc main_arg1)) := by
  show StableHlo.after hostOps0 (fun b => m (c, b)) (Proc.devRef .tc main_v161) = _
  simp (disch := decide) only [hostOps0, after_cons, after_nil,
    nullary_result', unary_result', binary_result', ternary_result', reshape_result',
    nullary_result_ne', unary_result_ne', binary_result_ne', ternary_result_ne', reshape_result_ne',
    concatenate_pair]
  rfl

set_option maxRecDepth 65536 in
set_option maxHeartbeats 100000000 in
/-- The corner's weights, as the region finds them. -/
theorem entry_w11 (c : Dev nD) :
    V m c main_v162 = Cert.TriPlane.w11 (m ((c : Thread nD τ).loc main_arg0)) := by
  show StableHlo.after hostOps0 (fun b => m (c, b)) (Proc.devRef .tc main_v162) = _
  simp (disch := decide) only [hostOps0, after_cons, after_nil,
    nullary_result', unary_result', binary_result', ternary_result', reshape_result',
    nullary_result_ne', unary_result_ne', binary_result_ne', ternary_result_ne', reshape_result_ne',
    concatenate_pair]
  rfl

end Cert.KernelIdeal.Operands

end
-- ==== Proof.RefEncode.lean ====
/-
  The reference's blend and assembly, read entry by entry over the extended reals. Its blend adds the four corners up
  from a zero array, each weight array repeated over the two features and standing as the left factor: at an entry that
  is the sum from zero of weight times feature, which is the blend. Its assembly keeps the blend's three planes and puts
  their product behind them: the encoding's entry.
-/
import proofs.«139929_j36910948941984_2_alg».proof.Proof.Prelude
import proofs.«139929_j36910948941984_2_alg».proof.Proof.Encode
import proofs.«139929_j36910948941984_2_alg».proof.Proof.LibTrailing
import Idealize.ShloMosaic.PureOps.Ideal.Laws
import Idealize.ShloMosaic.Lib.IdealHost

noncomputable section

namespace Cert.TriPlane

open Cert.ReferenceIdeal Idealize.ShloMosaic Idealize.ShloMosaic.ValueIdx
open Cert.LibTrailing Cert.LibConcatPair

/-- The zero array read anywhere is the number zero. -/
theorem zeros_apply (i : S2097152x4x3x2.Idx) :
    broadcastInDim S2097152x4x3x2 ![] Facts₀.bcast_S_S2097152x4x3x2 (constant (F := Ideal) S_ .f32 0x00000000#32) i = (0 : EReal) :=
  (broadcastInDim_scalar_apply _ _ i).trans Ideal.ofBits_zero_f32

/-- The reference's blend at an entry is the blend. -/
theorem blendR_apply (f0 f1 f2 f3 : FVec Ideal S2097152x4x3x2 .f32) (w0 w1 w2 w3 : FVec Ideal S2097152x4x3 .f32)
    (b : Fin 2097152) (l : Fin 4) (p : Fin 3) (j : Fin 2) :
    blendR (F := Ideal) f0 f1 f2 f3 w0 w1 w2 w3 (ix4 b l p j) = blend f0 f1 f2 f3 w0 w1 w2 w3 b l p j := by
  refine Eq.trans ?_ (blend_from_zero f0 f1 f2 f3 w0 w1 w2 w3 b l p j)
  unfold blendR overFeatures
  refine congrArg₂ (· + ·) (congrArg₂ (· + ·) (congrArg₂ (· + ·) (congrArg₂ (· + ·) (zeros_apply _) ?_) ?_) ?_) ?_ <;>
    exact congrArg₂ (· * ·) (inDim_inDim_apply _ _ _ b l p j) rfl

/-- The reference's assembly of an array a: its planes 0, 1, 2, then their product. -/
theorem assembleR_apply (a : FVec Ideal S2097152x4x3x2 .f32) (b : Fin 2097152) (l : Fin 4) (s : Fin 4) (j : Fin 2) :
    assembleR (F := Ideal) a (ix4 b l s j)
      = match s with
        | ⟨0, _⟩ => a (ix4 b l 0 j)
        | ⟨1, _⟩ => a (ix4 b l 1 j)
        | ⟨2, _⟩ => a (ix4 b l 2 j)
        | ⟨3, _⟩ => a (ix4 b l 0 j) * a (ix4 b l 1 j) * a (ix4 b l 2 j) := by
  unfold assembleR concat2
  match s with
  | ⟨0, _⟩ => exact concat31_left a _ _ b l 0 0 rfl j
  | ⟨1, _⟩ => exact concat31_left a _ _ b l 1 1 rfl j
  | ⟨2, _⟩ => exact concat31_left a _ _ b l 2 2 rfl j
  | ⟨3, _⟩ =>
    refine (concat31_right a _ _ b l 3 rfl j).trans ?_
    refine (inDim_unit2_apply _ _ b l 0 j).trans ?_
    unfold plane0 plane1 plane2
    exact congrArg₂ (· * ·) (congrArg₂ (· * ·) (slice_cast_apply a 0 _ _ b l 0 rfl j) (slice_cast_apply a 1 _ _ b l 1 rfl j))
      (slice_cast_apply a 2 _ _ b l 2 rfl j)

/-- The reference's assembled blend is the encoding, entry by entry. -/
theorem assembleR_blendR (f0 f1 f2 f3 : FVec Ideal S2097152x4x3x2 .f32) (w0 w1 w2 w3 : FVec Ideal S2097152x4x3 .f32) :
    assembleR (F := Ideal) (blendR (F := Ideal) f0 f1 f2 f3 w0 w1 w2 w3) = enc f0 f1 f2 f3 w0 w1 w2 w3 := by
  funext i
  obtain ⟨b, l, s, j, rfl⟩ : ∃ (b : Fin 2097152) (l : Fin 4) (s : Fin 4) (j : Fin 2), i = ix4 b l s j :=
    ⟨i 0, i 1, i 2, i 3, eq_ix4 i⟩
  refine (assembleR_apply _ b l s j).trans ?_
  rw [enc_ix4]
  match s with
  | ⟨0, _⟩ => exact blendR_apply f0 f1 f2 f3 w0 w1 w2 w3 b l 0 j
  | ⟨1, _⟩ => exact blendR_apply f0 f1 f2 f3 w0 w1 w2 w3 b l 1 j
  | ⟨2, _⟩ => exact blendR_apply f0 f1 f2 f3 w0 w1 w2 w3 b l 2 j
  | ⟨3, _⟩ =>
    exact congrArg₂ (· * ·) (congrArg₂ (· * ·) (blendR_apply f0 f1 f2 f3 w0 w1 w2 w3 b l 0 j)
      (blendR_apply f0 f1 f2 f3 w0 w1 w2 w3 b l 1 j)) (blendR_apply f0 f1 f2 f3 w0 w1 w2 w3 b l 2 j)

/-- The encoding of positions x and table e: the encoding of the four corners' features and weights, the 32 numbers of
    each point side by side. -/
def encoding (x : FVec Ideal S2097152x3 .f32) (e : FVec Ideal S6291456 .f32) : FVec Ideal S2097152x32 .f32 :=
  sideBySide (F := Ideal) (enc (feat00 x e) (feat01 x e) (feat10 x e) (feat11 x e) (w00 x) (w01 x) (w10 x) (w11 x))

end Cert.TriPlane

end
-- ==== Proof.KRun.lean ====
/-
  What the kernel's program computes. The region leaves the result array at the encoding of the eight arrays it found,
  which the host operations before it had filled with the four corners' features and weights of the two arguments; the one
  host operation after the region lays each point's 32 numbers side by side. So the program's result is the encoding of
  its arguments, and no operation writes the arguments.
-/
import proofs.«139929_j36910948941984_2_alg».proof.Proof.KArray
import proofs.«139929_j36910948941984_2_alg».proof.Proof.KCorner00
import proofs.«139929_j36910948941984_2_alg».proof.Proof.KCorner01
import proofs.«139929_j36910948941984_2_alg».proof.Proof.KCorner10
import proofs.«139929_j36910948941984_2_alg».proof.Proof.KCorner11
import proofs.«139929_j36910948941984_2_alg».proof.Proof.RefEncode

noncomputable section

namespace Cert.KernelIdeal.Result

open Cert.KernelIdeal Cert.KernelIdeal.Gen Idealize.ShloMosaic Idealize.ShloMosaic.TcCoe Idealize.SL.Sem
open Cert.KernelIdeal.Operands

variable (m : (ℓ : Loc nD τ sig) → Buf (Elt Ideal) ℓ) (ρ : Dev nD → PrngReg)

/-- After the host operation behind the region, the result buffer holds the encoding of the arguments. -/
theorem tail_eq (c : Dev nD) :
    Pipeline.afterTail₀ cfgs (dats m) 0 (V0 m) [hostOps1] c main_v164
      = Cert.TriPlane.encoding (m ((c : Thread nD τ).loc main_arg0)) (m ((c : Thread nD τ).loc main_arg1)) := by
  unfold Pipeline.afterTail₀
  show StableHlo.after hostOps1 _ (Proc.devRef .tc main_v164) = _
  after_results
  have hA : Pipeline.withArrays (cfgs 0).spec c (V0 m c) (fun w => (dats m 0 c).arrAt w (cfgs 0).N) (Proc.devRef .tc main_v163)
      = Blocks.encoded m c :=
    (Pipeline.withArrays_arr spec0 launch0.win.arr_inj c _ _ 8).trans (Blocks.final m c)
  rw [hA]
  unfold Blocks.encoded
  rw [entry_f00 m c, entry_f01 m c, entry_f10 m c, entry_f11 m c, entry_w00 m c, entry_w01 m c, entry_w10 m c, entry_w11 m c]
  rfl

/-- From any memory with zero counters, every weakly fair execution of the kernel's program terminates, nothing faulting,
    with its result at the encoding of its arguments and its arguments as launched. -/
theorem run : θ_run defs (onTc (τ := τ) (main (F := Ideal))) ⟨m, fun _ => 0, ρ⟩ fun r => ∀ c : Dev nD,
      r.2.mem ((c.tc : Thread nD τ).loc main_v164)
          = Cert.TriPlane.encoding (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v164 (Pipeline.mem_restRefs_of main_v164 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Result

end
-- ==== Proof.RefOps.lean ====
/- The reference's host operations, in order, one list for each printed stretch of its main function: each entry is
   the operation of the corresponding printed line, copied. -/
import proofs.«139929_j36910948941984_2_alg».proof.Proof.Gen.ReferenceIdeal
import Idealize.ShloMosaic.Lib.StableHlo.Run

noncomputable section

namespace Cert.ReferenceIdeal.Ops

open Cert.ReferenceIdeal Idealize.ShloMosaic Idealize.ShloMosaic.TcCoe Idealize.SL.Sem
open Cert.ReferenceIdeal.Facts₀ Cert.ReferenceIdeal.Facts

variable {F : FTy → Type} [FloatOps F]

set_option maxHeartbeats 40000000 in
/-- The 60 operations of stretch 0 (main_part0), in order. -/
abbrev ops0 : List (HloOp τ sig (Elt F)) :=
  [ StableHlo.nullary main_cst (fun i => FloatOps.ofBits .f32 (lit0 (S4.rowMajor i))),
    StableHlo.nullary main_c (fun i => lit1 (S4.rowMajor i)),
    StableHlo.nullary main_c_0 (fun i => lit2 (S3.rowMajor i)),
    StableHlo.nullary main_c_1 (fun i => lit3 (S3.rowMajor i)),
    StableHlo.unary main_arg0 main_v0 (broadcastInDim S2097152x1x3 ![0, 2] bcast_S2097152x3_S2097152x1x3_0_2 : (⟨S2097152x3, .f32⟩ : BufTy).Contents (Elt F) → (⟨S2097152x1x3, .f32⟩ : BufTy).Contents (Elt F)),
    StableHlo.unary main_cst main_v1 (broadcastInDim S1x4x1 ![1] bcast_S4_S1x4x1_1 : (⟨S4, .f32⟩ : BufTy).Contents (Elt F) → (⟨S1x4x1, .f32⟩ : BufTy).Contents (Elt F)),
    StableHlo.nullary main_cst_2 (constant S_ .f32 0x3F800000#32),
    StableHlo.unary main_cst_2 main_v2 (broadcastInDim S1x4x1 ![] bcast_S_S1x4x1 : (⟨S_, .f32⟩ : BufTy).Contents (Elt F) → (⟨S1x4x1, .f32⟩ : BufTy).Contents (Elt F)),
    StableHlo.binary main_v1 main_v2 main_v3 (subf : (⟨S1x4x1, .f32⟩ : BufTy).Contents (Elt F) → (⟨S1x4x1, .f32⟩ : BufTy).Contents (Elt F) → (⟨S1x4x1, .f32⟩ : BufTy).Contents (Elt F)),
    StableHlo.unary main_v0 main_v4 (broadcastInDim S2097152x4x3 ![0, 1, 2] bcast_S2097152x1x3_S2097152x4x3_0_1_2 : (⟨S2097152x1x3, .f32⟩ : BufTy).Contents (Elt F) → (⟨S2097152x4x3, .f32⟩ : BufTy).Contents (Elt F)),
    StableHlo.unary main_v3 main_v5 (broadcastInDim S2097152x4x3 ![0, 1, 2] bcast_S1x4x1_S2097152x4x3_0_1_2 : (⟨S1x4x1, .f32⟩ : BufTy).Contents (Elt F) → (⟨S2097152x4x3, .f32⟩ : BufTy).Contents (Elt F)),
    StableHlo.binary main_v4 main_v5 main_v6 (mulf : (⟨S2097152x4x3, .f32⟩ : BufTy).Contents (Elt F) → (⟨S2097152x4x3, .f32⟩ : BufTy).Contents (Elt F) → (⟨S2097152x4x3, .f32⟩ : BufTy).Contents (Elt F)),
    StableHlo.nullary main_cst_3 (constant S_ .f32 0x3F000000#32),
    StableHlo.unary main_cst_3 main_v7 (broadcastInDim S2097152x4x3 ![] bcast_S_S2097152x4x3 : (⟨S_, .f32⟩ : BufTy).Contents (Elt F) → (⟨S2097152x4x3, .f32⟩ : BufTy).Contents (Elt F)),
    StableHlo.binary main_v6 main_v7 main_v8 (addf : (⟨S2097152x4x3, .f32⟩ : BufTy).Contents (Elt F) → (⟨S2097152x4x3, .f32⟩ : BufTy).Contents (Elt F) → (⟨S2097152x4x3, .f32⟩ : BufTy).Contents (Elt F)),
    StableHlo.unary main_v8 main_v9 (Host.floor : (⟨S2097152x4x3, .f32⟩ : BufTy).Contents (Elt F) → (⟨S2097152x4x3, .f32⟩ : BufTy).Contents (Elt F)),
    StableHlo.unary main_v9 main_v10 (fptosi 32 : (⟨S2097152x4x3, .f32⟩ : BufTy).Contents (Elt F) → (⟨S2097152x4x3, .i32⟩ : BufTy).Contents (Elt F)),
    StableHlo.unary main_v10 main_v11 (sitofp .f32 : (⟨S2097152x4x3, .i32⟩ : BufTy).Contents (Elt F) → (⟨S2097152x4x3, .f32⟩ : BufTy).Contents (Elt F)),
    StableHlo.binary main_v8 main_v11 main_v12 (subf : (⟨S2097152x4x3, .f32⟩ : BufTy).Contents (Elt F) → (⟨S2097152x4x3, .f32⟩ : BufTy).Contents (Elt F) → (⟨S2097152x4x3, .f32⟩ : BufTy).Contents (Elt F)),
    StableHlo.nullary main_c_4 (constantI S_ 32 0#32),
    StableHlo.unary main_c_4 main_v13 (broadcastInDim S3 ![] bcast_S_S3 : (⟨S_, .i32⟩ : BufTy).Contents (Elt F) → (⟨S3, .i32⟩ : BufTy).Contents (Elt F)),
    StableHlo.binary main_c_0 main_v13 main_v14 (cmpi .slt : (⟨S3, .i32⟩ : BufTy).Contents (Elt F) → (⟨S3, .i32⟩ : BufTy).Contents (Elt F) → (⟨S3, .i1⟩ : BufTy).Contents (Elt F)),
    StableHlo.nullary main_c_5 (constantI S_ 32 3#32),
    StableHlo.unary main_c_5 main_v15 (broadcastInDim S3 ![] bcast_S_S3 : (⟨S_, .i32⟩ : BufTy).Contents (Elt F) → (⟨S3, .i32⟩ : BufTy).Contents (Elt F)),
    StableHlo.binary main_c_0 main_v15 main_v16 (addi : (⟨S3, .i32⟩ : BufTy).Contents (Elt F) → (⟨S3, .i32⟩ : BufTy).Contents (Elt F) → (⟨S3, .i32⟩ : BufTy).Contents (Elt F)),
    StableHlo.ternary main_v14 main_v16 main_c_0 main_v17 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v17 main_v18 (broadcastInDim S3x1 ![0] bcast_S3_S3x1_0 : (⟨S3, .i32⟩ : BufTy).Contents (Elt F) → (⟨S3x1, .i32⟩ : BufTy).Contents (Elt F)),
    StableHlo.binary main_v12 main_v18 main_v19 ((fun x i => Host.gather gather_S2097152x4x3_S3x1_S2097152x4x3_01_2_n_n_2_1_209715241 x i) : (⟨S2097152x4x3, .f32⟩ : BufTy).Contents (Elt F) → (⟨S3x1, .i32⟩ : BufTy).Contents (Elt F) → (⟨S2097152x4x3, .f32⟩ : BufTy).Contents (Elt F)),
    StableHlo.nullary main_c_6 (constantI S_ 32 0#32),
    StableHlo.unary main_c_6 main_v20 (broadcastInDim S3 ![] bcast_S_S3 : (⟨S_, .i32⟩ : BufTy).Contents (Elt F) → (⟨S3, .i32⟩ : BufTy).Contents (Elt F)),
    StableHlo.binary main_c_1 main_v20 main_v21 (cmpi .slt : (⟨S3, .i32⟩ : BufTy).Contents (Elt F) → (⟨S3, .i32⟩ : BufTy).Contents (Elt F) → (⟨S3, .i1⟩ : BufTy).Contents (Elt F)),
    StableHlo.nullary main_c_7 (constantI S_ 32 3#32),
    StableHlo.unary main_c_7 main_v22 (broadcastInDim S3 ![] bcast_S_S3 : (⟨S_, .i32⟩ : BufTy).Contents (Elt F) → (⟨S3, .i32⟩ : BufTy).Contents (Elt F)),
    StableHlo.binary main_c_1 main_v22 main_v23 (addi : (⟨S3, .i32⟩ : BufTy).Contents (Elt F) → (⟨S3, .i32⟩ : BufTy).Contents (Elt F) → (⟨S3, .i32⟩ : BufTy).Contents (Elt F)),
    StableHlo.ternary main_v21 main_v23 main_c_1 main_v24 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v24 main_v25 (broadcastInDim S3x1 ![0] bcast_S3_S3x1_0 : (⟨S3, .i32⟩ : BufTy).Contents (Elt F) → (⟨S3x1, .i32⟩ : BufTy).Contents (Elt F)),
    StableHlo.binary main_v12 main_v25 main_v26 ((fun x i => Host.gather gather_S2097152x4x3_S3x1_S2097152x4x3_01_2_n_n_2_1_209715241 x i) : (⟨S2097152x4x3, .f32⟩ : BufTy).Contents (Elt F) → (⟨S3x1, .i32⟩ : BufTy).Contents (Elt F) → (⟨S2097152x4x3, .f32⟩ : BufTy).Contents (Elt F)),
    StableHlo.nullary main_c_8 (constantI S_ 32 0#32),
    StableHlo.unary main_c_8 main_v27 (broadcastInDim S3 ![] bcast_S_S3 : (⟨S_, .i32⟩ : BufTy).Contents (Elt F) → (⟨S3, .i32⟩ : BufTy).Contents (Elt F)),
    StableHlo.binary main_c_0 main_v27 main_v28 (cmpi .slt : (⟨S3, .i32⟩ : BufTy).Contents (Elt F) → (⟨S3, .i32⟩ : BufTy).Contents (Elt F) → (⟨S3, .i1⟩ : BufTy).Contents (Elt F)),
    StableHlo.nullary main_c_9 (constantI S_ 32 3#32),
    StableHlo.unary main_c_9 main_v29 (broadcastInDim S3 ![] bcast_S_S3 : (⟨S_, .i32⟩ : BufTy).Contents (Elt F) → (⟨S3, .i32⟩ : BufTy).Contents (Elt F)),
    StableHlo.binary main_c_0 main_v29 main_v30 (addi : (⟨S3, .i32⟩ : BufTy).Contents (Elt F) → (⟨S3, .i32⟩ : BufTy).Contents (Elt F) → (⟨S3, .i32⟩ : BufTy).Contents (Elt F)),
    StableHlo.ternary main_v28 main_v30 main_c_0 main_v31 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v31 main_v32 (broadcastInDim S3x1 ![0] bcast_S3_S3x1_0 : (⟨S3, .i32⟩ : BufTy).Contents (Elt F) → (⟨S3x1, .i32⟩ : BufTy).Contents (Elt F)),
    StableHlo.binary main_v10 main_v32 main_v33 ((fun x i => Host.gather gather_S2097152x4x3_S3x1_S2097152x4x3_01_2_n_n_2_1_209715241 x i) : (⟨S2097152x4x3, .i32⟩ : BufTy).Contents (Elt F) → (⟨S3x1, .i32⟩ : BufTy).Contents (Elt F) → (⟨S2097152x4x3, .i32⟩ : BufTy).Contents (Elt F)),
    StableHlo.nullary main_c_10 (constantI S_ 32 0#32),
    StableHlo.unary main_c_10 main_v34 (broadcastInDim S3 ![] bcast_S_S3 : (⟨S_, .i32⟩ : BufTy).Contents (Elt F) → (⟨S3, .i32⟩ : BufTy).Contents (Elt F)),
    StableHlo.binary main_c_1 main_v34 main_v35 (cmpi .slt : (⟨S3, .i32⟩ : BufTy).Contents (Elt F) → (⟨S3, .i32⟩ : BufTy).Contents (Elt F) → (⟨S3, .i1⟩ : BufTy).Contents (Elt F)),
    StableHlo.nullary main_c_11 (constantI S_ 32 3#32),
    StableHlo.unary main_c_11 main_v36 (broadcastInDim S3 ![] bcast_S_S3 : (⟨S_, .i32⟩ : BufTy).Contents (Elt F) → (⟨S3, .i32⟩ : BufTy).Contents (Elt F)),
    StableHlo.binary main_c_1 main_v36 main_v37 (addi : (⟨S3, .i32⟩ : BufTy).Contents (Elt F) → (⟨S3, .i32⟩ : BufTy).Contents (Elt F) → (⟨S3, .i32⟩ : BufTy).Contents (Elt F)),
    StableHlo.ternary main_v35 main_v37 main_c_1 main_v38 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v38 main_v39 (broadcastInDim S3x1 ![0] bcast_S3_S3x1_0 : (⟨S3, .i32⟩ : BufTy).Contents (Elt F) → (⟨S3x1, .i32⟩ : BufTy).Contents (Elt F)),
    StableHlo.binary main_v10 main_v39 main_v40 ((fun x i => Host.gather gather_S2097152x4x3_S3x1_S2097152x4x3_01_2_n_n_2_1_209715241 x i) : (⟨S2097152x4x3, .i32⟩ : BufTy).Contents (Elt F) → (⟨S3x1, .i32⟩ : BufTy).Contents (Elt F) → (⟨S2097152x4x3, .i32⟩ : BufTy).Contents (Elt F)),
    StableHlo.reshape main_arg1 main_v41 rfl shapeCasts_S6291456_S3x1048576x2,
    StableHlo.nullary main_v42 (iotaInDim S3 32 0),
    StableHlo.unary main_v42 main_v43 (broadcastInDim S1x1x3 ![2] bcast_S3_S1x1x3_2 : (⟨S3, .i32⟩ : BufTy).Contents (Elt F) → (⟨S1x1x3, .i32⟩ : BufTy).Contents (Elt F)),
    StableHlo.unary main_c main_v44 (broadcastInDim S1x4x1 ![1] bcast_S4_S1x4x1_1 : (⟨S4, .i32⟩ : BufTy).Contents (Elt F) → (⟨S1x4x1, .i32⟩ : BufTy).Contents (Elt F)),
    StableHlo.nullary main_cst_12 (constant S_ .f32 0x00000000#32) ]

set_option maxHeartbeats 40000000 in
/-- The 60 operations of stretch 1 (main_part1), in order. -/
abbrev ops1 : List (HloOp τ sig (Elt F)) :=
  [ StableHlo.unary main_cst_12 main_v45 (broadcastInDim S2097152x4x3x2 ![] bcast_S_S2097152x4x3x2 : (⟨S_, .f32⟩ : BufTy).Contents (Elt F) → (⟨S2097152x4x3x2, .f32⟩ : BufTy).Contents (Elt F)),
    StableHlo.nullary main_cst_13 (constant S_ .f32 0x3F800000#32),
    StableHlo.unary main_cst_13 main_v46 (broadcastInDim S2097152x4x3 ![] bcast_S_S2097152x4x3 : (⟨S_, .f32⟩ : BufTy).Contents (Elt F) → (⟨S2097152x4x3, .f32⟩ : BufTy).Contents (Elt F)),
    StableHlo.binary main_v46 main_v19 main_v47 (subf : (⟨S2097152x4x3, .f32⟩ : BufTy).Contents (Elt F) → (⟨S2097152x4x3, .f32⟩ : BufTy).Contents (Elt F) → (⟨S2097152x4x3, .f32⟩ : BufTy).Contents (Elt F)),
    StableHlo.nullary main_c_14 (constantI S_ 32 0#32),
    StableHlo.unary main_c_14 main_v48 (broadcastInDim S2097152x4x3 ![] bcast_S_S2097152x4x3 : (⟨S_, .i32⟩ : BufTy).Contents (Elt F) → (⟨S2097152x4x3, .i32⟩ : BufTy).Contents (Elt F)),
    StableHlo.binary main_v33 main_v48 main_v49 (addi : (⟨S2097152x4x3, .i32⟩ : BufTy).Contents (Elt F) → (⟨S2097152x4x3, .i32⟩ : BufTy).Contents (Elt F) → (⟨S2097152x4x3, .i32⟩ : BufTy).Contents (Elt F)),
    StableHlo.unary main_v44 main_v50 (broadcastInDim S2097152x4x3 ![0, 1, 2] bcast_S1x4x1_S2097152x4x3_0_1_2 : (⟨S1x4x1, .i32⟩ : BufTy).Contents (Elt F) → (⟨S2097152x4x3, .i32⟩ : BufTy).Contents (Elt F)),
    StableHlo.binary main_v49 main_v50 main_v51 (muli : (⟨S2097152x4x3, .i32⟩ : BufTy).Contents (Elt F) → (⟨S2097152x4x3, .i32⟩ : BufTy).Contents (Elt F) → (⟨S2097152x4x3, .i32⟩ : BufTy).Contents (Elt F)),
    StableHlo.nullary main_c_15 (constantI S_ 32 1023#32),
    StableHlo.unary main_c_15 main_v52 (broadcastInDim S2097152x4x3 ![] bcast_S_S2097152x4x3 : (⟨S_, .i32⟩ : BufTy).Contents (Elt F) → (⟨S2097152x4x3, .i32⟩ : BufTy).Contents (Elt F)),
    StableHlo.binary main_v51 main_v52 main_v53 (minsi : (⟨S2097152x4x3, .i32⟩ : BufTy).Contents (Elt F) → (⟨S2097152x4x3, .i32⟩ : BufTy).Contents (Elt F) → (⟨S2097152x4x3, .i32⟩ : BufTy).Contents (Elt F)),
    StableHlo.nullary main_cst_16 (constant S_ .f32 0x3F800000#32),
    StableHlo.unary main_cst_16 main_v54 (broadcastInDim S2097152x4x3 ![] bcast_S_S2097152x4x3 : (⟨S_, .f32⟩ : BufTy).Contents (Elt F) → (⟨S2097152x4x3, .f32⟩ : BufTy).Contents (Elt F)),
    StableHlo.binary main_v54 main_v26 main_v55 (subf : (⟨S2097152x4x3, .f32⟩ : BufTy).Contents (Elt F) → (⟨S2097152x4x3, .f32⟩ : BufTy).Contents (Elt F) → (⟨S2097152x4x3, .f32⟩ : BufTy).Contents (Elt F)),
    StableHlo.nullary main_c_17 (constantI S_ 32 0#32),
    StableHlo.unary main_c_17 main_v56 (broadcastInDim S2097152x4x3 ![] bcast_S_S2097152x4x3 : (⟨S_, .i32⟩ : BufTy).Contents (Elt F) → (⟨S2097152x4x3, .i32⟩ : BufTy).Contents (Elt F)),
    StableHlo.binary main_v40 main_v56 main_v57 (addi : (⟨S2097152x4x3, .i32⟩ : BufTy).Contents (Elt F) → (⟨S2097152x4x3, .i32⟩ : BufTy).Contents (Elt F) → (⟨S2097152x4x3, .i32⟩ : BufTy).Contents (Elt F)),
    StableHlo.unary main_v44 main_v58 (broadcastInDim S2097152x4x3 ![0, 1, 2] bcast_S1x4x1_S2097152x4x3_0_1_2 : (⟨S1x4x1, .i32⟩ : BufTy).Contents (Elt F) → (⟨S2097152x4x3, .i32⟩ : BufTy).Contents (Elt F)),
    StableHlo.binary main_v57 main_v58 main_v59 (muli : (⟨S2097152x4x3, .i32⟩ : BufTy).Contents (Elt F) → (⟨S2097152x4x3, .i32⟩ : BufTy).Contents (Elt F) → (⟨S2097152x4x3, .i32⟩ : BufTy).Contents (Elt F)),
    StableHlo.nullary main_c_18 (constantI S_ 32 1023#32),
    StableHlo.unary main_c_18 main_v60 (broadcastInDim S2097152x4x3 ![] bcast_S_S2097152x4x3 : (⟨S_, .i32⟩ : BufTy).Contents (Elt F) → (⟨S2097152x4x3, .i32⟩ : BufTy).Contents (Elt F)),
    StableHlo.binary main_v59 main_v60 main_v61 (minsi : (⟨S2097152x4x3, .i32⟩ : BufTy).Contents (Elt F) → (⟨S2097152x4x3, .i32⟩ : BufTy).Contents (Elt F) → (⟨S2097152x4x3, .i32⟩ : BufTy).Contents (Elt F)),
    StableHlo.nullary main_c_19 (constantI S_ 32 1024#32),
    StableHlo.unary main_c_19 main_v62 (broadcastInDim S2097152x4x3 ![] bcast_S_S2097152x4x3 : (⟨S_, .i32⟩ : BufTy).Contents (Elt F) → (⟨S2097152x4x3, .i32⟩ : BufTy).Contents (Elt F)),
    StableHlo.binary main_v61 main_v62 main_v63 (muli : (⟨S2097152x4x3, .i32⟩ : BufTy).Contents (Elt F) → (⟨S2097152x4x3, .i32⟩ : BufTy).Contents (Elt F) → (⟨S2097152x4x3, .i32⟩ : BufTy).Contents (Elt F)),
    StableHlo.binary main_v53 main_v63 main_v64 (addi : (⟨S2097152x4x3, .i32⟩ : BufTy).Contents (Elt F) → (⟨S2097152x4x3, .i32⟩ : BufTy).Contents (Elt F) → (⟨S2097152x4x3, .i32⟩ : BufTy).Contents (Elt F)),
    StableHlo.nullary main_c_20 (constantI S_ 32 0#32),
    StableHlo.unary main_c_20 main_v65 (broadcastInDim S1x1x3 ![] bcast_S_S1x1x3 : (⟨S_, .i32⟩ : BufTy).Contents (Elt F) → (⟨S1x1x3, .i32⟩ : BufTy).Contents (Elt F)),
    StableHlo.binary main_v43 main_v65 main_v66 (cmpi .slt : (⟨S1x1x3, .i32⟩ : BufTy).Contents (Elt F) → (⟨S1x1x3, .i32⟩ : BufTy).Contents (Elt F) → (⟨S1x1x3, .i1⟩ : BufTy).Contents (Elt F)),
    StableHlo.nullary main_c_21 (constantI S_ 32 3#32),
    StableHlo.unary main_c_21 main_v67 (broadcastInDim S1x1x3 ![] bcast_S_S1x1x3 : (⟨S_, .i32⟩ : BufTy).Contents (Elt F) → (⟨S1x1x3, .i32⟩ : BufTy).Contents (Elt F)),
    StableHlo.binary main_v43 main_v67 main_v68 (addi : (⟨S1x1x3, .i32⟩ : BufTy).Contents (Elt F) → (⟨S1x1x3, .i32⟩ : BufTy).Contents (Elt F) → (⟨S1x1x3, .i32⟩ : BufTy).Contents (Elt F)),
    StableHlo.ternary main_v66 main_v68 main_v43 main_v69 (select : (⟨S1x1x3, .i1⟩ : BufTy).Contents (Elt F) → (⟨S1x1x3, .i32⟩ : BufTy).Contents (Elt F) → (⟨S1x1x3, .i32⟩ : BufTy).Contents (Elt F) → (⟨S1x1x3, .i32⟩ : BufTy).Contents (Elt F)),
    StableHlo.nullary main_c_22 (constantI S_ 32 0#32),
    StableHlo.unary main_c_22 main_v70 (broadcastInDim S2097152x4x3 ![] bcast_S_S2097152x4x3 : (⟨S_, .i32⟩ : BufTy).Contents (Elt F) → (⟨S2097152x4x3, .i32⟩ : BufTy).Contents (Elt F)),
    StableHlo.binary main_v64 main_v70 main_v71 (cmpi .slt : (⟨S2097152x4x3, .i32⟩ : BufTy).Contents (Elt F) → (⟨S2097152x4x3, .i32⟩ : BufTy).Contents (Elt F) → (⟨S2097152x4x3, .i1⟩ : BufTy).Contents (Elt F)),
    StableHlo.nullary main_c_23 (constantI S_ 32 1048576#32),
    StableHlo.unary main_c_23 main_v72 (broadcastInDim S2097152x4x3 ![] bcast_S_S2097152x4x3 : (⟨S_, .i32⟩ : BufTy).Contents (Elt F) → (⟨S2097152x4x3, .i32⟩ : BufTy).Contents (Elt F)),
    StableHlo.binary main_v64 main_v72 main_v73 (addi : (⟨S2097152x4x3, .i32⟩ : BufTy).Contents (Elt F) → (⟨S2097152x4x3, .i32⟩ : BufTy).Contents (Elt F) → (⟨S2097152x4x3, .i32⟩ : BufTy).Contents (Elt F)),
    StableHlo.ternary main_v71 main_v73 main_v64 main_v74 (select : (⟨S2097152x4x3, .i1⟩ : BufTy).Contents (Elt F) → (⟨S2097152x4x3, .i32⟩ : BufTy).Contents (Elt F) → (⟨S2097152x4x3, .i32⟩ : BufTy).Contents (Elt F) → (⟨S2097152x4x3, .i32⟩ : BufTy).Contents (Elt F)),
    StableHlo.unary main_v69 main_v75 (broadcastInDim S2097152x4x3 ![0, 1, 2] bcast_S1x1x3_S2097152x4x3_0_1_2 : (⟨S1x1x3, .i32⟩ : BufTy).Contents (Elt F) → (⟨S2097152x4x3, .i32⟩ : BufTy).Contents (Elt F)),
    StableHlo.unary main_v75 main_v76 (broadcastInDim S2097152x4x3x1 ![0, 1, 2] bcast_S2097152x4x3_S2097152x4x3x1_0_1_2 : (⟨S2097152x4x3, .i32⟩ : BufTy).Contents (Elt F) → (⟨S2097152x4x3x1, .i32⟩ : BufTy).Contents (Elt F)),
    StableHlo.unary main_v74 main_v77 (broadcastInDim S2097152x4x3x1 ![0, 1, 2] bcast_S2097152x4x3_S2097152x4x3x1_0_1_2 : (⟨S2097152x4x3, .i32⟩ : BufTy).Contents (Elt F) → (⟨S2097152x4x3x1, .i32⟩ : BufTy).Contents (Elt F)),
    StableHlo.binary main_v76 main_v77 main_v78 ((fun a b => concatenate S2097152x4x3x2 3 [⟨S2097152x4x3x1, a⟩, ⟨S2097152x4x3x1, b⟩] concatenates_S2097152x4x3x1_S2097152x4x3x1_S2097152x4x3x2_d3) : (⟨S2097152x4x3x1, .i32⟩ : BufTy).Contents (Elt F) → (⟨S2097152x4x3x1, .i32⟩ : BufTy).Contents (Elt F) → (⟨S2097152x4x3x2, .i32⟩ : BufTy).Contents (Elt F)),
    StableHlo.binary main_v41 main_v78 main_v79 ((fun x i => Host.gather gather_S3x1048576x2_S2097152x4x3x2_S2097152x4x3x2_3_01_n_n_01_3_112 x i) : (⟨S3x1048576x2, .f32⟩ : BufTy).Contents (Elt F) → (⟨S2097152x4x3x2, .i32⟩ : BufTy).Contents (Elt F) → (⟨S2097152x4x3x2, .f32⟩ : BufTy).Contents (Elt F)),
    StableHlo.binary main_v47 main_v55 main_v80 (mulf : (⟨S2097152x4x3, .f32⟩ : BufTy).Contents (Elt F) → (⟨S2097152x4x3, .f32⟩ : BufTy).Contents (Elt F) → (⟨S2097152x4x3, .f32⟩ : BufTy).Contents (Elt F)),
    StableHlo.unary main_v80 main_v81 (broadcastInDim S2097152x4x3x1 ![0, 1, 2] bcast_S2097152x4x3_S2097152x4x3x1_0_1_2 : (⟨S2097152x4x3, .f32⟩ : BufTy).Contents (Elt F) → (⟨S2097152x4x3x1, .f32⟩ : BufTy).Contents (Elt F)),
    StableHlo.unary main_v81 main_v82 (broadcastInDim S2097152x4x3x2 ![0, 1, 2, 3] bcast_S2097152x4x3x1_S2097152x4x3x2_0_1_2_3 : (⟨S2097152x4x3x1, .f32⟩ : BufTy).Contents (Elt F) → (⟨S2097152x4x3x2, .f32⟩ : BufTy).Contents (Elt F)),
    StableHlo.binary main_v82 main_v79 main_v83 (mulf : (⟨S2097152x4x3x2, .f32⟩ : BufTy).Contents (Elt F) → (⟨S2097152x4x3x2, .f32⟩ : BufTy).Contents (Elt F) → (⟨S2097152x4x3x2, .f32⟩ : BufTy).Contents (Elt F)),
    StableHlo.binary main_v45 main_v83 main_v84 (addf : (⟨S2097152x4x3x2, .f32⟩ : BufTy).Contents (Elt F) → (⟨S2097152x4x3x2, .f32⟩ : BufTy).Contents (Elt F) → (⟨S2097152x4x3x2, .f32⟩ : BufTy).Contents (Elt F)),
    StableHlo.nullary main_c_24 (constantI S_ 32 1#32),
    StableHlo.unary main_c_24 main_v85 (broadcastInDim S2097152x4x3 ![] bcast_S_S2097152x4x3 : (⟨S_, .i32⟩ : BufTy).Contents (Elt F) → (⟨S2097152x4x3, .i32⟩ : BufTy).Contents (Elt F)),
    StableHlo.binary main_v40 main_v85 main_v86 (addi : (⟨S2097152x4x3, .i32⟩ : BufTy).Contents (Elt F) → (⟨S2097152x4x3, .i32⟩ : BufTy).Contents (Elt F) → (⟨S2097152x4x3, .i32⟩ : BufTy).Contents (Elt F)),
    StableHlo.unary main_v44 main_v87 (broadcastInDim S2097152x4x3 ![0, 1, 2] bcast_S1x4x1_S2097152x4x3_0_1_2 : (⟨S1x4x1, .i32⟩ : BufTy).Contents (Elt F) → (⟨S2097152x4x3, .i32⟩ : BufTy).Contents (Elt F)),
    StableHlo.binary main_v86 main_v87 main_v88 (muli : (⟨S2097152x4x3, .i32⟩ : BufTy).Contents (Elt F) → (⟨S2097152x4x3, .i32⟩ : BufTy).Contents (Elt F) → (⟨S2097152x4x3, .i32⟩ : BufTy).Contents (Elt F)),
    StableHlo.nullary main_c_25 (constantI S_ 32 1023#32),
    StableHlo.unary main_c_25 main_v89 (broadcastInDim S2097152x4x3 ![] bcast_S_S2097152x4x3 : (⟨S_, .i32⟩ : BufTy).Contents (Elt F) → (⟨S2097152x4x3, .i32⟩ : BufTy).Contents (Elt F)),
    StableHlo.binary main_v88 main_v89 main_v90 (minsi : (⟨S2097152x4x3, .i32⟩ : BufTy).Contents (Elt F) → (⟨S2097152x4x3, .i32⟩ : BufTy).Contents (Elt F) → (⟨S2097152x4x3, .i32⟩ : BufTy).Contents (Elt F)),
    StableHlo.nullary main_c_26 (constantI S_ 32 1024#32) ]

set_option maxHeartbeats 40000000 in
/-- The 60 operations of stretch 2 (main_part2), in order. -/
abbrev ops2 : List (HloOp τ sig (Elt F)) :=
  [ StableHlo.unary main_c_26 main_v91 (broadcastInDim S2097152x4x3 ![] bcast_S_S2097152x4x3 : (⟨S_, .i32⟩ : BufTy).Contents (Elt F) → (⟨S2097152x4x3, .i32⟩ : BufTy).Contents (Elt F)),
    StableHlo.binary main_v90 main_v91 main_v92 (muli : (⟨S2097152x4x3, .i32⟩ : BufTy).Contents (Elt F) → (⟨S2097152x4x3, .i32⟩ : BufTy).Contents (Elt F) → (⟨S2097152x4x3, .i32⟩ : BufTy).Contents (Elt F)),
    StableHlo.binary main_v53 main_v92 main_v93 (addi : (⟨S2097152x4x3, .i32⟩ : BufTy).Contents (Elt F) → (⟨S2097152x4x3, .i32⟩ : BufTy).Contents (Elt F) → (⟨S2097152x4x3, .i32⟩ : BufTy).Contents (Elt F)),
    StableHlo.nullary main_c_27 (constantI S_ 32 0#32),
    StableHlo.unary main_c_27 main_v94 (broadcastInDim S1x1x3 ![] bcast_S_S1x1x3 : (⟨S_, .i32⟩ : BufTy).Contents (Elt F) → (⟨S1x1x3, .i32⟩ : BufTy).Contents (Elt F)),
    StableHlo.binary main_v43 main_v94 main_v95 (cmpi .slt : (⟨S1x1x3, .i32⟩ : BufTy).Contents (Elt F) → (⟨S1x1x3, .i32⟩ : BufTy).Contents (Elt F) → (⟨S1x1x3, .i1⟩ : BufTy).Contents (Elt F)),
    StableHlo.nullary main_c_28 (constantI S_ 32 3#32),
    StableHlo.unary main_c_28 main_v96 (broadcastInDim S1x1x3 ![] bcast_S_S1x1x3 : (⟨S_, .i32⟩ : BufTy).Contents (Elt F) → (⟨S1x1x3, .i32⟩ : BufTy).Contents (Elt F)),
    StableHlo.binary main_v43 main_v96 main_v97 (addi : (⟨S1x1x3, .i32⟩ : BufTy).Contents (Elt F) → (⟨S1x1x3, .i32⟩ : BufTy).Contents (Elt F) → (⟨S1x1x3, .i32⟩ : BufTy).Contents (Elt F)),
    StableHlo.ternary main_v95 main_v97 main_v43 main_v98 (select : (⟨S1x1x3, .i1⟩ : BufTy).Contents (Elt F) → (⟨S1x1x3, .i32⟩ : BufTy).Contents (Elt F) → (⟨S1x1x3, .i32⟩ : BufTy).Contents (Elt F) → (⟨S1x1x3, .i32⟩ : BufTy).Contents (Elt F)),
    StableHlo.nullary main_c_29 (constantI S_ 32 0#32),
    StableHlo.unary main_c_29 main_v99 (broadcastInDim S2097152x4x3 ![] bcast_S_S2097152x4x3 : (⟨S_, .i32⟩ : BufTy).Contents (Elt F) → (⟨S2097152x4x3, .i32⟩ : BufTy).Contents (Elt F)),
    StableHlo.binary main_v93 main_v99 main_v100 (cmpi .slt : (⟨S2097152x4x3, .i32⟩ : BufTy).Contents (Elt F) → (⟨S2097152x4x3, .i32⟩ : BufTy).Contents (Elt F) → (⟨S2097152x4x3, .i1⟩ : BufTy).Contents (Elt F)),
    StableHlo.nullary main_c_30 (constantI S_ 32 1048576#32),
    StableHlo.unary main_c_30 main_v101 (broadcastInDim S2097152x4x3 ![] bcast_S_S2097152x4x3 : (⟨S_, .i32⟩ : BufTy).Contents (Elt F) → (⟨S2097152x4x3, .i32⟩ : BufTy).Contents (Elt F)),
    StableHlo.binary main_v93 main_v101 main_v102 (addi : (⟨S2097152x4x3, .i32⟩ : BufTy).Contents (Elt F) → (⟨S2097152x4x3, .i32⟩ : BufTy).Contents (Elt F) → (⟨S2097152x4x3, .i32⟩ : BufTy).Contents (Elt F)),
    StableHlo.ternary main_v100 main_v102 main_v93 main_v103 (select : (⟨S2097152x4x3, .i1⟩ : BufTy).Contents (Elt F) → (⟨S2097152x4x3, .i32⟩ : BufTy).Contents (Elt F) → (⟨S2097152x4x3, .i32⟩ : BufTy).Contents (Elt F) → (⟨S2097152x4x3, .i32⟩ : BufTy).Contents (Elt F)),
    StableHlo.unary main_v98 main_v104 (broadcastInDim S2097152x4x3 ![0, 1, 2] bcast_S1x1x3_S2097152x4x3_0_1_2 : (⟨S1x1x3, .i32⟩ : BufTy).Contents (Elt F) → (⟨S2097152x4x3, .i32⟩ : BufTy).Contents (Elt F)),
    StableHlo.unary main_v104 main_v105 (broadcastInDim S2097152x4x3x1 ![0, 1, 2] bcast_S2097152x4x3_S2097152x4x3x1_0_1_2 : (⟨S2097152x4x3, .i32⟩ : BufTy).Contents (Elt F) → (⟨S2097152x4x3x1, .i32⟩ : BufTy).Contents (Elt F)),
    StableHlo.unary main_v103 main_v106 (broadcastInDim S2097152x4x3x1 ![0, 1, 2] bcast_S2097152x4x3_S2097152x4x3x1_0_1_2 : (⟨S2097152x4x3, .i32⟩ : BufTy).Contents (Elt F) → (⟨S2097152x4x3x1, .i32⟩ : BufTy).Contents (Elt F)),
    StableHlo.binary main_v105 main_v106 main_v107 ((fun a b => concatenate S2097152x4x3x2 3 [⟨S2097152x4x3x1, a⟩, ⟨S2097152x4x3x1, b⟩] concatenates_S2097152x4x3x1_S2097152x4x3x1_S2097152x4x3x2_d3) : (⟨S2097152x4x3x1, .i32⟩ : BufTy).Contents (Elt F) → (⟨S2097152x4x3x1, .i32⟩ : BufTy).Contents (Elt F) → (⟨S2097152x4x3x2, .i32⟩ : BufTy).Contents (Elt F)),
    StableHlo.binary main_v41 main_v107 main_v108 ((fun x i => Host.gather gather_S3x1048576x2_S2097152x4x3x2_S2097152x4x3x2_3_01_n_n_01_3_112 x i) : (⟨S3x1048576x2, .f32⟩ : BufTy).Contents (Elt F) → (⟨S2097152x4x3x2, .i32⟩ : BufTy).Contents (Elt F) → (⟨S2097152x4x3x2, .f32⟩ : BufTy).Contents (Elt F)),
    StableHlo.binary main_v47 main_v26 main_v109 (mulf : (⟨S2097152x4x3, .f32⟩ : BufTy).Contents (Elt F) → (⟨S2097152x4x3, .f32⟩ : BufTy).Contents (Elt F) → (⟨S2097152x4x3, .f32⟩ : BufTy).Contents (Elt F)),
    StableHlo.unary main_v109 main_v110 (broadcastInDim S2097152x4x3x1 ![0, 1, 2] bcast_S2097152x4x3_S2097152x4x3x1_0_1_2 : (⟨S2097152x4x3, .f32⟩ : BufTy).Contents (Elt F) → (⟨S2097152x4x3x1, .f32⟩ : BufTy).Contents (Elt F)),
    StableHlo.unary main_v110 main_v111 (broadcastInDim S2097152x4x3x2 ![0, 1, 2, 3] bcast_S2097152x4x3x1_S2097152x4x3x2_0_1_2_3 : (⟨S2097152x4x3x1, .f32⟩ : BufTy).Contents (Elt F) → (⟨S2097152x4x3x2, .f32⟩ : BufTy).Contents (Elt F)),
    StableHlo.binary main_v111 main_v108 main_v112 (mulf : (⟨S2097152x4x3x2, .f32⟩ : BufTy).Contents (Elt F) → (⟨S2097152x4x3x2, .f32⟩ : BufTy).Contents (Elt F) → (⟨S2097152x4x3x2, .f32⟩ : BufTy).Contents (Elt F)),
    StableHlo.binary main_v84 main_v112 main_v113 (addf : (⟨S2097152x4x3x2, .f32⟩ : BufTy).Contents (Elt F) → (⟨S2097152x4x3x2, .f32⟩ : BufTy).Contents (Elt F) → (⟨S2097152x4x3x2, .f32⟩ : BufTy).Contents (Elt F)),
    StableHlo.nullary main_c_31 (constantI S_ 32 1#32),
    StableHlo.unary main_c_31 main_v114 (broadcastInDim S2097152x4x3 ![] bcast_S_S2097152x4x3 : (⟨S_, .i32⟩ : BufTy).Contents (Elt F) → (⟨S2097152x4x3, .i32⟩ : BufTy).Contents (Elt F)),
    StableHlo.binary main_v33 main_v114 main_v115 (addi : (⟨S2097152x4x3, .i32⟩ : BufTy).Contents (Elt F) → (⟨S2097152x4x3, .i32⟩ : BufTy).Contents (Elt F) → (⟨S2097152x4x3, .i32⟩ : BufTy).Contents (Elt F)),
    StableHlo.unary main_v44 main_v116 (broadcastInDim S2097152x4x3 ![0, 1, 2] bcast_S1x4x1_S2097152x4x3_0_1_2 : (⟨S1x4x1, .i32⟩ : BufTy).Contents (Elt F) → (⟨S2097152x4x3, .i32⟩ : BufTy).Contents (Elt F)),
    StableHlo.binary main_v115 main_v116 main_v117 (muli : (⟨S2097152x4x3, .i32⟩ : BufTy).Contents (Elt F) → (⟨S2097152x4x3, .i32⟩ : BufTy).Contents (Elt F) → (⟨S2097152x4x3, .i32⟩ : BufTy).Contents (Elt F)),
    StableHlo.nullary main_c_32 (constantI S_ 32 1023#32),
    StableHlo.unary main_c_32 main_v118 (broadcastInDim S2097152x4x3 ![] bcast_S_S2097152x4x3 : (⟨S_, .i32⟩ : BufTy).Contents (Elt F) → (⟨S2097152x4x3, .i32⟩ : BufTy).Contents (Elt F)),
    StableHlo.binary main_v117 main_v118 main_v119 (minsi : (⟨S2097152x4x3, .i32⟩ : BufTy).Contents (Elt F) → (⟨S2097152x4x3, .i32⟩ : BufTy).Contents (Elt F) → (⟨S2097152x4x3, .i32⟩ : BufTy).Contents (Elt F)),
    StableHlo.nullary main_cst_33 (constant S_ .f32 0x3F800000#32),
    StableHlo.unary main_cst_33 main_v120 (broadcastInDim S2097152x4x3 ![] bcast_S_S2097152x4x3 : (⟨S_, .f32⟩ : BufTy).Contents (Elt F) → (⟨S2097152x4x3, .f32⟩ : BufTy).Contents (Elt F)),
    StableHlo.binary main_v120 main_v26 main_v121 (subf : (⟨S2097152x4x3, .f32⟩ : BufTy).Contents (Elt F) → (⟨S2097152x4x3, .f32⟩ : BufTy).Contents (Elt F) → (⟨S2097152x4x3, .f32⟩ : BufTy).Contents (Elt F)),
    StableHlo.nullary main_c_34 (constantI S_ 32 0#32),
    StableHlo.unary main_c_34 main_v122 (broadcastInDim S2097152x4x3 ![] bcast_S_S2097152x4x3 : (⟨S_, .i32⟩ : BufTy).Contents (Elt F) → (⟨S2097152x4x3, .i32⟩ : BufTy).Contents (Elt F)),
    StableHlo.binary main_v40 main_v122 main_v123 (addi : (⟨S2097152x4x3, .i32⟩ : BufTy).Contents (Elt F) → (⟨S2097152x4x3, .i32⟩ : BufTy).Contents (Elt F) → (⟨S2097152x4x3, .i32⟩ : BufTy).Contents (Elt F)),
    StableHlo.unary main_v44 main_v124 (broadcastInDim S2097152x4x3 ![0, 1, 2] bcast_S1x4x1_S2097152x4x3_0_1_2 : (⟨S1x4x1, .i32⟩ : BufTy).Contents (Elt F) → (⟨S2097152x4x3, .i32⟩ : BufTy).Contents (Elt F)),
    StableHlo.binary main_v123 main_v124 main_v125 (muli : (⟨S2097152x4x3, .i32⟩ : BufTy).Contents (Elt F) → (⟨S2097152x4x3, .i32⟩ : BufTy).Contents (Elt F) → (⟨S2097152x4x3, .i32⟩ : BufTy).Contents (Elt F)),
    StableHlo.nullary main_c_35 (constantI S_ 32 1023#32),
    StableHlo.unary main_c_35 main_v126 (broadcastInDim S2097152x4x3 ![] bcast_S_S2097152x4x3 : (⟨S_, .i32⟩ : BufTy).Contents (Elt F) → (⟨S2097152x4x3, .i32⟩ : BufTy).Contents (Elt F)),
    StableHlo.binary main_v125 main_v126 main_v127 (minsi : (⟨S2097152x4x3, .i32⟩ : BufTy).Contents (Elt F) → (⟨S2097152x4x3, .i32⟩ : BufTy).Contents (Elt F) → (⟨S2097152x4x3, .i32⟩ : BufTy).Contents (Elt F)),
    StableHlo.nullary main_c_36 (constantI S_ 32 1024#32),
    StableHlo.unary main_c_36 main_v128 (broadcastInDim S2097152x4x3 ![] bcast_S_S2097152x4x3 : (⟨S_, .i32⟩ : BufTy).Contents (Elt F) → (⟨S2097152x4x3, .i32⟩ : BufTy).Contents (Elt F)),
    StableHlo.binary main_v127 main_v128 main_v129 (muli : (⟨S2097152x4x3, .i32⟩ : BufTy).Contents (Elt F) → (⟨S2097152x4x3, .i32⟩ : BufTy).Contents (Elt F) → (⟨S2097152x4x3, .i32⟩ : BufTy).Contents (Elt F)),
    StableHlo.binary main_v119 main_v129 main_v130 (addi : (⟨S2097152x4x3, .i32⟩ : BufTy).Contents (Elt F) → (⟨S2097152x4x3, .i32⟩ : BufTy).Contents (Elt F) → (⟨S2097152x4x3, .i32⟩ : BufTy).Contents (Elt F)),
    StableHlo.nullary main_c_37 (constantI S_ 32 0#32),
    StableHlo.unary main_c_37 main_v131 (broadcastInDim S1x1x3 ![] bcast_S_S1x1x3 : (⟨S_, .i32⟩ : BufTy).Contents (Elt F) → (⟨S1x1x3, .i32⟩ : BufTy).Contents (Elt F)),
    StableHlo.binary main_v43 main_v131 main_v132 (cmpi .slt : (⟨S1x1x3, .i32⟩ : BufTy).Contents (Elt F) → (⟨S1x1x3, .i32⟩ : BufTy).Contents (Elt F) → (⟨S1x1x3, .i1⟩ : BufTy).Contents (Elt F)),
    StableHlo.nullary main_c_38 (constantI S_ 32 3#32),
    StableHlo.unary main_c_38 main_v133 (broadcastInDim S1x1x3 ![] bcast_S_S1x1x3 : (⟨S_, .i32⟩ : BufTy).Contents (Elt F) → (⟨S1x1x3, .i32⟩ : BufTy).Contents (Elt F)),
    StableHlo.binary main_v43 main_v133 main_v134 (addi : (⟨S1x1x3, .i32⟩ : BufTy).Contents (Elt F) → (⟨S1x1x3, .i32⟩ : BufTy).Contents (Elt F) → (⟨S1x1x3, .i32⟩ : BufTy).Contents (Elt F)),
    StableHlo.ternary main_v132 main_v134 main_v43 main_v135 (select : (⟨S1x1x3, .i1⟩ : BufTy).Contents (Elt F) → (⟨S1x1x3, .i32⟩ : BufTy).Contents (Elt F) → (⟨S1x1x3, .i32⟩ : BufTy).Contents (Elt F) → (⟨S1x1x3, .i32⟩ : BufTy).Contents (Elt F)),
    StableHlo.nullary main_c_39 (constantI S_ 32 0#32),
    StableHlo.unary main_c_39 main_v136 (broadcastInDim S2097152x4x3 ![] bcast_S_S2097152x4x3 : (⟨S_, .i32⟩ : BufTy).Contents (Elt F) → (⟨S2097152x4x3, .i32⟩ : BufTy).Contents (Elt F)),
    StableHlo.binary main_v130 main_v136 main_v137 (cmpi .slt : (⟨S2097152x4x3, .i32⟩ : BufTy).Contents (Elt F) → (⟨S2097152x4x3, .i32⟩ : BufTy).Contents (Elt F) → (⟨S2097152x4x3, .i1⟩ : BufTy).Contents (Elt F)) ]

set_option maxHeartbeats 40000000 in
/-- The 60 operations of stretch 3 (main_part3), in order. -/
abbrev ops3 : List (HloOp τ sig (Elt F)) :=
  [ StableHlo.nullary main_c_40 (constantI S_ 32 1048576#32),
    StableHlo.unary main_c_40 main_v138 (broadcastInDim S2097152x4x3 ![] bcast_S_S2097152x4x3 : (⟨S_, .i32⟩ : BufTy).Contents (Elt F) → (⟨S2097152x4x3, .i32⟩ : BufTy).Contents (Elt F)),
    StableHlo.binary main_v130 main_v138 main_v139 (addi : (⟨S2097152x4x3, .i32⟩ : BufTy).Contents (Elt F) → (⟨S2097152x4x3, .i32⟩ : BufTy).Contents (Elt F) → (⟨S2097152x4x3, .i32⟩ : BufTy).Contents (Elt F)),
    StableHlo.ternary main_v137 main_v139 main_v130 main_v140 (select : (⟨S2097152x4x3, .i1⟩ : BufTy).Contents (Elt F) → (⟨S2097152x4x3, .i32⟩ : BufTy).Contents (Elt F) → (⟨S2097152x4x3, .i32⟩ : BufTy).Contents (Elt F) → (⟨S2097152x4x3, .i32⟩ : BufTy).Contents (Elt F)),
    StableHlo.unary main_v135 main_v141 (broadcastInDim S2097152x4x3 ![0, 1, 2] bcast_S1x1x3_S2097152x4x3_0_1_2 : (⟨S1x1x3, .i32⟩ : BufTy).Contents (Elt F) → (⟨S2097152x4x3, .i32⟩ : BufTy).Contents (Elt F)),
    StableHlo.unary main_v141 main_v142 (broadcastInDim S2097152x4x3x1 ![0, 1, 2] bcast_S2097152x4x3_S2097152x4x3x1_0_1_2 : (⟨S2097152x4x3, .i32⟩ : BufTy).Contents (Elt F) → (⟨S2097152x4x3x1, .i32⟩ : BufTy).Contents (Elt F)),
    StableHlo.unary main_v140 main_v143 (broadcastInDim S2097152x4x3x1 ![0, 1, 2] bcast_S2097152x4x3_S2097152x4x3x1_0_1_2 : (⟨S2097152x4x3, .i32⟩ : BufTy).Contents (Elt F) → (⟨S2097152x4x3x1, .i32⟩ : BufTy).Contents (Elt F)),
    StableHlo.binary main_v142 main_v143 main_v144 ((fun a b => concatenate S2097152x4x3x2 3 [⟨S2097152x4x3x1, a⟩, ⟨S2097152x4x3x1, b⟩] concatenates_S2097152x4x3x1_S2097152x4x3x1_S2097152x4x3x2_d3) : (⟨S2097152x4x3x1, .i32⟩ : BufTy).Contents (Elt F) → (⟨S2097152x4x3x1, .i32⟩ : BufTy).Contents (Elt F) → (⟨S2097152x4x3x2, .i32⟩ : BufTy).Contents (Elt F)),
    StableHlo.binary main_v41 main_v144 main_v145 ((fun x i => Host.gather gather_S3x1048576x2_S2097152x4x3x2_S2097152x4x3x2_3_01_n_n_01_3_112 x i) : (⟨S3x1048576x2, .f32⟩ : BufTy).Contents (Elt F) → (⟨S2097152x4x3x2, .i32⟩ : BufTy).Contents (Elt F) → (⟨S2097152x4x3x2, .f32⟩ : BufTy).Contents (Elt F)),
    StableHlo.binary main_v19 main_v121 main_v146 (mulf : (⟨S2097152x4x3, .f32⟩ : BufTy).Contents (Elt F) → (⟨S2097152x4x3, .f32⟩ : BufTy).Contents (Elt F) → (⟨S2097152x4x3, .f32⟩ : BufTy).Contents (Elt F)),
    StableHlo.unary main_v146 main_v147 (broadcastInDim S2097152x4x3x1 ![0, 1, 2] bcast_S2097152x4x3_S2097152x4x3x1_0_1_2 : (⟨S2097152x4x3, .f32⟩ : BufTy).Contents (Elt F) → (⟨S2097152x4x3x1, .f32⟩ : BufTy).Contents (Elt F)),
    StableHlo.unary main_v147 main_v148 (broadcastInDim S2097152x4x3x2 ![0, 1, 2, 3] bcast_S2097152x4x3x1_S2097152x4x3x2_0_1_2_3 : (⟨S2097152x4x3x1, .f32⟩ : BufTy).Contents (Elt F) → (⟨S2097152x4x3x2, .f32⟩ : BufTy).Contents (Elt F)),
    StableHlo.binary main_v148 main_v145 main_v149 (mulf : (⟨S2097152x4x3x2, .f32⟩ : BufTy).Contents (Elt F) → (⟨S2097152x4x3x2, .f32⟩ : BufTy).Contents (Elt F) → (⟨S2097152x4x3x2, .f32⟩ : BufTy).Contents (Elt F)),
    StableHlo.binary main_v113 main_v149 main_v150 (addf : (⟨S2097152x4x3x2, .f32⟩ : BufTy).Contents (Elt F) → (⟨S2097152x4x3x2, .f32⟩ : BufTy).Contents (Elt F) → (⟨S2097152x4x3x2, .f32⟩ : BufTy).Contents (Elt F)),
    StableHlo.nullary main_c_41 (constantI S_ 32 1#32),
    StableHlo.unary main_c_41 main_v151 (broadcastInDim S2097152x4x3 ![] bcast_S_S2097152x4x3 : (⟨S_, .i32⟩ : BufTy).Contents (Elt F) → (⟨S2097152x4x3, .i32⟩ : BufTy).Contents (Elt F)),
    StableHlo.binary main_v40 main_v151 main_v152 (addi : (⟨S2097152x4x3, .i32⟩ : BufTy).Contents (Elt F) → (⟨S2097152x4x3, .i32⟩ : BufTy).Contents (Elt F) → (⟨S2097152x4x3, .i32⟩ : BufTy).Contents (Elt F)),
    StableHlo.unary main_v44 main_v153 (broadcastInDim S2097152x4x3 ![0, 1, 2] bcast_S1x4x1_S2097152x4x3_0_1_2 : (⟨S1x4x1, .i32⟩ : BufTy).Contents (Elt F) → (⟨S2097152x4x3, .i32⟩ : BufTy).Contents (Elt F)),
    StableHlo.binary main_v152 main_v153 main_v154 (muli : (⟨S2097152x4x3, .i32⟩ : BufTy).Contents (Elt F) → (⟨S2097152x4x3, .i32⟩ : BufTy).Contents (Elt F) → (⟨S2097152x4x3, .i32⟩ : BufTy).Contents (Elt F)),
    StableHlo.nullary main_c_42 (constantI S_ 32 1023#32),
    StableHlo.unary main_c_42 main_v155 (broadcastInDim S2097152x4x3 ![] bcast_S_S2097152x4x3 : (⟨S_, .i32⟩ : BufTy).Contents (Elt F) → (⟨S2097152x4x3, .i32⟩ : BufTy).Contents (Elt F)),
    StableHlo.binary main_v154 main_v155 main_v156 (minsi : (⟨S2097152x4x3, .i32⟩ : BufTy).Contents (Elt F) → (⟨S2097152x4x3, .i32⟩ : BufTy).Contents (Elt F) → (⟨S2097152x4x3, .i32⟩ : BufTy).Contents (Elt F)),
    StableHlo.nullary main_c_43 (constantI S_ 32 1024#32),
    StableHlo.unary main_c_43 main_v157 (broadcastInDim S2097152x4x3 ![] bcast_S_S2097152x4x3 : (⟨S_, .i32⟩ : BufTy).Contents (Elt F) → (⟨S2097152x4x3, .i32⟩ : BufTy).Contents (Elt F)),
    StableHlo.binary main_v156 main_v157 main_v158 (muli : (⟨S2097152x4x3, .i32⟩ : BufTy).Contents (Elt F) → (⟨S2097152x4x3, .i32⟩ : BufTy).Contents (Elt F) → (⟨S2097152x4x3, .i32⟩ : BufTy).Contents (Elt F)),
    StableHlo.binary main_v119 main_v158 main_v159 (addi : (⟨S2097152x4x3, .i32⟩ : BufTy).Contents (Elt F) → (⟨S2097152x4x3, .i32⟩ : BufTy).Contents (Elt F) → (⟨S2097152x4x3, .i32⟩ : BufTy).Contents (Elt F)),
    StableHlo.nullary main_c_44 (constantI S_ 32 0#32),
    StableHlo.unary main_c_44 main_v160 (broadcastInDim S1x1x3 ![] bcast_S_S1x1x3 : (⟨S_, .i32⟩ : BufTy).Contents (Elt F) → (⟨S1x1x3, .i32⟩ : BufTy).Contents (Elt F)),
    StableHlo.binary main_v43 main_v160 main_v161 (cmpi .slt : (⟨S1x1x3, .i32⟩ : BufTy).Contents (Elt F) → (⟨S1x1x3, .i32⟩ : BufTy).Contents (Elt F) → (⟨S1x1x3, .i1⟩ : BufTy).Contents (Elt F)),
    StableHlo.nullary main_c_45 (constantI S_ 32 3#32),
    StableHlo.unary main_c_45 main_v162 (broadcastInDim S1x1x3 ![] bcast_S_S1x1x3 : (⟨S_, .i32⟩ : BufTy).Contents (Elt F) → (⟨S1x1x3, .i32⟩ : BufTy).Contents (Elt F)),
    StableHlo.binary main_v43 main_v162 main_v163 (addi : (⟨S1x1x3, .i32⟩ : BufTy).Contents (Elt F) → (⟨S1x1x3, .i32⟩ : BufTy).Contents (Elt F) → (⟨S1x1x3, .i32⟩ : BufTy).Contents (Elt F)),
    StableHlo.ternary main_v161 main_v163 main_v43 main_v164 (select : (⟨S1x1x3, .i1⟩ : BufTy).Contents (Elt F) → (⟨S1x1x3, .i32⟩ : BufTy).Contents (Elt F) → (⟨S1x1x3, .i32⟩ : BufTy).Contents (Elt F) → (⟨S1x1x3, .i32⟩ : BufTy).Contents (Elt F)),
    StableHlo.nullary main_c_46 (constantI S_ 32 0#32),
    StableHlo.unary main_c_46 main_v165 (broadcastInDim S2097152x4x3 ![] bcast_S_S2097152x4x3 : (⟨S_, .i32⟩ : BufTy).Contents (Elt F) → (⟨S2097152x4x3, .i32⟩ : BufTy).Contents (Elt F)),
    StableHlo.binary main_v159 main_v165 main_v166 (cmpi .slt : (⟨S2097152x4x3, .i32⟩ : BufTy).Contents (Elt F) → (⟨S2097152x4x3, .i32⟩ : BufTy).Contents (Elt F) → (⟨S2097152x4x3, .i1⟩ : BufTy).Contents (Elt F)),
    StableHlo.nullary main_c_47 (constantI S_ 32 1048576#32),
    StableHlo.unary main_c_47 main_v167 (broadcastInDim S2097152x4x3 ![] bcast_S_S2097152x4x3 : (⟨S_, .i32⟩ : BufTy).Contents (Elt F) → (⟨S2097152x4x3, .i32⟩ : BufTy).Contents (Elt F)),
    StableHlo.binary main_v159 main_v167 main_v168 (addi : (⟨S2097152x4x3, .i32⟩ : BufTy).Contents (Elt F) → (⟨S2097152x4x3, .i32⟩ : BufTy).Contents (Elt F) → (⟨S2097152x4x3, .i32⟩ : BufTy).Contents (Elt F)),
    StableHlo.ternary main_v166 main_v168 main_v159 main_v169 (select : (⟨S2097152x4x3, .i1⟩ : BufTy).Contents (Elt F) → (⟨S2097152x4x3, .i32⟩ : BufTy).Contents (Elt F) → (⟨S2097152x4x3, .i32⟩ : BufTy).Contents (Elt F) → (⟨S2097152x4x3, .i32⟩ : BufTy).Contents (Elt F)),
    StableHlo.unary main_v164 main_v170 (broadcastInDim S2097152x4x3 ![0, 1, 2] bcast_S1x1x3_S2097152x4x3_0_1_2 : (⟨S1x1x3, .i32⟩ : BufTy).Contents (Elt F) → (⟨S2097152x4x3, .i32⟩ : BufTy).Contents (Elt F)),
    StableHlo.unary main_v170 main_v171 (broadcastInDim S2097152x4x3x1 ![0, 1, 2] bcast_S2097152x4x3_S2097152x4x3x1_0_1_2 : (⟨S2097152x4x3, .i32⟩ : BufTy).Contents (Elt F) → (⟨S2097152x4x3x1, .i32⟩ : BufTy).Contents (Elt F)),
    StableHlo.unary main_v169 main_v172 (broadcastInDim S2097152x4x3x1 ![0, 1, 2] bcast_S2097152x4x3_S2097152x4x3x1_0_1_2 : (⟨S2097152x4x3, .i32⟩ : BufTy).Contents (Elt F) → (⟨S2097152x4x3x1, .i32⟩ : BufTy).Contents (Elt F)),
    StableHlo.binary main_v171 main_v172 main_v173 ((fun a b => concatenate S2097152x4x3x2 3 [⟨S2097152x4x3x1, a⟩, ⟨S2097152x4x3x1, b⟩] concatenates_S2097152x4x3x1_S2097152x4x3x1_S2097152x4x3x2_d3) : (⟨S2097152x4x3x1, .i32⟩ : BufTy).Contents (Elt F) → (⟨S2097152x4x3x1, .i32⟩ : BufTy).Contents (Elt F) → (⟨S2097152x4x3x2, .i32⟩ : BufTy).Contents (Elt F)),
    StableHlo.binary main_v41 main_v173 main_v174 ((fun x i => Host.gather gather_S3x1048576x2_S2097152x4x3x2_S2097152x4x3x2_3_01_n_n_01_3_112 x i) : (⟨S3x1048576x2, .f32⟩ : BufTy).Contents (Elt F) → (⟨S2097152x4x3x2, .i32⟩ : BufTy).Contents (Elt F) → (⟨S2097152x4x3x2, .f32⟩ : BufTy).Contents (Elt F)),
    StableHlo.binary main_v19 main_v26 main_v175 (mulf : (⟨S2097152x4x3, .f32⟩ : BufTy).Contents (Elt F) → (⟨S2097152x4x3, .f32⟩ : BufTy).Contents (Elt F) → (⟨S2097152x4x3, .f32⟩ : BufTy).Contents (Elt F)),
    StableHlo.unary main_v175 main_v176 (broadcastInDim S2097152x4x3x1 ![0, 1, 2] bcast_S2097152x4x3_S2097152x4x3x1_0_1_2 : (⟨S2097152x4x3, .f32⟩ : BufTy).Contents (Elt F) → (⟨S2097152x4x3x1, .f32⟩ : BufTy).Contents (Elt F)),
    StableHlo.unary main_v176 main_v177 (broadcastInDim S2097152x4x3x2 ![0, 1, 2, 3] bcast_S2097152x4x3x1_S2097152x4x3x2_0_1_2_3 : (⟨S2097152x4x3x1, .f32⟩ : BufTy).Contents (Elt F) → (⟨S2097152x4x3x2, .f32⟩ : BufTy).Contents (Elt F)),
    StableHlo.binary main_v177 main_v174 main_v178 (mulf : (⟨S2097152x4x3x2, .f32⟩ : BufTy).Contents (Elt F) → (⟨S2097152x4x3x2, .f32⟩ : BufTy).Contents (Elt F) → (⟨S2097152x4x3x2, .f32⟩ : BufTy).Contents (Elt F)),
    StableHlo.binary main_v150 main_v178 main_v179 (addf : (⟨S2097152x4x3x2, .f32⟩ : BufTy).Contents (Elt F) → (⟨S2097152x4x3x2, .f32⟩ : BufTy).Contents (Elt F) → (⟨S2097152x4x3x2, .f32⟩ : BufTy).Contents (Elt F)),
    StableHlo.unary main_v179 main_v180 ((extractStridedSlice S2097152x4x1x2 ![0, 0, 0, 0] · slices_S2097152x4x3x2_S2097152x4x1x2_0_0_0_0) : (⟨S2097152x4x3x2, .f32⟩ : BufTy).Contents (Elt F) → (⟨S2097152x4x1x2, .f32⟩ : BufTy).Contents (Elt F)),
    StableHlo.reshape main_v180 main_v181 rfl shapeCasts_S2097152x4x1x2_S2097152x4x2,
    StableHlo.unary main_v179 main_v182 ((extractStridedSlice S2097152x4x1x2 ![0, 0, 1, 0] · slices_S2097152x4x3x2_S2097152x4x1x2_0_0_1_0) : (⟨S2097152x4x3x2, .f32⟩ : BufTy).Contents (Elt F) → (⟨S2097152x4x1x2, .f32⟩ : BufTy).Contents (Elt F)),
    StableHlo.reshape main_v182 main_v183 rfl shapeCasts_S2097152x4x1x2_S2097152x4x2,
    StableHlo.binary main_v181 main_v183 main_v184 (mulf : (⟨S2097152x4x2, .f32⟩ : BufTy).Contents (Elt F) → (⟨S2097152x4x2, .f32⟩ : BufTy).Contents (Elt F) → (⟨S2097152x4x2, .f32⟩ : BufTy).Contents (Elt F)),
    StableHlo.unary main_v179 main_v185 ((extractStridedSlice S2097152x4x1x2 ![0, 0, 2, 0] · slices_S2097152x4x3x2_S2097152x4x1x2_0_0_2_0) : (⟨S2097152x4x3x2, .f32⟩ : BufTy).Contents (Elt F) → (⟨S2097152x4x1x2, .f32⟩ : BufTy).Contents (Elt F)),
    StableHlo.reshape main_v185 main_v186 rfl shapeCasts_S2097152x4x1x2_S2097152x4x2,
    StableHlo.binary main_v184 main_v186 main_v187 (mulf : (⟨S2097152x4x2, .f32⟩ : BufTy).Contents (Elt F) → (⟨S2097152x4x2, .f32⟩ : BufTy).Contents (Elt F) → (⟨S2097152x4x2, .f32⟩ : BufTy).Contents (Elt F)),
    StableHlo.unary main_v187 main_v188 (broadcastInDim S2097152x4x1x2 ![0, 1, 3] bcast_S2097152x4x2_S2097152x4x1x2_0_1_3 : (⟨S2097152x4x2, .f32⟩ : BufTy).Contents (Elt F) → (⟨S2097152x4x1x2, .f32⟩ : BufTy).Contents (Elt F)),
    StableHlo.binary main_v179 main_v188 main_v189 ((fun a b => concatenate S2097152x4x4x2 2 [⟨S2097152x4x3x2, a⟩, ⟨S2097152x4x1x2, b⟩] concatenates_S2097152x4x3x2_S2097152x4x1x2_S2097152x4x4x2_d2) : (⟨S2097152x4x3x2, .f32⟩ : BufTy).Contents (Elt F) → (⟨S2097152x4x1x2, .f32⟩ : BufTy).Contents (Elt F) → (⟨S2097152x4x4x2, .f32⟩ : BufTy).Contents (Elt F)) ]

set_option maxHeartbeats 40000000 in
/-- The 1 operations of stretch 4 (main_part4), in order. -/
abbrev ops4 : List (HloOp τ sig (Elt F)) :=
  [ StableHlo.reshape main_v189 main_v190 rfl shapeCasts_S2097152x4x4x2_S2097152x32 ]

end Cert.ReferenceIdeal.Ops

end
-- ==== Proof.RefRun.lean ====
/-
  The reference is a straight line of 241 host operations. Its main function is those operations run in order, so
  every weakly fair execution ends, without a fault, with every buffer at the fold of the operations' results over the
  contents the device was launched with. The line is printed in five stretches; each stretch is its own list run in
  order, and the stretches one after another are the concatenated list.
-/
import proofs.«139929_j36910948941984_2_alg».proof.Proof.RefOps

noncomputable section

namespace Cert.ReferenceIdeal.Ops

open Cert.ReferenceIdeal Idealize.ShloMosaic Idealize.ShloMosaic.TcCoe Idealize.SL.Sem
open Idealize.ShloMosaic.StableHlo

variable {F : FTy → Type} [FloatOps F]

/-- All the operations, in order: the five stretches end to end. -/
abbrev ops : List (HloOp τ sig (Elt F)) := ops0 ++ (ops1 ++ (ops2 ++ (ops3 ++ ops4)))

set_option maxRecDepth 8192 in
theorem main_part0_eq (c : Dev nD) : main_part0 (F := F) c = seq ops0 := rfl
set_option maxRecDepth 8192 in
theorem main_part1_eq (c : Dev nD) : main_part1 (F := F) c = seq ops1 := rfl
set_option maxRecDepth 8192 in
theorem main_part2_eq (c : Dev nD) : main_part2 (F := F) c = seq ops2 := rfl
set_option maxRecDepth 8192 in
theorem main_part3_eq (c : Dev nD) : main_part3 (F := F) c = seq ops3 := rfl
set_option maxRecDepth 8192 in
theorem main_part4_eq (c : Dev nD) : main_part4 (F := F) c = seq ops4 := rfl

/-- The main function is the whole line run in order. -/
theorem main_eq (c : Dev nD) : main (F := F) c = seq ops := by
  simp only [ops, seq_append, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches buffers of the TensorCore only. -/
theorem sub_of_builders (l : List (HloOp τ sig (Elt F)))
    (h : l.Forall fun op => op.bufs ⊆ tcRefs τ sig) : ∀ op ∈ l, op.bufs ⊆ tcRefs τ sig :=
  List.forall_iff_forall_mem.mp h

set_option maxRecDepth 8192 in
theorem ops0_sub : (ops0 : List (HloOp τ sig (Elt F))).Forall fun op => op.bufs ⊆ tcRefs τ sig := by
  simp only [List.Forall, nullary_bufs_sub, unary_bufs_sub, binary_bufs_sub, ternary_bufs_sub, reshape_bufs_sub, and_self]
set_option maxRecDepth 8192 in
theorem ops1_sub : (ops1 : List (HloOp τ sig (Elt F))).Forall fun op => op.bufs ⊆ tcRefs τ sig := by
  simp only [List.Forall, nullary_bufs_sub, unary_bufs_sub, binary_bufs_sub, ternary_bufs_sub, reshape_bufs_sub, and_self]
set_option maxRecDepth 8192 in
theorem ops2_sub : (ops2 : List (HloOp τ sig (Elt F))).Forall fun op => op.bufs ⊆ tcRefs τ sig := by
  simp only [List.Forall, nullary_bufs_sub, unary_bufs_sub, binary_bufs_sub, ternary_bufs_sub, reshape_bufs_sub, and_self]
set_option maxRecDepth 8192 in
theorem ops3_sub : (ops3 : List (HloOp τ sig (Elt F))).Forall fun op => op.bufs ⊆ tcRefs τ sig := by
  simp only [List.Forall, nullary_bufs_sub, unary_bufs_sub, binary_bufs_sub, ternary_bufs_sub, reshape_bufs_sub, and_self]
theorem ops4_sub : (ops4 : List (HloOp τ sig (Elt F))).Forall fun op => op.bufs ⊆ tcRefs τ sig :=
  reshape_bufs_sub ..

theorem ops_sub : (ops : List (HloOp τ sig (Elt F))).Forall fun op => op.bufs ⊆ tcRefs τ sig :=
  List.forall_iff_forall_mem.mpr fun op h => by
    simp only [ops, List.mem_append] at h
    rcases h with h | h | h | h | h
    exacts [sub_of_builders _ ops0_sub op h, sub_of_builders _ ops1_sub op h, sub_of_builders _ ops2_sub op h,
      sub_of_builders _ ops3_sub op h, sub_of_builders _ ops4_sub op h]

/-- No operation allocates: each determines its results. -/
theorem fresh_of_mem : ∀ op ∈ (ops : List (HloOp τ sig (Elt F))), op.fresh = ∅ := by
  have h0 : (ops0 : List (HloOp τ sig (Elt F))).Forall fun op => op.fresh = ∅ := by
    simp only [List.Forall]; repeat' constructor
  have h1 : (ops1 : List (HloOp τ sig (Elt F))).Forall fun op => op.fresh = ∅ := by
    simp only [List.Forall]; repeat' constructor
  have h2 : (ops2 : List (HloOp τ sig (Elt F))).Forall fun op => op.fresh = ∅ := by
    simp only [List.Forall]; repeat' constructor
  have h3 : (ops3 : List (HloOp τ sig (Elt F))).Forall fun op => op.fresh = ∅ := by
    simp only [List.Forall]; repeat' constructor
  have h4 : (ops4 : List (HloOp τ sig (Elt F))).Forall fun op => op.fresh = ∅ := by
    simp only [List.Forall]; rfl
  intro op h
  simp only [ops, List.mem_append] at h
  rcases h with h | h | h | h | h
  exacts [List.forall_iff_forall_mem.mp h0 op h, List.forall_iff_forall_mem.mp h1 op h, List.forall_iff_forall_mem.mp h2 op h,
    List.forall_iff_forall_mem.mp h3 op h, List.forall_iff_forall_mem.mp h4 op h]

/-- From any memory with zero counters, every weakly fair execution of the reference terminates, nothing faulting, with
    every buffer of every device at the fold of the operations' results over what the device was launched with. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ (fun _ => fresh_of_mem)

end Cert.ReferenceIdeal.Ops

end
-- ==== Proof.RefValue.lean ====
/-
  What the reference computes: its result buffer ends at the tri-plane encoding of its two arguments, stage by stage
  the functions named in the prelude, and its arguments end as launched. The fold of the 241 operations is evaluated
  at the result buffer one operation at a time; what is left is the composed term of the operations' functions, which
  is the named encoding unfolded.
-/
import proofs.«139929_j36910948941984_2_alg».proof.Proof.RefRun
import proofs.«139929_j36910948941984_2_alg».proof.Proof.Prelude

noncomputable section

namespace Cert.ReferenceIdeal.Ops

open Cert.ReferenceIdeal Idealize.ShloMosaic Idealize.ShloMosaic.TcCoe Idealize.SL.Sem
open Idealize.ShloMosaic.StableHlo Cert.TriPlane Cert.LibConcatPair

variable {F : FTy → Type} [FloatOps F]

/-- The reference's encoding of positions x and table e. -/
def encodeR (x : FVec F S2097152x3 .f32) (e : FVec F S6291456 .f32) : FVec F S2097152x32 .f32 :=
  sideBySide (assembleR (blendR (feat00 x e) (feat01 x e) (feat10 x e) (feat11 x e) (w00 x) (w01 x) (w10 x) (w11 x)))

set_option maxRecDepth 65536 in
set_option maxHeartbeats 100000000 in
/-- The fold at the result buffer is the encoding of the two arguments' contents. -/
theorem result_fold (V : Valuation τ sig (Elt F)) :
    after ops V (Proc.devRef .tc main_v190)
      = encodeR (V (Proc.devRef .tc main_arg0)) (V (Proc.devRef .tc main_arg1)) := by
  simp only [ops, ops0, ops1, ops2, ops3, ops4, List.cons_append, List.nil_append]
  simp (disch := decide) only [after_cons, after_nil,
    nullary_result', unary_result', binary_result', ternary_result', reshape_result',
    nullary_result_ne', unary_result_ne', binary_result_ne', ternary_result_ne', reshape_result_ne',
    concatenate_pair]
  rfl

set_option maxRecDepth 65536 in
set_option maxHeartbeats 100000000 in
/-- No operation writes the first argument. -/
theorem arg0_fold (V : Valuation τ sig (Elt F)) :
    after ops V (Proc.devRef .tc main_arg0) = V (Proc.devRef .tc main_arg0) := by
  simp only [ops, ops0, ops1, ops2, ops3, ops4, List.cons_append, List.nil_append]
  simp (disch := decide) only [after_cons, after_nil,
    nullary_result_ne', unary_result_ne', binary_result_ne', ternary_result_ne', reshape_result_ne']

set_option maxRecDepth 65536 in
set_option maxHeartbeats 100000000 in
/-- No operation writes the second argument. -/
theorem arg1_fold (V : Valuation τ sig (Elt F)) :
    after ops V (Proc.devRef .tc main_arg1) = V (Proc.devRef .tc main_arg1) := by
  simp only [ops, ops0, ops1, ops2, ops3, ops4, List.cons_append, List.nil_append]
  simp (disch := decide) only [after_cons, after_nil,
    nullary_result_ne', unary_result_ne', binary_result_ne', ternary_result_ne', reshape_result_ne']

/-- From any memory with zero counters, every weakly fair execution of the reference terminates, nothing faulting, with
    its result at the encoding of its arguments and its arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v190)
          = encodeR (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v190).trans (result_fold (launchContents m c)),
       (h c main_arg0).trans (arg0_fold (launchContents m c)),
       (h c main_arg1).trans (arg1_fold (launchContents m c))⟩)
    (run_fold m ρ)

end Cert.ReferenceIdeal.Ops

end
-- ==== Proof.lean ====
/-
  The kernel and its reference compute the tri-plane encoding of their two arguments, the positions and the table.

  Both programs first run the same host operations: they scale each position to every level, take the cell and the
  fraction, and for each of the four corners of the cell gather two features per plane and level from the table and form
  the corner's weight. From these eight arrays the reference adds, starting from zero, weight times features over the
  corners, keeps the three planes of that blend and appends their product. The kernel does the blend and the assembly
  block by block on a grid of 16384 points, 128 positions each, features times weight and without the zero. Over the
  extended reals 0 + z = z and z · z' = z' · z always hold, so entry by entry the two are one function of the eight arrays,
  and the blocks cover the result; both lay the 32 numbers of a position side by side in the same way. No finiteness of
  the inputs is used. The idealized kernel is the kernel's own text: nothing was rewritten.
-/
import proofs.«139929_j36910948941984_2_alg».proof.Defs
import proofs.«139929_j36910948941984_2_alg».proof.Proof.Gen.Kernel
import proofs.«139929_j36910948941984_2_alg».proof.Proof.Gen.Kernel.Frame
import proofs.«139929_j36910948941984_2_alg».proof.Proof.Gen.KernelIdeal
import proofs.«139929_j36910948941984_2_alg».proof.Proof.Gen.KernelIdeal.Frame
import proofs.«139929_j36910948941984_2_alg».proof.Proof.Gen.ReferenceIdeal
import proofs.«139929_j36910948941984_2_alg».proof.Proof.Gen.Pre_finite_inputs
import proofs.«139929_j36910948941984_2_alg».proof.Proof.KRun
import proofs.«139929_j36910948941984_2_alg».proof.Proof.RefValue
import proofs.«139929_j36910948941984_2_alg».proof.Proof.RefEncode
import Idealize.ShloMosaic.Adequacy
import Idealize.ShloMosaic.Init

noncomputable section

namespace Cert.Proof

open Idealize.ShloMosaic Idealize.SL.Sem

/-- The reference's encoding, stage by stage in its own order of operations, is the encoding. -/
theorem encodeR_eq (x : FVec Ideal Cert.ReferenceIdeal.S2097152x3 .f32) (e : FVec Ideal Cert.ReferenceIdeal.S6291456 .f32) :
    Cert.ReferenceIdeal.Ops.encodeR (F := Ideal) x e = Cert.TriPlane.encoding x e := by
  unfold Cert.ReferenceIdeal.Ops.encodeR Cert.TriPlane.encoding
  rw [Cert.TriPlane.assembleR_blendR]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Ops.run (F := Ideal) m ρ)

/-- Run from memories that agree on the arguments, both programs end with the encoding of those arguments. -/
theorem algebraic : Cert.algebraic_KernelIdeal_ReferenceIdeal := by
  intro m ρ m' ρ' _ hagree
  refine ⟨fun c => Cert.TriPlane.encoding
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨(h c).1.trans ?_, (h c).2⟩)
    (Cert.ReferenceIdeal.Ops.run (F := Ideal) m' ρ')
  rw [(hagree c).1, (hagree c).2]
  exact encodeR_eq _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
